-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4x32x32x128x16 : Shape := ⟨5, ![4, 32, 32, 128, 16]⟩
abbrev S4x32x32x16x128 : Shape := ⟨5, ![4, 32, 32, 16, 128]⟩
abbrev S4x32x32x1x1 : Shape := ⟨5, ![4, 32, 32, 1, 1]⟩
abbrev S32x32x1x1 : Shape := ⟨4, ![32, 32, 1, 1]⟩
abbrev S4096x4096 : Shape := ⟨2, ![4096, 4096]⟩
abbrev S4096 : Shape := ⟨1, ![4096]⟩
abbrev S32x32 : Shape := ⟨2, ![32, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4x32x32x1x1 : S_.BroadcastsInDim S4x32x32x1x1 (![] : Fin 0 → Fin S4x32x32x1x1.rank)
  reducesTo_S4x32x32x1x1_S_d0_1_2_3_4 : S4x32x32x1x1.ReducesTo [0, 1, 2, 3, 4] S_
  bcast_S_S32x32x1x1 : S_.BroadcastsInDim S32x32x1x1 (![] : Fin 0 → Fin S32x32x1x1.rank)
  reducesTo_S32x32x1x1_S_d0_1_2_3 : S32x32x1x1.ReducesTo [0, 1, 2, 3] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg6 : FVec F S32x32x1x1 .f32) (main_arg7 : FVec F S4096x4096 .f32) (main_arg8 : FVec F S4096 .f32) (main_v13 : IVec S_ 1) (main_v16 : IVec S4x32x32x1x1 1) : IVec S_ 1 :=
  let main_c_5 : IVec S_ 1 := constantI S_ 1 1#1
  let main_v17 : IVec S_ 1 := (fun x v => Host.reduce IntOp.andi x v reducesTo_S4x32x32x1x1_S_d0_1_2_3_4 h_S_) main_v16 main_c_5
  let main_v18 : IVec S_ 1 := andi main_v13 main_v17
  let main_v19 : FVec F S32x32x1x1 .f32 := Host.absf main_arg6
  let main_cst_6 : FVec F S_ .f32 := constant S_ .f32 0x7F800000#32
  let main_v20 : FVec F S32x32x1x1 .f32 := broadcastInDim S32x32x1x1 ![] bcast_S_S32x32x1x1 main_cst_6
  let main_v21 : IVec S32x32x1x1 1 := cmpf .olt main_v19 main_v20
  let main_c_7 : IVec S_ 1 := constantI S_ 1 1#1
  let main_v22 : IVec S_ 1 := (fun x v => Host.reduce IntOp.andi x v reducesTo_S32x32x1x1_S_d0_1_2_3 h_S_) main_v21 main_c_7
  let main_v23 : IVec S_ 1 := andi main_v18 main_v22
  let main_v24 : FVec F S4096x4096 .f32 := Host.absf main_arg7
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg8
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : IVec S4x32x32x128x16 1) (main_arg2 : IVec S4x32x32x16x128 1) (main_arg3 : FVec F S4x32x32x1x1 .f32) (main_arg4 : FVec F S4x32x32x1x1 .f32) (main_arg5 : FVec F S4x32x32x1x1 .f32) (main_arg6 : FVec F S32x32x1x1 .f32) (main_arg7 : FVec F S4096x4096 .f32) (main_arg8 : FVec F S4096 .f32) (main_arg9 : IVec S32x32 1) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4x32x32x1x1 .f32 := Host.absf main_arg3
  let main_cst_0 : FVec F S_ .f32 := constant S_ .f32 0x7F800000#32
  let main_v5 : FVec F S4x32x32x1x1 .f32 := broadcastInDim S4x32x32x1x1 ![] bcast_S_S4x32x32x1x1 main_cst_0
  let main_v6 : IVec S4x32x32x1x1 1 := cmpf .olt main_v4 main_v5
  let main_c_1 : IVec S_ 1 := constantI S_ 1 1#1
  let main_v7 : IVec S_ 1 := (fun x v => Host.reduce IntOp.andi x v reducesTo_S4x32x32x1x1_S_d0_1_2_3_4 h_S_) main_v6 main_c_1
  let main_v8 : IVec S_ 1 := andi main_v3 main_v7
  let main_v9 : FVec F S4x32x32x1x1 .f32 := Host.absf main_arg4
  let main_cst_2 : FVec F S_ .f32 := constant S_ .f32 0x7F800000#32
  let main_v10 : FVec F S4x32x32x1x1 .f32 := broadcastInDim S4x32x32x1x1 ![] bcast_S_S4x32x32x1x1 main_cst_2
  let main_v11 : IVec S4x32x32x1x1 1 := cmpf .olt main_v9 main_v10
  let main_c_3 : IVec S_ 1 := constantI S_ 1 1#1
  let main_v12 : IVec S_ 1 := (fun x v => Host.reduce IntOp.andi x v reducesTo_S4x32x32x1x1_S_d0_1_2_3_4 h_S_) main_v11 main_c_3
  let main_v13 : IVec S_ 1 := andi main_v8 main_v12
  let main_v14 : FVec F S4x32x32x1x1 .f32 := Host.absf main_arg5
  let main_cst_4 : FVec F S_ .f32 := constant S_ .f32 0x7F800000#32
  let main_v15 : FVec F S4x32x32x1x1 .f32 := broadcastInDim S4x32x32x1x1 ![] bcast_S_S4x32x32x1x1 main_cst_4
  let main_v16 : IVec S4x32x32x1x1 1 := cmpf .olt main_v14 main_v15
  fn_part1 (F := F) main_arg6 main_arg7 main_arg8 main_v13 main_v16
-- ==== Kernel.lean ====
abbrev S8192x4096 : Shape := ⟨2, ![8192, 4096]⟩
abbrev S4x32x32x128x16 : Shape := ⟨5, ![4, 32, 32, 128, 16]⟩
abbrev S4x32x32x16x128 : Shape := ⟨5, ![4, 32, 32, 16, 128]⟩
abbrev S4x32x32x1x1 : Shape := ⟨5, ![4, 32, 32, 1, 1]⟩
abbrev S32x32x1x1 : Shape := ⟨4, ![32, 32, 1, 1]⟩
abbrev S4096x4096 : Shape := ⟨2, ![4096, 4096]⟩
abbrev S4096 : Shape := ⟨1, ![4096]⟩
abbrev S32x32 : Shape := ⟨2, ![32, 32]⟩
abbrev S32x32x4x128x16 : Shape := ⟨5, ![32, 32, 4, 128, 16]⟩
abbrev S32x32x4x16x128 : Shape := ⟨5, ![32, 32, 4, 16, 128]⟩
abbrev S32x32x4x1x1 : Shape := ⟨5, ![32, 32, 4, 1, 1]⟩
abbrev S1x32x4x128x16 : Shape := ⟨5, ![1, 32, 4, 128, 16]⟩
abbrev S1x32x4x16x128 : Shape := ⟨5, ![1, 32, 4, 16, 128]⟩
abbrev S1x32x4x1x1 : Shape := ⟨5, ![1, 32, 4, 1, 1]⟩
abbrev S1x32x1x1 : Shape := ⟨4, ![1, 32, 1, 1]⟩
abbrev S128x4096 : Shape := ⟨2, ![128, 4096]⟩
abbrev S1x1x4x128x16 : Shape := ⟨5, ![1, 1, 4, 128, 16]⟩
abbrev S4x128x16 : Shape := ⟨3, ![4, 128, 16]⟩
abbrev S1x1x4x16x128 : Shape := ⟨5, ![1, 1, 4, 16, 128]⟩
abbrev S4x16x128 : Shape := ⟨3, ![4, 16, 128]⟩
abbrev S1x1x4x1x1 : Shape := ⟨5, ![1, 1, 4, 1, 1]⟩
abbrev S4x1x1 : Shape := ⟨3, ![4, 1, 1]⟩
abbrev S1x1x1x1 : Shape := ⟨4, ![1, 1, 1, 1]⟩
abbrev S1x1 : Shape := ⟨2, ![1, 1]⟩
abbrev S4x128x128 : Shape := ⟨3, ![4, 128, 128]⟩
abbrev S4x128 : Shape := ⟨2, ![4, 128]⟩
abbrev S4x128x1 : Shape := ⟨3, ![4, 128, 1]⟩
abbrev S4x1x128 : Shape := ⟨3, ![4, 1, 128]⟩
abbrev S128x128 : Shape := ⟨2, ![128, 128]⟩
abbrev S1024x512 : Shape := ⟨2, ![1024, 512]⟩
abbrev S2048x512 : Shape := ⟨2, ![2048, 512]⟩
abbrev S2048 : Shape := ⟨1, ![2048]⟩
abbrev S1024x2048 : Shape := ⟨2, ![1024, 2048]⟩
abbrev S1x2048 : Shape := ⟨2, ![1, 2048]⟩

abbrev nBuf : Space → Nat
  | .hbm => 19
  | .vmem => 24
  | .smem => 1
  | _ => 0

abbrev bufTy : (tb : Table) → Fin (tcTables nBuf tb) → BufTy
  | .hbm, ⟨0, _⟩ => ⟨S8192x4096, .f32⟩
  | .hbm, ⟨1, _⟩ => ⟨S4x32x32x128x16, .i1⟩
  | .hbm, ⟨2, _⟩ => ⟨S4x32x32x16x128, .i1⟩
  | .hbm, ⟨3, _⟩ => ⟨S4x32x32x1x1, .f32⟩
  | .hbm, ⟨4, _⟩ => ⟨S4x32x32x1x1, .f32⟩
  | .hbm, ⟨5, _⟩ => ⟨S4x32x32x1x1, .f32⟩
  | .hbm, ⟨6, _⟩ => ⟨S32x32x1x1, .f32⟩
  | .hbm, ⟨7, _⟩ => ⟨S4096x4096, .f32⟩
  | .hbm, ⟨8, _⟩ => ⟨S4096, .f32⟩
  | .hbm, ⟨9, _⟩ => ⟨S32x32, .i1⟩
  | .hbm, ⟨10, _⟩ => ⟨S32x32x4x128x16, .i1⟩
  | .hbm, ⟨11, _⟩ => ⟨S32x32x4x128x16, .bf16⟩
  | .hbm, ⟨12, _⟩ => ⟨S32x32x4x16x128, .i1⟩
  | .hbm, ⟨13, _⟩ => ⟨S32x32x4x16x128, .bf16⟩
  | .hbm, ⟨14, _⟩ => ⟨S32x32x4x1x1, .f32⟩
  | .hbm, ⟨15, _⟩ => ⟨S32x32x4x1x1, .f32⟩
  | .hbm, ⟨16, _⟩ => ⟨S32x32x4x1x1, .f32⟩
  | .hbm, ⟨17, _⟩ => ⟨S4096x4096, .bf16⟩
  | .hbm, ⟨18, _⟩ => ⟨S8192x4096, .f32⟩
  | .local _ .vmem, ⟨0, _⟩ => ⟨S1x32x4x128x16, .bf16⟩
  | .local _ .vmem, ⟨1, _⟩ => ⟨S1x32x4x128x16, .bf16⟩
  | .local _ .vmem, ⟨2, _⟩ => ⟨S1x32x4x16x128, .bf16⟩
  | .local _ .vmem, ⟨3, _⟩ => ⟨S1x32x4x16x128, .bf16⟩
  | .local _ .vmem, ⟨4, _⟩ => ⟨S1x32x4x1x1, .f32⟩
  | .local _ .vmem, ⟨5, _⟩ => ⟨S1x32x4x1x1, .f32⟩
  | .local _ .vmem, ⟨6, _⟩ => ⟨S1x32x4x1x1, .f32⟩
  | .local _ .vmem, ⟨7, _⟩ => ⟨S1x32x4x1x1, .f32⟩
  | .local _ .vmem, ⟨8, _⟩ => ⟨S1x32x4x1x1, .f32⟩
  | .local _ .vmem, ⟨9, _⟩ => ⟨S1x32x4x1x1, .f32⟩
  | .local _ .vmem, ⟨10, _⟩ => ⟨S1x32x1x1, .f32⟩
  | .local _ .vmem, ⟨11, _⟩ => ⟨S1x32x1x1, .f32⟩
  | .local _ .vmem, ⟨12, _⟩ => ⟨S128x4096, .f32⟩
  | .local _ .vmem, ⟨13, _⟩ => ⟨S128x4096, .f32⟩
  | .local _ .vmem, ⟨14, _⟩ => ⟨S128x4096, .bf16⟩
  | .local _ .vmem, ⟨15, _⟩ => ⟨S128x4096, .bf16⟩
  | .local _ .vmem, ⟨16, _⟩ => ⟨S1024x512, .f32⟩
  | .local _ .vmem, ⟨17, _⟩ => ⟨S1024x512, .f32⟩
  | .local _ .vmem, ⟨18, _⟩ => ⟨S2048x512, .bf16⟩
  | .local _ .vmem, ⟨19, _⟩ => ⟨S2048x512, .bf16⟩
  | .local _ .vmem, ⟨20, _⟩ => ⟨S2048, .f32⟩
  | .local _ .vmem, ⟨21, _⟩ => ⟨S2048, .f32⟩
  | .local _ .vmem, ⟨22, _⟩ => ⟨S1024x2048, .f32⟩
  | .local _ .vmem, ⟨23, _⟩ => ⟨S1024x2048, .f32⟩
  | .local _ .smem, ⟨0, _⟩ => ⟨S32x32, .i32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v8 : Ref sig .tc := ⟨.hbm, 17, rfl⟩
abbrev main_v9 : Ref sig .tc := ⟨.hbm, 18, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg10 : BitVec 32 := Scf.iv c0_i32 c1_i32 k0_t1
  let c1_i32_1 : BitVec 32 := 1#32
  let v1 : BitVec 32 := Scalar.muli arg10 c1_i32_1
  let v2 : BitVec 32 := Scalar.addi c0_i32_2 v1
  let c128_i32 : BitVec 32 := 128#32
  let v3 : BitVec 32 := Scalar.muli v2 c128_i32
  v3
def k0_off1 (k0_t1 : Fin k0_t1_loop.trips) : Fin 5 → Nat :=
  let c0 : Index := 0#32
  let c0_i32_2 : BitVec 32 := 0#32
  let c0_i32 : BitVec 32 := 0#32
  let c1_i32 : BitVec 32 := 1#32
  let arg10 : BitVec 32 := Scf.iv c0_i32 c1_i32 k0_t1
  let c1_i32_1 : BitVec 32 := 1#32
  let v1 : BitVec 32 := Scalar.muli arg10 c1_i32_1
  let v2 : BitVec 32 := Scalar.addi c0_i32_2 v1
  let v5 : Index := Scalar.indexCast v2
  let c0_3 : Index := 0#32
  let c0_4 : Index := 0#32
  let c0_5 : Index := 0#32
  ![0, v5.toNat, 0, 0, 0]
def k0_off2 (k0_t1 : Fin k0_t1_loop.trips) : Fin 5 → Nat :=
  let c0_6 : Index := 0#32
  let c0_i32_2 : BitVec 32 := 0#32
  let c0_i32 : BitVec 32 := 0#32
  let c1_i32 : BitVec 32 := 1#32
  let arg10 : BitVec 32 := Scf.iv c0_i32 c1_i32 k0_t1
  let c1_i32_1 : BitVec 32 := 1#32
  let v1 : BitVec 32 := Scalar.muli arg10 c1_i32_1
  let v2 : BitVec 32 := Scalar.addi c0_i32_2 v1
  let v8 : Index := Scalar.indexCast v2
  let c0_7 : Index := 0#32
  let c0_8 : Index := 0#32
  let c0_9 : Index := 0#32
  ![0, v8.toNat, 0, 0, 0]
def k0_off3 (k0_t1 : Fin k0_t1_loop.trips) : Fin 5 → Nat :=
  let c0_10 : Index := 0#32
  let c0_i32_2 : BitVec 32 := 0#32
  let c0_i32 : BitVec 32 := 0#32
  let c1_i32 : BitVec 32 := 1#32
  let arg10 : BitVec 32 := Scf.iv c0_i32 c1_i32 k0_t1
  let c1_i32_1 : BitVec 32 := 1#32
  let v1 : BitVec 32 := Scalar.muli arg10 c1_i32_1
  let v2 : BitVec 32 := Scalar.addi c0_i32_2 v1
  let v11 : Index := Scalar.indexCast v2
  let c0_11 : Index := 0#32
  let c0_12 : Index := 0#32
  let c0_13 : Index := 0#32
  ![0, v11.toNat, 0, 0, 0]
def k0_off4 (k0_t1 : Fin k0_t1_loop.trips) : Fin 4 → Nat :=
  let c0_22 : Index := 0#32
  let c0_i32_2 : BitVec 32 := 0#32
  let c0_i32 : BitVec 32 := 0#32
  let c1_i32 : BitVec 32 := 1#32
  let arg10 : BitVec 32 := Scf.iv c0_i32 c1_i32 k0_t1
  let c1_i32_1 : BitVec 32 := 1#32
  let v1 : BitVec 32 := Scalar.muli arg10 c1_i32_1
  let v2 : BitVec 32 := Scalar.addi c0_i32_2 v1
  let v20 : Index := Scalar.indexCast v2
  let c0_23 : Index := 0#32
  let c0_24 : Index := 0#32
  ![0, v20.toNat, 0, 0]
def k0_off5 (i : grid0.Coords) (k0_t1 : Fin k0_t1_loop.trips) : Fin 2 → Nat :=
  let arg0 : BitVec 32 := BitVec.ofNat 32 (i 0).val
  let v23 : Index := Scalar.indexCast arg0
  let c0_i32_2 : BitVec 32 := 0#32
  let c0_i32 : BitVec 32 := 0#32
  let c1_i32 : BitVec 32 := 1#32
  let arg10 : BitVec 32 := Scf.iv c0_i32 c1_i32 k0_t1
  let c1_i32_1 : BitVec 32 := 1#32
  let v1 : BitVec 32 := Scalar.muli arg10 c1_i32_1
  let v2 : BitVec 32 := Scalar.addi c0_i32_2 v1
  let v24 : Index := Scalar.indexCast v2
  ![v23.toNat, v24.toNat]
def k0_off6 (k0_t1 : Fin k0_t1_loop.trips) : Fin 2 → Nat :=
  let c0_28 : Index := 0#32
  let c0_i32_2 : BitVec 32 := 0#32
  let c0_i32 : BitVec 32 := 0#32
  let c1_i32 : BitVec 32 := 1#32
  let arg10 : BitVec 32 := Scf.iv c0_i32 c1_i32 k0_t1
  let c1_i32_1 : BitVec 32 := 1#32
  let v1 : BitVec 32 := Scalar.muli arg10 c1_i32_1
  let v2 : BitVec 32 := Scalar.addi c0_i32_2 v1
  let c128_i32 : BitVec 32 := 128#32
  let v3 : BitVec 32 := Scalar.muli v2 c128_i32
  let v4 : BitVec 32 := v3
  let v46 : Index := Scalar.indexCast v4
  ![0, v46.toNat]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32x4x128x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x4x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x4x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x4x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x4x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨3, ![8, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  transposes_S4x32x32x128x16_S32x32x4x128x16_1_2_0_3_4 : S4x32x32x128x16.Transposes [1, 2, 0, 3, 4] S32x32x4x128x16
  transposes_S4x32x32x16x128_S32x32x4x16x128_1_2_0_3_4 : S4x32x32x16x128.Transposes [1, 2, 0, 3, 4] S32x32x4x16x128
  transposes_S4x32x32x1x1_S32x32x4x1x1_1_2_0_3_4 : S4x32x32x1x1.Transposes [1, 2, 0, 3, 4] S32x32x4x1x1
  natLt_1_32 : 1 < 32
  h_S1x1x4x128x16 : 0 < S1x1x4x128x16.numel
  shapeCasts_S1x1x4x128x16_S4x128x16 : S1x1x4x128x16.ShapeCasts S4x128x16
  h_S1x1x4x16x128 : 0 < S1x1x4x16x128.numel
  shapeCasts_S1x1x4x16x128_S4x16x128 : S1x1x4x16x128.ShapeCasts S4x16x128
  h_S1x1x4x1x1 : 0 < S1x1x4x1x1.numel
  shapeCasts_S1x1x4x1x1_S4x1x1 : S1x1x4x1x1.ShapeCasts S4x1x1
  h_S1x1x1x1 : 0 < S1x1x1x1.numel
  shapeCasts_S1x1x1x1_S1x1 : S1x1x1x1.ShapeCasts S1x1
  numel1_S1x1 : S1x1.numel = 1
  bitsLt_bf16_f32 : FTy.bits .bf16 < FTy.bits .f32
  reduces_S4x128x16_S4x128 : S4x128x16.Reduces [2] S4x128
  shapeCasts_S4x128_S4x128x1 : S4x128.ShapeCasts S4x128x1
  reduces_S4x16x128_S4x128 : S4x16x128.Reduces [1] S4x128
  shapeCasts_S4x128_S4x1x128 : S4x128.ShapeCasts S4x1x128
  broadcasts_S4x1x1_S4x128x128 : S4x1x1.Broadcasts S4x128x128
  broadcasts_S4x1x1_S4x128x1 : S4x1x1.Broadcasts S4x128x1
  broadcasts_S4x128x1_S4x128x128 : S4x128x1.Broadcasts S4x128x128
  broadcasts_S4x1x1_S4x1x128 : S4x1x1.Broadcasts S4x1x128
  broadcasts_S4x1x128_S4x128x128 : S4x1x128.Broadcasts S4x128x128
  reduces_S4x128x128_S128x128 : S4x128x128.Reduces [0] S128x128
  broadcasts_S1x1_S128x128 : S1x1.Broadcasts S128x128
  h_S128x128 : 0 < S128x128.numel
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  dot_S4x128x16_S4x16x128_S4x128x128_2_1_1_2_0_0_wf : DotDims.WF S4x128x16 S4x16x128 S4x128x128 [2] [1] [1] [2] [0] [0]
  dot_S1024x512_S2048x512_S1024x2048_1_1_0_0_n_n_wf : DotDims.WF S1024x512 S2048x512 S1024x2048 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x1x4x128x16.size a ≤ S1x32x4x128x16.size a
  k0_off2_inb : ∀ k0_t1 : Fin k0_t1_loop.trips, ∀ a, (k0_off2 k0_t1) a + S1x1x4x16x128.size a ≤ S1x32x4x16x128.size a
  k0_off3_inb : ∀ k0_t1 : Fin k0_t1_loop.trips, ∀ a, (k0_off3 k0_t1) a + S1x1x4x1x1.size a ≤ S1x32x4x1x1.size a
  k0_off4_inb : ∀ k0_t1 : Fin k0_t1_loop.trips, ∀ a, (k0_off4 k0_t1) a + S1x1x1x1.size a ≤ S1x32x1x1.size a
  k0_off5_inb : ∀ (i : grid0.Coords) (k0_t1 : Fin k0_t1_loop.trips), ∀ a, (k0_off5 i k0_t1) a + S1x1.size a ≤ S32x32.size a
  k0_off6_inb : ∀ k0_t1 : Fin k0_t1_loop.trips, ∀ a, (k0_off6 k0_t1) a + S128x128.size a ≤ S128x4096.size a
  k0_off6_packedbf16 : ∀ k0_t1 : Fin k0_t1_loop.trips, (Rect.unit (s := S128x4096) (k0_off6 k0_t1) S128x128.size (k0_off6_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x4x128x16.size a ≤ S32x32x4x128x16.size a
  hwx0_0 : ∀ i : grid0.Coords, EltTy.bits .bf16 = 32 ∨ (Rect.block (s := S32x32x4x128x16) S1x32x4x128x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x4x16x128.size a ≤ S32x32x4x16x128.size a
  hwx0_1 : ∀ i : grid0.Coords, EltTy.bits .bf16 = 32 ∨ (Rect.block (s := S32x32x4x16x128) S1x32x4x16x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x4x1x1.size a ≤ S32x32x4x1x1.size a
  hwx0_2 : ∀ i : grid0.Coords, EltTy.bits .f32 = 32 ∨ (Rect.block (s := S32x32x4x1x1) S1x32x4x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x4x1x1.size a ≤ S32x32x4x1x1.size a
  hwx0_3 : ∀ i : grid0.Coords, EltTy.bits .f32 = 32 ∨ (Rect.block (s := S32x32x4x1x1) S1x32x4x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x4x1x1.size a ≤ S32x32x4x1x1.size a
  hwx0_4 : ∀ i : grid0.Coords, EltTy.bits .f32 = 32 ∨ (Rect.block (s := S32x32x4x1x1) S1x32x4x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x1x1.size a ≤ S32x32x1x1.size a
  hwx0_5 : ∀ i : grid0.Coords, EltTy.bits .f32 = 32 ∨ (Rect.block (s := S32x32x1x1) S1x32x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S4096x4096.size a
  hwx0_6 : ∀ i : grid0.Coords, EltTy.bits .f32 = 32 ∨ (Rect.block (s := S4096x4096) S128x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4096.size a ≤ S4096x4096.size a
  hwx0_7 : ∀ i : grid0.Coords, EltTy.bits .bf16 = 32 ∨ (Rect.block (s := S4096x4096) S128x4096.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S4096.size a
  hwx1_2 : ∀ i : grid1.Coords, EltTy.bits .f32 = 32 ∨ (Rect.block (s := S4096) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S4x128x16_S4x16x128_S4x128x128_2_1_1_2_0_0 : DotDims S4x128x16 S4x16x128 S4x128x128 where
  lhsContracting := [2]
  rhsContracting := [1]
  lhsNonContracting := [1]
  rhsNonContracting := [2]
  lhsBatch := [0]
  rhsBatch := [0]
  wf := dot_S4x128x16_S4x16x128_S4x128x128_2_1_1_2_0_0_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev spec0_0 : Pipeline.WinSpec sig grid0.rank :=
  Pipeline.WinSpec.ofSpec (Memref.whole main_v1) S1x32x4x128x16.size reads0_0 false false 2 stage0_0 sem0_0 nbuf0_0 hstage0_0

abbrev spec0_1 : Pipeline.WinSpec sig grid0.rank :=
  Pipeline.WinSpec.ofSpec (Memref.whole main_v3) S1x32x4x16x128.size reads0_1 false false 2 stage0_1 sem0_1 nbuf0_1 hstage0_1

abbrev spec0_2 : Pipeline.WinSpec sig grid0.rank :=
  Pipeline.WinSpec.ofSpec (Memref.whole main_v4) S1x32x4x1x1.size reads0_2 false false 2 stage0_2 sem0_2 nbuf0_2 hstage0_2

abbrev spec0_3 : Pipeline.WinSpec sig grid0.rank :=
  Pipeline.WinSpec.ofSpec (Memref.whole main_v5) S1x32x4x1x1.size reads0_3 false false 2 stage0_3 sem0_3 nbuf0_3 hstage0_3

abbrev spec0_4 : Pipeline.WinSpec sig grid0.rank :=
  Pipeline.WinSpec.ofSpec (Memref.whole main_v6) S1x32x4x1x1.size reads0_4 false false 2 stage0_4 sem0_4 nbuf0_4 hstage0_4

abbrev spec0_5 : Pipeline.WinSpec sig grid0.rank :=
  Pipeline.WinSpec.ofSpec (Memref.whole main_arg6) S1x32x1x1.size reads0_5 false false 2 stage0_5 sem0_5 nbuf0_5 hstage0_5

abbrev spec0_6 : Pipeline.WinSpec sig grid0.rank :=
  Pipeline.WinSpec.ofSpec (Memref.whole main_arg7) S128x4096.size reads0_6 false false 2 stage0_6 sem0_6 nbuf0_6 hstage0_6

abbrev spec0_7 : Pipeline.WinSpec sig grid0.rank :=
  Pipeline.WinSpec.ofSpec (Memref.whole main_v8) S128x4096.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | ⟨_ + 8, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | ⟨_ + 8, h⟩ => absurd h (Nat.not_lt.2 (Nat.le_add_left _ _))
abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where
  harr0 : ∀ w, (spec0 w).arr.IsWhole

variable [Facts]
-- ==== ReferenceIdeal.lean ====
abbrev S8192x4096 : Shape := ⟨2, ![8192, 4096]⟩
abbrev S4x32x32x128x16 : Shape := ⟨5, ![4, 32, 32, 128, 16]⟩
abbrev S4x32x32x16x128 : Shape := ⟨5, ![4, 32, 32, 16, 128]⟩
abbrev S4x32x32x1x1 : Shape := ⟨5, ![4, 32, 32, 1, 1]⟩
abbrev S32x32x1x1 : Shape := ⟨4, ![32, 32, 1, 1]⟩
abbrev S4096x4096 : Shape := ⟨2, ![4096, 4096]⟩
abbrev S4096 : Shape := ⟨1, ![4096]⟩
abbrev S32x32 : Shape := ⟨2, ![32, 32]⟩
abbrev S4x32x32x128x128 : Shape := ⟨5, ![4, 32, 32, 128, 128]⟩
abbrev S_ : Shape := ⟨0, ![]⟩
abbrev S4x32x32x128 : Shape := ⟨4, ![4, 32, 32, 128]⟩
abbrev S4x32x32x128x1 : Shape := ⟨5, ![4, 32, 32, 128, 1]⟩
abbrev S4x32x32x1x128 : Shape := ⟨5, ![4, 32, 32, 1, 128]⟩
abbrev S32x32x128x128 : Shape := ⟨4, ![32, 32, 128, 128]⟩
abbrev S32x128x32x128 : Shape := ⟨4, ![32, 128, 32, 128]⟩
abbrev S32x128x32 : Shape := ⟨3, ![32, 128, 32]⟩
abbrev S4096x32 : Shape := ⟨2, ![4096, 32]⟩
abbrev S4096x32x128 : Shape := ⟨3, ![4096, 32, 128]⟩
abbrev S1x4096 : Shape := ⟨2, ![1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x32x32x128x16, .i1⟩
  | .hbm, ⟨2, _⟩ => ⟨S4x32x32x16x128, .i1⟩
  | .hbm, ⟨3, _⟩ => ⟨S4x32x32x1x1, .f32⟩
  | .hbm, ⟨4, _⟩ => ⟨S4x32x32x1x1, .f32⟩
  | .hbm, ⟨5, _⟩ => ⟨S4x32x32x1x1, .f32⟩
  | .hbm, ⟨6, _⟩ => ⟨S32x32x1x1, .f32⟩
  | .hbm, ⟨7, _⟩ => ⟨S4096x4096, .f32⟩
  | .hbm, ⟨8, _⟩ => ⟨S4096, .f32⟩
  | .hbm, ⟨9, _⟩ => ⟨S32x32, .i1⟩
  | .hbm, ⟨10, _⟩ => ⟨S4x32x32x128x16, .f32⟩
  | .hbm, ⟨11, _⟩ => ⟨S4x32x32x16x128, .f32⟩
  | .hbm, ⟨12, _⟩ => ⟨S4x32x32x128x128, .f32⟩
  | .hbm, ⟨13, _⟩ => ⟨S_, .f32⟩
  | .hbm, ⟨14, _⟩ => ⟨S4x32x32x128, .f32⟩
  | .hbm, ⟨15, _⟩ => ⟨S4x32x32x128x1, .f32⟩
  | .hbm, ⟨16, _⟩ => ⟨S_, .f32⟩
  | .hbm, ⟨17, _⟩ => ⟨S4x32x32x128, .f32⟩
  | .hbm, ⟨18, _⟩ => ⟨S4x32x32x1x128, .f32⟩
  | .hbm, ⟨19, _⟩ => ⟨S4x32x32x128x128, .f32⟩
  | .hbm, ⟨20, _⟩ => ⟨S4x32x32x128x128, .f32⟩
  | .hbm, ⟨21, _⟩ => ⟨S4x32x32x128x1, .f32⟩
  | .hbm, ⟨22, _⟩ => ⟨S4x32x32x128x1, .f32⟩
  | .hbm, ⟨23, _⟩ => ⟨S4x32x32x128x128, .f32⟩
  | .hbm, ⟨24, _⟩ => ⟨S4x32x32x128x128, .f32⟩
  | .hbm, ⟨25, _⟩ => ⟨S4x32x32x1x128, .f32⟩
  | .hbm, ⟨26, _⟩ => ⟨S4x32x32x1x128, .f32⟩
  | .hbm, ⟨27, _⟩ => ⟨S4x32x32x128x128, .f32⟩
  | .hbm, ⟨28, _⟩ => ⟨S4x32x32x128x128, .f32⟩
  | .hbm, ⟨29, _⟩ => ⟨S_, .f32⟩
  | .hbm, ⟨30, _⟩ => ⟨S32x32x128x128, .f32⟩
  | .hbm, ⟨31, _⟩ => ⟨S32x32x128x128, .f32⟩
  | .hbm, ⟨32, _⟩ => ⟨S32x32x128x128, .f32⟩
  | .hbm, ⟨33, _⟩ => ⟨S32x128x32x128, .f32⟩
  | .hbm, ⟨34, _⟩ => ⟨S4096x4096, .f32⟩
  | .hbm, ⟨35, _⟩ => ⟨S32x128x32, .i1⟩
  | .hbm, ⟨36, _⟩ => ⟨S4096x32, .i1⟩
  | .hbm, ⟨37, _⟩ => ⟨S4096x32x128, .i1⟩
  | .hbm, ⟨38, _⟩ => ⟨S4096x4096, .i1⟩
  | .hbm, ⟨39, _⟩ => ⟨S4096x4096, .f32⟩
  | .hbm, ⟨40, _⟩ => ⟨S4096x4096, .f32⟩
  | .hbm, ⟨41, _⟩ => ⟨S8192x4096, .f32⟩
  | .hbm, ⟨42, _⟩ => ⟨S1x4096, .f32⟩
  | .hbm, ⟨43, _⟩ => ⟨S8192x4096, .f32⟩
  | .hbm, ⟨44, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  reducesTo_S4x32x32x128x16_S4x32x32x128_d4 : S4x32x32x128x16.ReducesTo [4] S4x32x32x128
  h_S_ : 0 < S_.numel
  bcast_S4x32x32x128_S4x32x32x128x1_0_1_2_3 : S4x32x32x128.BroadcastsInDim S4x32x32x128x1 (![0, 1, 2, 3] : Fin 4 → Fin S4x32x32x128x1.rank)
  reducesTo_S4x32x32x16x128_S4x32x32x128_d3 : S4x32x32x16x128.ReducesTo [3] S4x32x32x128
  bcast_S4x32x32x128_S4x32x32x1x128_0_1_2_4 : S4x32x32x128.BroadcastsInDim S4x32x32x1x128 (![0, 1, 2, 4] : Fin 4 → Fin S4x32x32x1x128.rank)
  bcast_S4x32x32x1x1_S4x32x32x128x128_0_1_2_3_4 : S4x32x32x1x1.BroadcastsInDim S4x32x32x128x128 (![0, 1, 2, 3, 4] : Fin 5 → Fin S4x32x32x128x128.rank)
  bcast_S4x32x32x1x1_S4x32x32x128x1_0_1_2_3_4 : S4x32x32x1x1.BroadcastsInDim S4x32x32x128x1 (![0, 1, 2, 3, 4] : Fin 5 → Fin S4x32x32x128x1.rank)
  bcast_S4x32x32x128x1_S4x32x32x128x128_0_1_2_3_4 : S4x32x32x128x1.BroadcastsInDim S4x32x32x128x128 (![0, 1, 2, 3, 4] : Fin 5 → Fin S4x32x32x128x128.rank)
  bcast_S4x32x32x1x1_S4x32x32x1x128_0_1_2_3_4 : S4x32x32x1x1.BroadcastsInDim S4x32x32x1x128 (![0, 1, 2, 3, 4] : Fin 5 → Fin S4x32x32x1x128.rank)
  bcast_S4x32x32x1x128_S4x32x32x128x128_0_1_2_3_4 : S4x32x32x1x128.BroadcastsInDim S4x32x32x128x128 (![0, 1, 2, 3, 4] : Fin 5 → Fin S4x32x32x128x128.rank)
  reducesTo_S4x32x32x128x128_S32x32x128x128_d0 : S4x32x32x128x128.ReducesTo [0] S32x32x128x128
  bcast_S32x32x1x1_S32x32x128x128_0_1_2_3 : S32x32x1x1.BroadcastsInDim S32x32x128x128 (![0, 1, 2, 3] : Fin 4 → Fin S32x32x128x128.rank)
  transposes_S32x32x128x128_S32x128x32x128_0_2_1_3 : S32x32x128x128.Transposes [0, 2, 1, 3] S32x128x32x128
  shapeCasts_S32x128x32x128_S4096x4096 : S32x128x32x128.ShapeCasts S4096x4096
  bcast_S32x32_S32x128x32_0_2 : S32x32.BroadcastsInDim S32x128x32 (![0, 2] : Fin 2 → Fin S32x128x32.rank)
  shapeCasts_S32x128x32_S4096x32 : S32x128x32.ShapeCasts S4096x32
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4x32x32x128x16_S4x32x32x16x128_S4x32x32x128x128_4_3_3_4_012_012_wf : DotDims.WF S4x32x32x128x16 S4x32x32x16x128 S4x32x32x128x128 [4] [3] [3] [4] [0, 1, 2] [0, 1, 2]
  dot_S8192x4096_S4096x4096_S8192x4096_1_0_0_1_n_n_wf : DotDims.WF S8192x4096 S4096x4096 S8192x4096 [1] [0] [0] [1] [] []

variable [Facts₀]

def dot_S4x32x32x128x16_S4x32x32x16x128_S4x32x32x128x128_4_3_3_4_012_012 : DotDims S4x32x32x128x16 S4x32x32x16x128 S4x32x32x128x128 where
  lhsContracting := [4]
  rhsContracting := [3]
  lhsNonContracting := [3]
  rhsNonContracting := [4]
  lhsBatch := [0, 1, 2]
  rhsBatch := [0, 1, 2]
  wf := dot_S4x32x32x128x16_S4x32x32x16x128_S4x32x32x128x128_4_3_3_4_012_012_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.WeightRunW.lean ====
/-
  The weight-reconstruction body at one grid point (one row block of 128 rows): a loop over the 32 column blocks; trip k
  loads the factor bits, the scalars and the mask word of tile (row block, k), computes the blended 128 x 128 tile and stores
  it at columns 128 k .. 128 k + 127 of the output block. The mask is read from a table in scalar memory that the body only loads.
-/
import proofs.«148910_j25589415149865_1_alg».proof.Proof.Gen.Kernel.Launch
import proofs.«148910_j25589415149865_1_alg».proof.Proof.Gen.Kernel.Skeleton
import proofs.«148910_j25589415149865_1_alg».proof.Proof.Gen.Kernel.Points
import proofs.«148910_j25589415149865_1_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The mask table as the body is handed it: its whole buffer as a memref. -/
abbrev tbM : Memref sig .tc .smem S32x32 .i32 := Memref.whole main_v7
abbrev htbM : (tbM).IsWhole := Memref.isWhole_whole _

/-- One staging buffer of the output window, through which its contents are stated. -/
abbrev VO0_7 : View sig .tc .vmem S128x4096 .bf16 := (Memref.whole cc0_stg7_0 : Memref sig .tc .vmem S128x4096 .bf16).view

set_option maxHeartbeats 4000000 in
/-- The stores the body makes into the output block, as pieces (last first: the 32 trips' tiles), with the proof that on
    whole staging memrefs — the seven inputs and the mask table at their contents, the output at anything — the body runs to
    the continuation holding the inputs and the table as they were and the output block with those pieces written. -/
noncomputable def kernelRun0 (c : Dev nD) (i : grid0.Coords) (arg2 : Memref sig .tc .vmem S1x32x4x128x16 .bf16) (harg2 : arg2.IsWhole) (arg3 : Memref sig .tc .vmem S1x32x4x16x128 .bf16) (harg3 : arg3.IsWhole) (arg4 : Memref sig .tc .vmem S1x32x4x1x1 .f32) (harg4 : arg4.IsWhole) (arg5 : Memref sig .tc .vmem S1x32x4x1x1 .f32) (harg5 : arg5.IsWhole) (arg6 : Memref sig .tc .vmem S1x32x4x1x1 .f32) (harg6 : arg6.IsWhole) (arg7 : Memref sig .tc .vmem S1x32x1x1 .f32) (harg7 : arg7.IsWhole) (arg8 : Memref sig .tc .vmem S128x4096 .f32) (harg8 : arg8.IsWhole) (arg9 : Memref sig .tc .vmem S128x4096 .bf16) (harg9 : arg9.IsWhole)
    (xt : Vec F S32x32 .i32) (x0 : Vec F S1x32x4x128x16 .bf16) (x1 : Vec F S1x32x4x16x128 .bf16) (x2 x3 x4 : Vec F S1x32x4x1x1 .f32) (x5 : Vec F S1x32x1x1 .f32) (x6 : Vec F S128x4096 .f32) :
    { L7 : List (View.Piece (Elt F) S128x4096 .bf16) //
      ∀ (E : Set ℕ) (K : PUnit → sProp 𝕄),
        iprop(owns (c : Thread nD τ) tbM fullShare xt ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) tbM fullShare xt ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0_kernel i tbM htbM arg2 harg2 arg3 harg3 arg4 harg4 arg5 harg5 arg6 harg6 arg7 harg7 arg8 harg8 arg9 harg9) K } := by
  refine ⟨?_, fun E K => ?run⟩
  case run =>
    simp only [cc0_kernel_eq_skeleton]; unfold cc0_kernel_skel
    unfold owns
    iintro ⟨⟨%ft, %hft, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := (htbM).eq_unread hft; obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec
    sl_step
    iapply Hk
    isplitl [HT]
    · iexists _; isplitr; · ipureintro; exact (htbM).read_unread _
      iexact HT
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.Kernel.Frm

end
-- ==== Proof.WeightStageW.lean ====
/-
  The weight-reconstruction stage as a pipeline, at any contents V of the buffers when it is entered: the mask table's
  contents read off V, each window's block at a point (row block t of its array), what the output block holds after the
  body (the 32 tiles the loop stores), the proof data — the table rides in the invariant, whole, only loaded — and the body's
  obligation at every point.
-/
import proofs.«148910_j25589415149865_1_alg».proof.Proof.WeightRunW

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The mask table's contents when the stage is entered (the program runs on one device). -/
def tbl0 : pre0.Contents (Elt F) := fun j => V (0 : Dev nD) (pre0.ref j)
theorem V_pre0 (c : Dev nD) (j : Fin 1) : V c (pre0.ref j) = tbl0 V j := by
  obtain rfl : c = 0 := Subsingleton.elim _ _; rfl
/-- Those contents as admissible contents (no index map reads the table: every contents is admissible), and the pipeline at them. -/
abbrev adm0 : (pcfg0 (F := F)).Adm := ⟨tbl0 V, trivial⟩
abbrev cfgM : Pipeline.Cfg sig Λ₀ := cfg0 (adm0 V)

/-- The table held whole is the table memref owned at its contents. -/
theorem prefHeld0_eq (c : Dev nD) (xt : pre0.Contents (Elt F)) :
    (Pipeline.prefHeld (Ix := Unit) (Name := ℕ) (U := UR sig nD τ) (Lvl := ℕ) pre0 c (fun _ => fullShare) xt : sProp 𝕄)
      = owns (c : Thread nD τ) tbM fullShare (xt 0) := by
  unfold Pipeline.prefHeld
  rw [show (Finset.univ : Finset (Fin 1)) = {(0 : Fin 1)} from by decide, bigSep_singleton]
  exact (owns_whole (c : Thread nD τ) main_v7 fullShare (xt 0)).symm

/-- Window w's block at point t, read off its array as the stage finds it. -/
def iblk0 (c : Dev nD) (w : Fin (cfgM V).W) (t : Fin (cfgM V).N) : (((cfgM V).win w).xblock ((cfgM V).grid.coords t)).Idx → Elt F ((cfgM V).win w).elt :=
  (((cfgM V).win w).blk t).view.read (Elt F) (V c (Pipeline.arrRef spec0 w))

theorem before0_0_of {c : Dev nD} (dat : Dat τ (Elt F) Unit ℕ (UR sig nD τ) ℕ (cfgM V) c) (hA : dat.A 0 = V c (Pipeline.arrRef spec0 0))
    (hafter : ∀ t, dat.after 0 t = iblk0 V c 0 t) (t : Fin (cfgM V).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ (cfgM V) c) (hA : dat.A 1 = V c (Pipeline.arrRef spec0 1))
    (hafter : ∀ t, dat.after 1 t = iblk0 V c 1 t) (t : Fin (cfgM V).N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ (cfgM V) c) (hA : dat.A 2 = V c (Pipeline.arrRef spec0 2))
    (hafter : ∀ t, dat.after 2 t = iblk0 V c 2 t) (t : Fin (cfgM V).N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ (cfgM V) c) (hA : dat.A 3 = V c (Pipeline.arrRef spec0 3))
    (hafter : ∀ t, dat.after 3 t = iblk0 V c 3 t) (t : Fin (cfgM V).N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ (cfgM V) c) (hA : dat.A 4 = V c (Pipeline.arrRef spec0 4))
    (hafter : ∀ t, dat.after 4 t = iblk0 V c 4 t) (t : Fin (cfgM V).N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ (cfgM V) c) (hA : dat.A 5 = V c (Pipeline.arrRef spec0 5))
    (hafter : ∀ t, dat.after 5 t = iblk0 V c 5 t) (t : Fin (cfgM V).N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ (cfgM V) c) (hA : dat.A 6 = V c (Pipeline.arrRef spec0 6))
    (hafter : ∀ t, dat.after 6 t = iblk0 V c 6 t) (t : Fin (cfgM V).N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point t, as the pipeline passes it, and its wholeness. -/
abbrev ms0_0 (t : Fin (cfgM V).N) : Memref sig .tc .vmem S1x32x4x128x16 .bf16 := spec0_0.stage ((cfgM V).slots t 0)
abbrev hs0_0 (t : Fin (cfgM V).N) : (ms0_0 V t).IsWhole := hstage0_0 (((cfgM V).slots t 0).cast nbuf0_0)
abbrev ms0_1 (t : Fin (cfgM V).N) : Memref sig .tc .vmem S1x32x4x16x128 .bf16 := spec0_1.stage ((cfgM V).slots t 1)
abbrev hs0_1 (t : Fin (cfgM V).N) : (ms0_1 V t).IsWhole := hstage0_1 (((cfgM V).slots t 1).cast nbuf0_1)
abbrev ms0_2 (t : Fin (cfgM V).N) : Memref sig .tc .vmem S1x32x4x1x1 .f32 := spec0_2.stage ((cfgM V).slots t 2)
abbrev hs0_2 (t : Fin (cfgM V).N) : (ms0_2 V t).IsWhole := hstage0_2 (((cfgM V).slots t 2).cast nbuf0_2)
abbrev ms0_3 (t : Fin (cfgM V).N) : Memref sig .tc .vmem S1x32x4x1x1 .f32 := spec0_3.stage ((cfgM V).slots t 3)
abbrev hs0_3 (t : Fin (cfgM V).N) : (ms0_3 V t).IsWhole := hstage0_3 (((cfgM V).slots t 3).cast nbuf0_3)
abbrev ms0_4 (t : Fin (cfgM V).N) : Memref sig .tc .vmem S1x32x4x1x1 .f32 := spec0_4.stage ((cfgM V).slots t 4)
abbrev hs0_4 (t : Fin (cfgM V).N) : (ms0_4 V t).IsWhole := hstage0_4 (((cfgM V).slots t 4).cast nbuf0_4)
abbrev ms0_5 (t : Fin (cfgM V).N) : Memref sig .tc .vmem S1x32x1x1 .f32 := spec0_5.stage ((cfgM V).slots t 5)
abbrev hs0_5 (t : Fin (cfgM V).N) : (ms0_5 V t).IsWhole := hstage0_5 (((cfgM V).slots t 5).cast nbuf0_5)
abbrev ms0_6 (t : Fin (cfgM V).N) : Memref sig .tc .vmem S128x4096 .f32 := spec0_6.stage ((cfgM V).slots t 6)
abbrev hs0_6 (t : Fin (cfgM V).N) : (ms0_6 V t).IsWhole := hstage0_6 (((cfgM V).slots t 6).cast nbuf0_6)
abbrev ms0_7 (t : Fin (cfgM V).N) : Memref sig .tc .vmem S128x4096 .bf16 := spec0_7.stage ((cfgM V).slots t 7)
abbrev hs0_7 (t : Fin (cfgM V).N) : (ms0_7 V t).IsWhole := hstage0_7 (((cfgM V).slots t 7).cast nbuf0_7)

/-- The body at point t, on what the pipeline calls it with. -/
abbrev bodyAt0 (t : Fin (cfgM V).N) : Prog (TpuEff nD τ sig (Elt F) Λ₀ .tc) PUnit :=
  cc0_kernel (grid0.coords t) (Memref.whole main_v7) (Memref.isWhole_whole _) (ms0_0 V t) (hs0_0 V t) (ms0_1 V t) (hs0_1 V t) (ms0_2 V t) (hs0_2 V t) (ms0_3 V t) (hs0_3 V t) (ms0_4 V t) (hs0_4 V t) (ms0_5 V t) (hs0_5 V t) (ms0_6 V t) (hs0_6 V t) (ms0_7 V t) (hs0_7 V t)

/-- The 32 tiles the loop stores tile the output block, so they cover it. -/
theorem cover0_7 (c : Dev nD) (i : grid0.Coords) (arg2 : Memref sig .tc .vmem S1x32x4x128x16 .bf16) (harg2 : arg2.IsWhole) (arg3 : Memref sig .tc .vmem S1x32x4x16x128 .bf16) (harg3 : arg3.IsWhole) (arg4 : Memref sig .tc .vmem S1x32x4x1x1 .f32) (harg4 : arg4.IsWhole) (arg5 : Memref sig .tc .vmem S1x32x4x1x1 .f32) (harg5 : arg5.IsWhole) (arg6 : Memref sig .tc .vmem S1x32x4x1x1 .f32) (harg6 : arg6.IsWhole) (arg7 : Memref sig .tc .vmem S1x32x1x1 .f32) (harg7 : arg7.IsWhole) (arg8 : Memref sig .tc .vmem S128x4096 .f32) (harg8 : arg8.IsWhole) (arg9 : Memref sig .tc .vmem S128x4096 .bf16) (harg9 : arg9.IsWhole)
    (xt : Vec F S32x32 .i32) (x0 : Vec F S1x32x4x128x16 .bf16) (x1 : Vec F S1x32x4x16x128 .bf16) (x2 x3 x4 : Vec F S1x32x4x1x1 .f32) (x5 : Vec F S1x32x1x1 .f32) (x6 : Vec F S128x4096 .f32) (y : S128x4096.Idx) :
    ∃ pc ∈ (kernelRun0 c i arg2 harg2 arg3 harg3 arg4 harg4 arg5 harg5 arg6 harg6 arg7 harg7 arg8 harg8 arg9 harg9 xt x0 x1 x2 x3 x4 x5 x6).1, y ∈ pc.1.set :=
  View.cover_of_tiledL (kernelRun0 c i arg2 harg2 arg3 harg3 arg4 harg4 arg5 harg5 arg6 harg6 arg7 harg7 arg8 harg8 arg9 harg9 xt x0 x1 x2 x3 x4 x5 x6).1 S128x128.size (by sl_kernel_rfl) y

/-- What the body leaves in the output block: its pieces read back. -/
def out0_7 (c : Dev nD) (i : grid0.Coords) (arg2 : Memref sig .tc .vmem S1x32x4x128x16 .bf16) (harg2 : arg2.IsWhole) (arg3 : Memref sig .tc .vmem S1x32x4x16x128 .bf16) (harg3 : arg3.IsWhole) (arg4 : Memref sig .tc .vmem S1x32x4x1x1 .f32) (harg4 : arg4.IsWhole) (arg5 : Memref sig .tc .vmem S1x32x4x1x1 .f32) (harg5 : arg5.IsWhole) (arg6 : Memref sig .tc .vmem S1x32x4x1x1 .f32) (harg6 : arg6.IsWhole) (arg7 : Memref sig .tc .vmem S1x32x1x1 .f32) (harg7 : arg7.IsWhole) (arg8 : Memref sig .tc .vmem S128x4096 .f32) (harg8 : arg8.IsWhole) (arg9 : Memref sig .tc .vmem S128x4096 .bf16) (harg9 : arg9.IsWhole)
    (xt : Vec F S32x32 .i32) (x0 : Vec F S1x32x4x128x16 .bf16) (x1 : Vec F S1x32x4x16x128 .bf16) (x2 x3 x4 : Vec F S1x32x4x1x1 .f32) (x5 : Vec F S1x32x1x1 .f32) (x6 : Vec F S128x4096 .f32) : Vec F S128x4096 .bf16 :=
  VO0_7.read (Elt F) (VO0_7.writes (Elt F) VO0_7.junk (kernelRun0 c i arg2 harg2 arg3 harg3 arg4 harg4 arg5 harg5 arg6 harg6 arg7 harg7 arg8 harg8 arg9 harg9 xt x0 x1 x2 x3 x4 x5 x6).1)

/-- What the output block holds after the body at point t. -/
def outsAt0 (c : Dev nD) (t : Fin (cfgM V).N) : Vec F S128x4096 .bf16 :=
  out0_7 c (grid0.coords t) (ms0_0 V t) (hs0_0 V t) (ms0_1 V t) (hs0_1 V t) (ms0_2 V t) (hs0_2 V t) (ms0_3 V t) (hs0_3 V t) (ms0_4 V t) (hs0_4 V t) (ms0_5 V t) (hs0_5 V t) (ms0_6 V t) (hs0_6 V t) (ms0_7 V t) (hs0_7 V t) (tbl0 V 0) (iblk0 V c 0 t) (iblk0 V c 1 t) (iblk0 V c 2 t) (iblk0 V c 3 t) (iblk0 V c 4 t) (iblk0 V c 5 t) (iblk0 V c 6 t)

/-- The proof data of the stage on core c: the arrays as the stage finds them; after the body each input's buffer at its
    block and the output's at outsAt0; the invariant the scoped rest, the generator register and the mask table held whole;
    nothing owed; full shares. -/
def dat0 (c : Dev nD) : Dat τ (Elt F) Unit ℕ (UR sig nD τ) ℕ (cfgM V) c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outsAt0 V c t
  Φ _ := iprop(Pipeline.ΦA spec0 c ∗ Pipeline.prefHeld (Ix := Unit) (Name := ℕ) (U := UR sig nD τ) (Lvl := ℕ) pre0 c (fun _ => fullShare) (tbl0 V))
  q _ := fullShare
  owed _ := 0

theorem A_eq0 (c : Dev nD) (w : Fin (cfgM V).W) : (dat0 V c).A w = V c (Pipeline.arrRef spec0 w) := by
  dsimp only [dat0]
theorem after0_0 (c : Dev nD) (t : Fin (cfgM V).N) : (dat0 V c).after 0 t = iblk0 V c 0 t := by dsimp only [dat0]; try rfl
theorem after0_1 (c : Dev nD) (t : Fin (cfgM V).N) : (dat0 V c).after 1 t = iblk0 V c 1 t := by dsimp only [dat0]; try rfl
theorem after0_2 (c : Dev nD) (t : Fin (cfgM V).N) : (dat0 V c).after 2 t = iblk0 V c 2 t := by dsimp only [dat0]; try rfl
theorem after0_3 (c : Dev nD) (t : Fin (cfgM V).N) : (dat0 V c).after 3 t = iblk0 V c 3 t := by dsimp only [dat0]; try rfl
theorem after0_4 (c : Dev nD) (t : Fin (cfgM V).N) : (dat0 V c).after 4 t = iblk0 V c 4 t := by dsimp only [dat0]; try rfl
theorem after0_5 (c : Dev nD) (t : Fin (cfgM V).N) : (dat0 V c).after 5 t = iblk0 V c 5 t := by dsimp only [dat0]; try rfl
theorem after0_6 (c : Dev nD) (t : Fin (cfgM V).N) : (dat0 V c).after 6 t = iblk0 V c 6 t := by dsimp only [dat0]; try rfl
theorem after0_7 (c : Dev nD) (t : Fin (cfgM V).N) : (dat0 V c).after 7 t = outsAt0 V c t := by dsimp only [dat0]; try rfl
theorem before0_0 (c : Dev nD) (t : Fin (cfgM V).N) (d) : (dat0 V c).before 0 t d = iblk0 V c 0 t :=
  before0_0_of V (dat0 V c) (A_eq0 V c 0) (after0_0 V c) t d
theorem before0_1 (c : Dev nD) (t : Fin (cfgM V).N) (d) : (dat0 V c).before 1 t d = iblk0 V c 1 t :=
  before0_1_of V (dat0 V c) (A_eq0 V c 1) (after0_1 V c) t d
theorem before0_2 (c : Dev nD) (t : Fin (cfgM V).N) (d) : (dat0 V c).before 2 t d = iblk0 V c 2 t :=
  before0_2_of V (dat0 V c) (A_eq0 V c 2) (after0_2 V c) t d
theorem before0_3 (c : Dev nD) (t : Fin (cfgM V).N) (d) : (dat0 V c).before 3 t d = iblk0 V c 3 t :=
  before0_3_of V (dat0 V c) (A_eq0 V c 3) (after0_3 V c) t d
theorem before0_4 (c : Dev nD) (t : Fin (cfgM V).N) (d) : (dat0 V c).before 4 t d = iblk0 V c 4 t :=
  before0_4_of V (dat0 V c) (A_eq0 V c 4) (after0_4 V c) t d
theorem before0_5 (c : Dev nD) (t : Fin (cfgM V).N) (d) : (dat0 V c).before 5 t d = iblk0 V c 5 t :=
  before0_5_of V (dat0 V c) (A_eq0 V c 5) (after0_5 V c) t d
theorem before0_6 (c : Dev nD) (t : Fin (cfgM V).N) (d) : (dat0 V c).before 6 t d = iblk0 V c 6 t :=
  before0_6_of V (dat0 V c) (A_eq0 V c 6) (after0_6 V c) t d

/-- What the body is called with at point t, the windows one by one, -/
def bodyPre0 (c : Dev nD) (t : Fin (cfgM V).N) : sProp 𝕄 :=
  iprop((dat0 V c).Φ t.castSucc ∗ (dat0 V c).owesAt () t.castSucc
    ∗ (∃ d, owns (c : Thread nD τ) (ms0_0 V t) fullShare ((dat0 V c).before 0 t d))
    ∗ (∃ d, owns (c : Thread nD τ) (ms0_1 V t) fullShare ((dat0 V c).before 1 t d))
    ∗ (∃ d, owns (c : Thread nD τ) (ms0_2 V t) fullShare ((dat0 V c).before 2 t d))
    ∗ (∃ d, owns (c : Thread nD τ) (ms0_3 V t) fullShare ((dat0 V c).before 3 t d))
    ∗ (∃ d, owns (c : Thread nD τ) (ms0_4 V t) fullShare ((dat0 V c).before 4 t d))
    ∗ (∃ d, owns (c : Thread nD τ) (ms0_5 V t) fullShare ((dat0 V c).before 5 t d))
    ∗ (∃ d, owns (c : Thread nD τ) (ms0_6 V t) fullShare ((dat0 V c).before 6 t d))
    ∗ (∃ d, owns (c : Thread nD τ) (ms0_7 V t) fullShare ((dat0 V c).before 7 t d)))

/-- and what it returns. -/
def bodyPost0 (c : Dev nD) (t : Fin (cfgM V).N) : sProp 𝕄 :=
  iprop((dat0 V c).Φ t.succ ∗ (dat0 V c).owesAt () t.succ
    ∗ owns (c : Thread nD τ) (ms0_0 V t) fullShare ((dat0 V c).after 0 t)
    ∗ owns (c : Thread nD τ) (ms0_1 V t) fullShare ((dat0 V c).after 1 t)
    ∗ owns (c : Thread nD τ) (ms0_2 V t) fullShare ((dat0 V c).after 2 t)
    ∗ owns (c : Thread nD τ) (ms0_3 V t) fullShare ((dat0 V c).after 3 t)
    ∗ owns (c : Thread nD τ) (ms0_4 V t) fullShare ((dat0 V c).after 4 t)
    ∗ owns (c : Thread nD τ) (ms0_5 V t) fullShare ((dat0 V c).after 5 t)
    ∗ owns (c : Thread nD τ) (ms0_6 V t) fullShare ((dat0 V c).after 6 t)
    ∗ owns (c : Thread nD τ) (ms0_7 V t) fullShare ((dat0 V c).after 7 t))

set_option maxHeartbeats 1600000 in
/-- The body at any point: the inputs' memrefs hold their blocks and the invariant lends the table, so the run applies;
    the rest of the invariant passes through unread. -/
theorem sound_body0 (c : Dev nD) (t : Fin (cfgM V).N) :
    bodyPre0 V c t ⊢ wp frame (wpE (defs₀ (F := F)) Variants.none c none) Set.univ (bodyAt0 V t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  rw [show (dat0 V c).Φ t.castSucc = iprop(Pipeline.ΦA spec0 c ∗ Pipeline.prefHeld (Ix := Unit) (Name := ℕ) (U := UR sig nD τ) (Lvl := ℕ) pre0 c (fun _ => fullShare) (tbl0 V)) from rfl, prefHeld0_eq]
  unfold outsAt0
  unfold out0_7
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0 c (grid0.coords t) _ _ _ _ _ _ _ _ _ _ _ _ _ _ _ _ (tbl0 V 0) (iblk0 V c 0 t) (iblk0 V c 1 t) (iblk0 V c 2 t) (iblk0 V c 3 t) (iblk0 V c 4 t) (iblk0 V c 5 t) (iblk0 V c 6 t)).2 Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨HT, H0, H1, H2, H3, H4, H5, H6, ⟨%e7, H7⟩⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_7 c _ _ _ _ _ _ _ _ _ _ _ _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Frm

end
-- ==== Proof.MatmulCondsW.lean ====
/-
  The matrix-product stage on its 8 x 2 x 8 grid (point t = (i, j, k), k fastest): the two conditions its body branches on,
  in closed form over the grid — "k = 0" (the accumulator block is cleared first) and "k = 7" (the bias row is added last) —
  and the staging memrefs the body is called with at a point.
-/
import proofs.«148910_j25589415149865_1_alg».proof.Proof.Gen.Kernel.Launch
import proofs.«148910_j25589415149865_1_alg».proof.Proof.Gen.Kernel.Skeleton
import proofs.«148910_j25589415149865_1_alg».proof.Proof.Gen.Kernel.Points
import proofs.«148910_j25589415149865_1_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the contraction block index is 0. -/
abbrev cond1_0 (i : grid1.Coords) : Prop := (Scalar.cmpi .ne (Scalar.extui (Scalar.cmpi .eq (BitVec.ofNat 32 (i 2).val) 0#32)) 0#32) = 1#1
/-- The second branch's condition: the contraction block index is 7, the last. -/
abbrev cond1_1 (i : grid1.Coords) : Prop := (Scalar.cmpi .ne (Scalar.extui (Scalar.cmpi .eq (BitVec.ofNat 32 (i 2).val) 7#32)) 0#32) = 1#1

/-- The first holds exactly at the points whose position is 0 modulo 8. -/
theorem hcond1_0 : ∀ t : Fin cfg1.N, cond1_0 (grid1.coords t) ↔ t.val % 8 = 0 :=
  (by decide +kernel : ∀ t : Fin grid1.N, cond1_0 (grid1.coords t) ↔ t.val % 8 = 0)
/-- The second exactly at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-- One staging buffer of the output window, through which its contents are stated. -/
abbrev VO1_3 : View sig .tc .vmem S1024x2048 .f32 := (Memref.whole cc1_stg3_0 : Memref sig .tc .vmem S1024x2048 .f32).view
/-- Each window's current staging memref at point t, as the pipeline passes it, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)

end Cert.Kernel.Frm

end
-- ==== Proof.MatmulRunFirstW.lean ====
/-
  The matrix-product body at a point with k = 0: the accumulator block is cleared, then the block product X_blk · W_blkᵀ is added; the bias branch is not taken.
-/
import proofs.«148910_j25589415149865_1_alg».proof.Proof.MatmulCondsW

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case k = 0. The stores the body makes into the output block, as pieces (last first), with the proof that on whole
    staging memrefs — the three inputs at their contents — the body runs to the continuation holding the inputs as
    they were and the output block with those pieces written. -/
noncomputable def kernelRun1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : cond1_0 i) (hc1 : ¬cond1_1 i)
    (x0 : Vec F S1024x512 .f32) (x1 : Vec F S2048x512 .bf16) (x2 : Vec F S2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel.Frm

end
-- ==== Proof.MatmulRunMiddleW.lean ====
/-
  The matrix-product body at a point with 0 < k < 7: the block product X_blk · W_blkᵀ is added to the running accumulator block; neither branch is taken.
-/
import proofs.«148910_j25589415149865_1_alg».proof.Proof.MatmulCondsW

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case 0 < k < 7. The stores the body makes into the output block, as pieces (last first), with the proof that on whole
    staging memrefs — the three inputs at their contents — the body runs to the continuation holding the inputs as
    they were and the output block with those pieces written. -/
noncomputable def kernelRun1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : ¬cond1_0 i) (hc1 : ¬cond1_1 i)
    (x0 : Vec F S1024x512 .f32) (x1 : Vec F S2048x512 .bf16) (x2 : Vec F S2048 .f32) (xo3 : Vec F S1024x2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel.Frm

end
-- ==== Proof.MatmulRunLastW.lean ====
/-
  The matrix-product body at a point with k = 7: the block product is added to the running accumulator block, then the bias row, broadcast down the rows.
-/
import proofs.«148910_j25589415149865_1_alg».proof.Proof.MatmulCondsW

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case k = 7. The stores the body makes into the output block, as pieces (last first), with the proof that on whole
    staging memrefs — the three inputs at their contents — the body runs to the continuation holding the inputs as
    they were and the output block with those pieces written. -/
noncomputable def kernelRun1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : ¬cond1_0 i) (hc1 : cond1_1 i)
    (x0 : Vec F S1024x512 .f32) (x1 : Vec F S2048x512 .bf16) (x2 : Vec F S2048 .f32) (xo3 : Vec F S1024x2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel.Frm

end
-- ==== Proof.MatmulStageW.lean ====
/-
  The matrix-product stage as a pipeline, at any contents V of the buffers when it is entered: each window's block at a point,
  what the accumulator block holds after every point (cleared and filled at k = 0, added to for 0 < k < 7, added to and
  biased at k = 7 — each from what the point before left), the proof data and the body's obligation at every point.
-/
import proofs.«148910_j25589415149865_1_alg».proof.Proof.MatmulRunFirstW
import proofs.«148910_j25589415149865_1_alg».proof.Proof.MatmulRunMiddleW
import proofs.«148910_j25589415149865_1_alg».proof.Proof.MatmulRunLastW

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data whose
    array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data whose
    array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- At k = 0 the two stores (the zero block, then zero plus the block product) cover the accumulator block. -/
theorem cover1_A_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : cond1_0 i) (hc1 : ¬cond1_1 i) (x0 : Vec F S1024x512 .f32) (x1 : Vec F S2048x512 .bf16) (x2 : Vec F S2048 .f32) (y : S1024x2048.Idx) :
    ∃ pc ∈ (kernelRun1_A c i arg3 harg3 arg4 harg4 arg5 harg5 arg6 harg6 hc0 hc1 x0 x1 x2).1, y ∈ pc.1.set :=
  View.cover_of_tiledL (kernelRun1_A c i arg3 harg3 arg4 harg4 arg5 harg5 arg6 harg6 hc0 hc1 x0 x1 x2).1 S1024x2048.size (by sl_kernel_rfl) y
/-- What the point leaves in the accumulator block at k = 0. -/
def out1_A_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : cond1_0 i) (hc1 : ¬cond1_1 i) (x0 : Vec F S1024x512 .f32) (x1 : Vec F S2048x512 .bf16) (x2 : Vec F S2048 .f32) : Vec F S1024x2048 .f32 :=
  VO1_3.read (Elt F) (VO1_3.writes (Elt F) VO1_3.junk (kernelRun1_A c i arg3 harg3 arg4 harg4 arg5 harg5 arg6 harg6 hc0 hc1 x0 x1 x2).1)

/-- For 0 < k < 7 the one store covers the accumulator block. -/
theorem cover1_B_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : ¬cond1_0 i) (hc1 : ¬cond1_1 i) (x0 : Vec F S1024x512 .f32) (x1 : Vec F S2048x512 .bf16) (x2 : Vec F S2048 .f32) (xo3 : Vec F S1024x2048 .f32) (y : S1024x2048.Idx) :
    ∃ pc ∈ (kernelRun1_B c i arg3 harg3 arg4 harg4 arg5 harg5 arg6 harg6 hc0 hc1 x0 x1 x2 xo3).1, y ∈ pc.1.set :=
  View.cover_of_tiledL (kernelRun1_B c i arg3 harg3 arg4 harg4 arg5 harg5 arg6 harg6 hc0 hc1 x0 x1 x2 xo3).1 S1024x2048.size (by sl_kernel_rfl) y
/-- What the point leaves in the accumulator block for 0 < k < 7, over what the point before left. -/
def out1_B_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : ¬cond1_0 i) (hc1 : ¬cond1_1 i) (x0 : Vec F S1024x512 .f32) (x1 : Vec F S2048x512 .bf16) (x2 : Vec F S2048 .f32) (xo3 : Vec F S1024x2048 .f32) : Vec F S1024x2048 .f32 :=
  VO1_3.read (Elt F) (VO1_3.writes (Elt F) VO1_3.junk (kernelRun1_B c i arg3 harg3 arg4 harg4 arg5 harg5 arg6 harg6 hc0 hc1 x0 x1 x2 xo3).1)

/-- At k = 7 the two stores cover the accumulator block. -/
theorem cover1_C_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : ¬cond1_0 i) (hc1 : cond1_1 i) (x0 : Vec F S1024x512 .f32) (x1 : Vec F S2048x512 .bf16) (x2 : Vec F S2048 .f32) (xo3 : Vec F S1024x2048 .f32) (y : S1024x2048.Idx) :
    ∃ pc ∈ (kernelRun1_C c i arg3 harg3 arg4 harg4 arg5 harg5 arg6 harg6 hc0 hc1 x0 x1 x2 xo3).1, y ∈ pc.1.set :=
  View.cover_of_tiledL (kernelRun1_C c i arg3 harg3 arg4 harg4 arg5 harg5 arg6 harg6 hc0 hc1 x0 x1 x2 xo3).1 S1024x2048.size (by sl_kernel_rfl) y
/-- What the point leaves in the accumulator block at k = 7, over what the point before left. -/
def out1_C_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : ¬cond1_0 i) (hc1 : cond1_1 i) (x0 : Vec F S1024x512 .f32) (x1 : Vec F S2048x512 .bf16) (x2 : Vec F S2048 .f32) (xo3 : Vec F S1024x2048 .f32) : Vec F S1024x2048 .f32 :=
  VO1_3.read (Elt F) (VO1_3.writes (Elt F) VO1_3.junk (kernelRun1_C c i arg3 harg3 arg4 harg4 arg5 harg5 arg6 harg6 hc0 hc1 x0 x1 x2 xo3).1)

theorem not_c1_of_mod0 (t : Fin cfg1.N) (h0 : t.val % 8 = 0) : ¬cond1_1 (grid1.coords t) := fun h => by
  have := (hcond1_1 t).mp h; omega
theorem not_c0_of (t : Fin cfg1.N) (h0 : ¬t.val % 8 = 0) : ¬cond1_0 (grid1.coords t) := fun h => h0 ((hcond1_0 t).mp h)
theorem not_c1_of (t : Fin cfg1.N) (h1 : ¬t.val % 8 = 7) : ¬cond1_1 (grid1.coords t) := fun h => h1 ((hcond1_1 t).mp h)

/-- THE ACCUMULATION. What the accumulator block holds after the body at position n: the case the position selects, run at
    the point's memrefs and input blocks, over what this leaves at n - 1 when the case reads the block. -/
def outsAt1 (c : Dev nD) : (n : ℕ) → n < cfg1.N → Vec F S1024x2048 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩)
      ((hcond1_0 ⟨0, hn⟩).mpr (Nat.zero_mod _)) (not_c1_of_mod0 ⟨0, hn⟩ (Nat.zero_mod _)) (iblk1 V c 0 ⟨0, hn⟩) (iblk1 V c 1 ⟨0, hn⟩) (iblk1 V c 2 ⟨0, hn⟩)
  | n + 1, hn =>
    if h0 : (n + 1) % 8 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        ((hcond1_0 ⟨n + 1, hn⟩).mpr h0) (not_c1_of_mod0 ⟨n + 1, hn⟩ h0) (iblk1 V c 0 ⟨n + 1, hn⟩) (iblk1 V c 1 ⟨n + 1, hn⟩) (iblk1 V c 2 ⟨n + 1, hn⟩)
    else if h1 : (n + 1) % 8 = 7 then
      out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        (not_c0_of ⟨n + 1, hn⟩ h0) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn))
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        (not_c0_of ⟨n + 1, hn⟩ h0) (not_c1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn))

/-- At a point with k = 0: that case's contents. -/
theorem outsAt1_A (c : Dev nD) (t : Fin cfg1.N) (h0 : t.val % 8 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (not_c1_of_mod0 t h0) (iblk1 V c 0 t) (iblk1 V c 1 t) (iblk1 V c 2 t) := by
  obtain ⟨n, hn⟩ := t
  cases n with
  | zero => exact rfl
  | succ n => exact (dif_pos h0).trans rfl

/-- At a point with k = 7: that case's contents, over what the point before left. -/
theorem outsAt1_C (c : Dev nD) (t : Fin cfg1.N) (h0 : ¬t.val % 8 = 0) (h1 : t.val % 8 = 7) :
    outsAt1 V c t.val t.isLt = out1_C_3 c (grid1.coords t) (ms1_0 t) (hs1_0 t) (ms1_1 t) (hs1_1 t) (ms1_2 t) (hs1_2 t) (ms1_3 t) (hs1_3 t) (not_c0_of t h0) ((hcond1_1 t).mpr h1) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- At a point with 0 < k < 7: that case's contents, over what the point before left. -/
theorem outsAt1_B (c : Dev nD) (t : Fin cfg1.N) (h0 : ¬t.val % 8 = 0) (h1 : ¬t.val % 8 = 7) :
    outsAt1 V c t.val t.isLt = out1_B_3 c (grid1.coords t) (ms1_0 t) (hs1_0 t) (ms1_1 t) (hs1_1 t) (ms1_2 t) (hs1_2 t) (ms1_3 t) (hs1_3 t) (not_c0_of t h0) (not_c1_of t h1) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The proof data of the stage on core c: the arrays as the stage finds them; after the body at point t each input's
    buffer at its block and the accumulator's at outsAt1; the invariant the scoped rest and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point with k > 0 the accumulator's staging buffer holds what the body left at the point before: the block index
    has not moved and the buffer was not written back between (it is written back after k = 7 only). -/
theorem before1_3_kept (c : Dev nD) (t : Fin cfg1.N) (h0 : ¬t.val % 8 = 0) (d) :
    (dat1 V c).before 3 t d = outsAt1 V c (t.val - 1) (Nat.lt_of_le_of_lt (Nat.sub_le _ _) t.isLt) := by
  have hN : t.val < 128 := lt_of_lt_of_eq t.isLt (show cfg1.N = 128 from N_1)
  rw [Dat.before_out_kept _ 3 rfl t (by omega) (Bool.eq_false_iff.mpr fun h => by have := (flush1_3 _).mp h; dsimp only at this; omega)
    (fun _ => rfl) (fun _ _ => rfl)]
  dsimp only [dat1]

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
/-- The body at any point: the inputs' memrefs hold their blocks; the position says which case the point is in; for k > 0
    the accumulator holds what the point before left; so that case's run applies; the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 8 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (not_c1_of_mod0 t h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _)
  · by_cases h1 : t.val % 8 = 7
    · rw [outsAt1_C V c t h0 h1]
      simp only [before1_3_kept V c t h0]
      unfold out1_C_3
      iintro ⟨HΦ, Ho, ⟨%d0, H0⟩, ⟨%d1, H1⟩, ⟨%d2, H2⟩, ⟨%d3, H3⟩⟩
      iapply ((kernelRun1_C c (grid1.coords t) _ _ _ _ _ _ _ _ (not_c0_of t h0) ((hcond1_1 t).mpr h1) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _)
    · rw [outsAt1_B V c t h0 h1]
      simp only [before1_3_kept V c t h0]
      unfold out1_B_3
      iintro ⟨HΦ, Ho, ⟨%d0, H0⟩, ⟨%d1, H1⟩, ⟨%d2, H2⟩, ⟨%d3, H3⟩⟩
      iapply ((kernelRun1_B c (grid1.coords t) _ _ _ _ _ _ _ _ (not_c0_of t h0) (not_c1_of t h1) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 c _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Frm

end
-- ==== Proof.TwoStageRunW.lean ====
/-
  The whole program as a run: eight layout/conversion operations on the host, then the weight-reconstruction stage, then the
  matrix-product stage. The buffers' contents are followed from the launch through the three items (W0 at launch, W1 after the
  host operations, W2 with the first stage's arrays at what its write-backs leave, W3 likewise after the second stage), each
  stage enters the pipeline library's region rule from "every unscoped buffer held at the boundary's contents", and every
  weakly fair execution ends with every unscoped buffer at W3.
-/
import proofs.«148910_j25589415149865_1_alg».proof.Proof.WeightStageW
import proofs.«148910_j25589415149865_1_alg».proof.Proof.MatmulStageW
import proofs.«148910_j25589415149865_1_alg».proof.Proof.Gen.Kernel.Regions
import Idealize.ShloMosaic.Lib.Pipeline.RegionsLoop
import Idealize.ShloMosaic.Lib.Pipeline.FrameSuffix

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, and after the host operations. -/
abbrev W0 : Dev nD → Valuation τ sig (Elt F) := fun c b => m (c, b)
abbrev W1 : Dev nD → Valuation τ sig (Elt F) := fun c => StableHlo.after hostOps0 (W0 m c)
/-- The same read at the core's references: what the first stage's proof data take. -/
abbrev E1 : (c : Dev nD) → (b : Ref sig .tc) → Buf (Elt F) ((c : Thread nD τ).loc b) := fun c b => W1 m c b

/-- At the first stage's exit: its arrays at what the pipeline leaves, every other buffer as entered. -/
def W2 (c : Dev nD) : Valuation τ sig (Elt F) :=
  Pipeline.withArrays spec0 c (W1 m c) fun w => (dat0 (E1 m) c).arrAt w (cfgM (E1 m)).N
theorem W2_arr (c : Dev nD) (w : Fin (cfgM (E1 m)).W) :
    W2 m c (Proc.devRef .tc (Pipeline.arrRef spec0 w)) = (dat0 (E1 m) c).arrAt w (cfgM (E1 m)).N := by
  unfold W2; exact Pipeline.withArrays_arr spec0 winFacts0.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin (cfgM (E1 m)).W) : (dat0 (E1 m) c).arrAt w (cfgM (E1 m)).N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the second stage's exit. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 winFacts1.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- The tables' admissible contents: the first stage's mask table as its entry contents have it; the second has none. -/
abbrev adm : (p : Fin 2) → (pcfgs (F := F) p).Adm
  | ⟨0, _⟩ => adm0 (E1 m)
  | ⟨1, _⟩ => cfg1.toPCfg_adm
/-- Every pipeline's proof data, each at its stage's entry contents. -/
def pdats : (p : Fin 2) → (c : Dev nD) → Dat τ (Elt F) Unit ℕ (UR sig nD τ) ℕ (Pipeline.pin (pcfgs (F := F)) (adm m) p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
/-- THE FIRST STAGE over the thread state: entered from every unscoped buffer at W1, left at W2. Its arrays and its mask
    table are split out of the unscoped buffers; the table enters the invariant whole and comes back with the generator
    register; the arrays are put back at the exit contents. -/
def reg0 : Pipeline.RegionSeg (pcfgs (F := F)) (adm m) (pdats m) () defs₀ 𝒱₀ L lv 0 where
  win := winFacts0.to₀
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl0 (E1 m)))
  Z c := Pipeline.unscopedRestP (Ix := Unit) (Name := ℕ) (U := UR sig nD τ) (Lvl := ℕ) pre0 spec0 c (E1 m c)
  hentry c := by
    rw [Pipeline.ownSems0_none]
    have hsplit := Pipeline.arrays_of_unscopedBufs (p := 0) (pcfgs (F := F)) (adm m) (pdats m) winFacts0 arr_whole0 c
      ((pdats m 0 c).share_full fun _ => rfl) (E1 m c) fun _ => rfl
    have hs : (Pipeline.unscopedRest (Ix := Unit) (Name := ℕ) (U := UR sig nD τ) (Lvl := ℕ) (Pipeline.pin (pcfgs (F := F)) (adm m) 0).spec c (E1 m c) : sProp 𝕄)
        = iprop(Pipeline.prefHeld (Ix := Unit) (Name := ℕ) (U := UR sig nD τ) (Lvl := ℕ) pre0 c (fun _ => fullShare) (tbl0 (E1 m)) ∗ Pipeline.unscopedRestP (Ix := Unit) (Name := ℕ) (U := UR sig nD τ) (Lvl := ℕ) pre0 spec0 c (E1 m c)) := by
      rw [← show (fun k => E1 m c (pre0.ref k)) = tbl0 (E1 m) from funext (V_pre0 (E1 m) c)]
      exact Pipeline.unscopedRest_split preFacts0 c (E1 m c)
    rw [Pipeline.unscopedBufs_held, hs] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.ΦA spec0 c ∗ Pipeline.prefHeld (Ix := Unit) (Name := ℕ) (U := UR sig nD τ) (Lvl := ℕ) pre0 c (fun _ => fullShare) (tbl0 (E1 m))) from rfl]
    unfold Pipeline.ΦA
    iintro ⟨Hp, Ht, Hr⟩
    isplitr [Ht]
    · isplitl [Hr]; · iexact Hr
      iexact Hp
    iexact Ht
  hout c := by
    rw [Pipeline.ownSems0_none, show (pdats m 0 c).Φ (Fin.last _) = iprop(Pipeline.ΦA spec0 c ∗ Pipeline.prefHeld (Ix := Unit) (Name := ℕ) (U := UR sig nD τ) (Lvl := ℕ) pre0 c (fun _ => fullShare) (tbl0 (E1 m))) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m) (Ix := Unit) (Name := ℕ) (U := UR sig nD τ) (Lvl := ℕ)
      winFacts0 arr_whole0 c (pdats m) ((pdats m 0 c).share_full fun _ => rfl)
      (E1 m c) (E2 m c) ((pdats m 0 c).arrAt · (cfgM (E1 m)).N) (hF0 m c) (hrest0 m c)
    have hs : (Pipeline.unscopedRest (Ix := Unit) (Name := ℕ) (U := UR sig nD τ) (Lvl := ℕ) (Pipeline.pin (pcfgs (F := F)) (adm m) 0).spec c (E1 m c) : sProp 𝕄)
        = iprop(Pipeline.prefHeld (Ix := Unit) (Name := ℕ) (U := UR sig nD τ) (Lvl := ℕ) pre0 c (fun _ => fullShare) (tbl0 (E1 m)) ∗ Pipeline.unscopedRestP (Ix := Unit) (Name := ℕ) (U := UR sig nD τ) (Lvl := ℕ) pre0 spec0 c (E1 m c)) := by
      rw [← show (fun k => E1 m c (pre0.ref k)) = tbl0 (E1 m) from funext (V_pre0 (E1 m) c)]
      exact Pipeline.unscopedRest_split preFacts0 c (E1 m c)
    rw [Pipeline.unscopedBufs_held, hs] at hjoin
    iintro ⟨Ha, HO, ⟨HY, Ht⟩, Hrest⟩
    imodintro
    isplitl [Ha Hrest Ht]
    · iapply hjoin; isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

set_option backward.isDefEq.respectTransparency.types false in
/-- THE SECOND STAGE over the thread state: entered from every unscoped buffer at W2, left at W3. -/
def reg1 : Pipeline.RegionSeg (pcfgs (F := F)) (adm m) (pdats m) () defs₀ 𝒱₀ L lv 1 where
  win := winFacts1.to₀
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) (adm m) (pdats m) winFacts1 arr_whole1 c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := UR sig nD τ) (Lvl := ℕ)
      winFacts1 arr_whole1 c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three items in order. -/
abbrev segs : List (Pipeline.Seg (pcfgs (F := F)) (adm m) (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing faulting,
    and every final state has every unscoped buffer of every core at W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) (adm m) (pdats m) () (cellOf_inj (adm m)) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Frm

end
-- ==== Proof.FrameOfW.lean ====
/-
  The argument arrays end as launched: no host operation writes one, and a stage either reads it through an input window
  (whose array the pipeline leaves as it found it) or does not touch it; so the contents at the end, followed back through
  the three items, are the launch contents.
-/
import proofs.«148910_j25589415149865_1_alg».proof.Proof.TwoStageRunW

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (E2 m) c).arrAt_in 0 rfl _).trans (A_eq1 (E2 m) c 0))
    _ = W1 m c (Proc.devRef .tc main_arg0) := W2_of_ne m c main_arg0 (by decide)
    _ = W0 m c (Proc.devRef .tc main_arg0) := V1_of m c main_arg0 (by decide)
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := V1_of m c main_arg1 (by decide)
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := V1_of m c main_arg2 (by decide)
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := V1_of m c main_arg3 (by decide)
    _ = m ((c : Thread nD τ).loc main_arg3) := rfl

theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := V1_of m c main_arg4 (by decide)
    _ = m ((c : Thread nD τ).loc main_arg4) := rfl

theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := V1_of m c main_arg5 (by decide)
    _ = m ((c : Thread nD τ).loc main_arg5) := rfl

theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := (W2_arr m c 5).trans (((dat0 (E1 m) c).arrAt_in 5 rfl _).trans (A_eq0 (E1 m) c 5))
    _ = W0 m c (Proc.devRef .tc main_arg6) := V1_of m c main_arg6 (by decide)
    _ = m ((c : Thread nD τ).loc main_arg6) := rfl

theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := (W2_arr m c 6).trans (((dat0 (E1 m) c).arrAt_in 6 rfl _).trans (A_eq0 (E1 m) c 6))
    _ = W0 m c (Proc.devRef .tc main_arg7) := V1_of m c main_arg7 (by decide)
    _ = m ((c : Thread nD τ).loc main_arg7) := rfl

theorem W3_main_arg8 (c : Dev nD) : W3 m c (Proc.devRef .tc main_arg8) = m ((c : Thread nD τ).loc main_arg8) :=
  calc W3 m c (Proc.devRef .tc main_arg8)
    _ = W2 m c (Proc.devRef .tc main_arg8) := (W3_arr m c 2).trans (((dat1 (E2 m) c).arrAt_in 2 rfl _).trans (A_eq1 (E2 m) c 2))
    _ = W1 m c (Proc.devRef .tc main_arg8) := W2_of_ne m c main_arg8 (by decide)
    _ = W0 m c (Proc.devRef .tc main_arg8) := V1_of m c main_arg8 (by decide)
    _ = m ((c : Thread nD τ).loc main_arg8) := rfl

theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := V1_of m c main_arg9 (by decide)
    _ = m ((c : Thread nD τ).loc main_arg9) := rfl

/-- The frame: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c)⟩) (run_all m ρ)

/-- The same run, with the result array named: it ends at what the second stage's write-backs leave. -/
theorem run_result : θ_run defs (onTc (τ := τ) (main (F := F))) ⟨m, fun _ => 0, ρ⟩ (fun r => ∀ c : Dev nD,
      r.2.mem ((c.tc : Thread nD τ).loc main_v9) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v9 (by decide))).trans (W3_arr m c 3),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c)⟩) (run_all m ρ)

end Cert.Kernel.Frm

end
-- ==== Proof.WeightRun.lean ====
/-
  The weight-reconstruction body at one grid point (one row block of 128 rows): a loop over the 32 column blocks; trip k
  loads the factor bits, the scalars and the mask word of tile (row block, k), computes the blended 128 x 128 tile and stores
  it at columns 128 k .. 128 k + 127 of the output block. The mask is read from a table in scalar memory that the body only loads.
-/
import proofs.«148910_j25589415149865_1_alg».proof.Proof.Gen.KernelIdeal.Launch
import proofs.«148910_j25589415149865_1_alg».proof.Proof.Gen.KernelIdeal.Skeleton
import proofs.«148910_j25589415149865_1_alg».proof.Proof.Gen.KernelIdeal.Points
import proofs.«148910_j25589415149865_1_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The mask table as the body is handed it: its whole buffer as a memref. -/
abbrev tbM : Memref sig .tc .smem S32x32 .i32 := Memref.whole main_v7
abbrev htbM : (tbM).IsWhole := Memref.isWhole_whole _

/-- One staging buffer of the output window, through which its contents are stated. -/
abbrev VO0_7 : View sig .tc .vmem S128x4096 .bf16 := (Memref.whole cc0_stg7_0 : Memref sig .tc .vmem S128x4096 .bf16).view

set_option maxHeartbeats 4000000 in
/-- The stores the body makes into the output block, as pieces (last first: the 32 trips' tiles), with the proof that on
    whole staging memrefs — the seven inputs and the mask table at their contents, the output at anything — the body runs to
    the continuation holding the inputs and the table as they were and the output block with those pieces written. -/
noncomputable def kernelRun0 (c : Dev nD) (i : grid0.Coords) (arg2 : Memref sig .tc .vmem S1x32x4x128x16 .bf16) (harg2 : arg2.IsWhole) (arg3 : Memref sig .tc .vmem S1x32x4x16x128 .bf16) (harg3 : arg3.IsWhole) (arg4 : Memref sig .tc .vmem S1x32x4x1x1 .f32) (harg4 : arg4.IsWhole) (arg5 : Memref sig .tc .vmem S1x32x4x1x1 .f32) (harg5 : arg5.IsWhole) (arg6 : Memref sig .tc .vmem S1x32x4x1x1 .f32) (harg6 : arg6.IsWhole) (arg7 : Memref sig .tc .vmem S1x32x1x1 .f32) (harg7 : arg7.IsWhole) (arg8 : Memref sig .tc .vmem S128x4096 .f32) (harg8 : arg8.IsWhole) (arg9 : Memref sig .tc .vmem S128x4096 .bf16) (harg9 : arg9.IsWhole)
    (xt : Vec F S32x32 .i32) (x0 : Vec F S1x32x4x128x16 .bf16) (x1 : Vec F S1x32x4x16x128 .bf16) (x2 x3 x4 : Vec F S1x32x4x1x1 .f32) (x5 : Vec F S1x32x1x1 .f32) (x6 : Vec F S128x4096 .f32) :
    { L7 : List (View.Piece (Elt F) S128x4096 .bf16) //
      ∀ (E : Set ℕ) (K : PUnit → sProp 𝕄),
        iprop(owns (c : Thread nD τ) tbM fullShare xt ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) tbM fullShare xt ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0_kernel i tbM htbM arg2 harg2 arg3 harg3 arg4 harg4 arg5 harg5 arg6 harg6 arg7 harg7 arg8 harg8 arg9 harg9) K } := by
  refine ⟨?_, fun E K => ?run⟩
  case run =>
    simp only [cc0_kernel_eq_skeleton]; unfold cc0_kernel_skel
    unfold owns
    iintro ⟨⟨%ft, %hft, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := (htbM).eq_unread hft; obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec
    sl_step
    iapply Hk
    isplitl [HT]
    · iexists _; isplitr; · ipureintro; exact (htbM).read_unread _
      iexact HT
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Frm

end
-- ==== Proof.WeightStage.lean ====
/-
  The weight-reconstruction stage as a pipeline, at any contents V of the buffers when it is entered: the mask table's
  contents read off V, each window's block at a point (row block t of its array), what the output block holds after the
  body (the 32 tiles the loop stores), the proof data — the table rides in the invariant, whole, only loaded — and the body's
  obligation at every point.
-/
import proofs.«148910_j25589415149865_1_alg».proof.Proof.WeightRun

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The mask table's contents when the stage is entered (the program runs on one device). -/
def tbl0 : pre0.Contents (Elt F) := fun j => V (0 : Dev nD) (pre0.ref j)
theorem V_pre0 (c : Dev nD) (j : Fin 1) : V c (pre0.ref j) = tbl0 V j := by
  obtain rfl : c = 0 := Subsingleton.elim _ _; rfl
/-- Those contents as admissible contents (no index map reads the table: every contents is admissible), and the pipeline at them. -/
abbrev adm0 : (pcfg0 (F := F)).Adm := ⟨tbl0 V, trivial⟩
abbrev cfgM : Pipeline.Cfg sig Λ₀ := cfg0 (adm0 V)

/-- The table held whole is the table memref owned at its contents. -/
theorem prefHeld0_eq (c : Dev nD) (xt : pre0.Contents (Elt F)) :
    (Pipeline.prefHeld (Ix := Unit) (Name := ℕ) (U := UR sig nD τ) (Lvl := ℕ) pre0 c (fun _ => fullShare) xt : sProp 𝕄)
      = owns (c : Thread nD τ) tbM fullShare (xt 0) := by
  unfold Pipeline.prefHeld
  rw [show (Finset.univ : Finset (Fin 1)) = {(0 : Fin 1)} from by decide, bigSep_singleton]
  exact (owns_whole (c : Thread nD τ) main_v7 fullShare (xt 0)).symm

/-- Window w's block at point t, read off its array as the stage finds it. -/
def iblk0 (c : Dev nD) (w : Fin (cfgM V).W) (t : Fin (cfgM V).N) : (((cfgM V).win w).xblock ((cfgM V).grid.coords t)).Idx → Elt F ((cfgM V).win w).elt :=
  (((cfgM V).win w).blk t).view.read (Elt F) (V c (Pipeline.arrRef spec0 w))

theorem before0_0_of {c : Dev nD} (dat : Dat τ (Elt F) Unit ℕ (UR sig nD τ) ℕ (cfgM V) c) (hA : dat.A 0 = V c (Pipeline.arrRef spec0 0))
    (hafter : ∀ t, dat.after 0 t = iblk0 V c 0 t) (t : Fin (cfgM V).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ (cfgM V) c) (hA : dat.A 1 = V c (Pipeline.arrRef spec0 1))
    (hafter : ∀ t, dat.after 1 t = iblk0 V c 1 t) (t : Fin (cfgM V).N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ (cfgM V) c) (hA : dat.A 2 = V c (Pipeline.arrRef spec0 2))
    (hafter : ∀ t, dat.after 2 t = iblk0 V c 2 t) (t : Fin (cfgM V).N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ (cfgM V) c) (hA : dat.A 3 = V c (Pipeline.arrRef spec0 3))
    (hafter : ∀ t, dat.after 3 t = iblk0 V c 3 t) (t : Fin (cfgM V).N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ (cfgM V) c) (hA : dat.A 4 = V c (Pipeline.arrRef spec0 4))
    (hafter : ∀ t, dat.after 4 t = iblk0 V c 4 t) (t : Fin (cfgM V).N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ (cfgM V) c) (hA : dat.A 5 = V c (Pipeline.arrRef spec0 5))
    (hafter : ∀ t, dat.after 5 t = iblk0 V c 5 t) (t : Fin (cfgM V).N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ (cfgM V) c) (hA : dat.A 6 = V c (Pipeline.arrRef spec0 6))
    (hafter : ∀ t, dat.after 6 t = iblk0 V c 6 t) (t : Fin (cfgM V).N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point t, as the pipeline passes it, and its wholeness. -/
abbrev ms0_0 (t : Fin (cfgM V).N) : Memref sig .tc .vmem S1x32x4x128x16 .bf16 := spec0_0.stage ((cfgM V).slots t 0)
abbrev hs0_0 (t : Fin (cfgM V).N) : (ms0_0 V t).IsWhole := hstage0_0 (((cfgM V).slots t 0).cast nbuf0_0)
abbrev ms0_1 (t : Fin (cfgM V).N) : Memref sig .tc .vmem S1x32x4x16x128 .bf16 := spec0_1.stage ((cfgM V).slots t 1)
abbrev hs0_1 (t : Fin (cfgM V).N) : (ms0_1 V t).IsWhole := hstage0_1 (((cfgM V).slots t 1).cast nbuf0_1)
abbrev ms0_2 (t : Fin (cfgM V).N) : Memref sig .tc .vmem S1x32x4x1x1 .f32 := spec0_2.stage ((cfgM V).slots t 2)
abbrev hs0_2 (t : Fin (cfgM V).N) : (ms0_2 V t).IsWhole := hstage0_2 (((cfgM V).slots t 2).cast nbuf0_2)
abbrev ms0_3 (t : Fin (cfgM V).N) : Memref sig .tc .vmem S1x32x4x1x1 .f32 := spec0_3.stage ((cfgM V).slots t 3)
abbrev hs0_3 (t : Fin (cfgM V).N) : (ms0_3 V t).IsWhole := hstage0_3 (((cfgM V).slots t 3).cast nbuf0_3)
abbrev ms0_4 (t : Fin (cfgM V).N) : Memref sig .tc .vmem S1x32x4x1x1 .f32 := spec0_4.stage ((cfgM V).slots t 4)
abbrev hs0_4 (t : Fin (cfgM V).N) : (ms0_4 V t).IsWhole := hstage0_4 (((cfgM V).slots t 4).cast nbuf0_4)
abbrev ms0_5 (t : Fin (cfgM V).N) : Memref sig .tc .vmem S1x32x1x1 .f32 := spec0_5.stage ((cfgM V).slots t 5)
abbrev hs0_5 (t : Fin (cfgM V).N) : (ms0_5 V t).IsWhole := hstage0_5 (((cfgM V).slots t 5).cast nbuf0_5)
abbrev ms0_6 (t : Fin (cfgM V).N) : Memref sig .tc .vmem S128x4096 .f32 := spec0_6.stage ((cfgM V).slots t 6)
abbrev hs0_6 (t : Fin (cfgM V).N) : (ms0_6 V t).IsWhole := hstage0_6 (((cfgM V).slots t 6).cast nbuf0_6)
abbrev ms0_7 (t : Fin (cfgM V).N) : Memref sig .tc .vmem S128x4096 .bf16 := spec0_7.stage ((cfgM V).slots t 7)
abbrev hs0_7 (t : Fin (cfgM V).N) : (ms0_7 V t).IsWhole := hstage0_7 (((cfgM V).slots t 7).cast nbuf0_7)

/-- The body at point t, on what the pipeline calls it with. -/
abbrev bodyAt0 (t : Fin (cfgM V).N) : Prog (TpuEff nD τ sig (Elt F) Λ₀ .tc) PUnit :=
  cc0_kernel (grid0.coords t) (Memref.whole main_v7) (Memref.isWhole_whole _) (ms0_0 V t) (hs0_0 V t) (ms0_1 V t) (hs0_1 V t) (ms0_2 V t) (hs0_2 V t) (ms0_3 V t) (hs0_3 V t) (ms0_4 V t) (hs0_4 V t) (ms0_5 V t) (hs0_5 V t) (ms0_6 V t) (hs0_6 V t) (ms0_7 V t) (hs0_7 V t)

/-- The 32 tiles the loop stores tile the output block, so they cover it. -/
theorem cover0_7 (c : Dev nD) (i : grid0.Coords) (arg2 : Memref sig .tc .vmem S1x32x4x128x16 .bf16) (harg2 : arg2.IsWhole) (arg3 : Memref sig .tc .vmem S1x32x4x16x128 .bf16) (harg3 : arg3.IsWhole) (arg4 : Memref sig .tc .vmem S1x32x4x1x1 .f32) (harg4 : arg4.IsWhole) (arg5 : Memref sig .tc .vmem S1x32x4x1x1 .f32) (harg5 : arg5.IsWhole) (arg6 : Memref sig .tc .vmem S1x32x4x1x1 .f32) (harg6 : arg6.IsWhole) (arg7 : Memref sig .tc .vmem S1x32x1x1 .f32) (harg7 : arg7.IsWhole) (arg8 : Memref sig .tc .vmem S128x4096 .f32) (harg8 : arg8.IsWhole) (arg9 : Memref sig .tc .vmem S128x4096 .bf16) (harg9 : arg9.IsWhole)
    (xt : Vec F S32x32 .i32) (x0 : Vec F S1x32x4x128x16 .bf16) (x1 : Vec F S1x32x4x16x128 .bf16) (x2 x3 x4 : Vec F S1x32x4x1x1 .f32) (x5 : Vec F S1x32x1x1 .f32) (x6 : Vec F S128x4096 .f32) (y : S128x4096.Idx) :
    ∃ pc ∈ (kernelRun0 c i arg2 harg2 arg3 harg3 arg4 harg4 arg5 harg5 arg6 harg6 arg7 harg7 arg8 harg8 arg9 harg9 xt x0 x1 x2 x3 x4 x5 x6).1, y ∈ pc.1.set :=
  View.cover_of_tiledL (kernelRun0 c i arg2 harg2 arg3 harg3 arg4 harg4 arg5 harg5 arg6 harg6 arg7 harg7 arg8 harg8 arg9 harg9 xt x0 x1 x2 x3 x4 x5 x6).1 S128x128.size (by sl_kernel_rfl) y

/-- What the body leaves in the output block: its pieces read back. -/
def out0_7 (c : Dev nD) (i : grid0.Coords) (arg2 : Memref sig .tc .vmem S1x32x4x128x16 .bf16) (harg2 : arg2.IsWhole) (arg3 : Memref sig .tc .vmem S1x32x4x16x128 .bf16) (harg3 : arg3.IsWhole) (arg4 : Memref sig .tc .vmem S1x32x4x1x1 .f32) (harg4 : arg4.IsWhole) (arg5 : Memref sig .tc .vmem S1x32x4x1x1 .f32) (harg5 : arg5.IsWhole) (arg6 : Memref sig .tc .vmem S1x32x4x1x1 .f32) (harg6 : arg6.IsWhole) (arg7 : Memref sig .tc .vmem S1x32x1x1 .f32) (harg7 : arg7.IsWhole) (arg8 : Memref sig .tc .vmem S128x4096 .f32) (harg8 : arg8.IsWhole) (arg9 : Memref sig .tc .vmem S128x4096 .bf16) (harg9 : arg9.IsWhole)
    (xt : Vec F S32x32 .i32) (x0 : Vec F S1x32x4x128x16 .bf16) (x1 : Vec F S1x32x4x16x128 .bf16) (x2 x3 x4 : Vec F S1x32x4x1x1 .f32) (x5 : Vec F S1x32x1x1 .f32) (x6 : Vec F S128x4096 .f32) : Vec F S128x4096 .bf16 :=
  VO0_7.read (Elt F) (VO0_7.writes (Elt F) VO0_7.junk (kernelRun0 c i arg2 harg2 arg3 harg3 arg4 harg4 arg5 harg5 arg6 harg6 arg7 harg7 arg8 harg8 arg9 harg9 xt x0 x1 x2 x3 x4 x5 x6).1)

/-- What the output block holds after the body at point t. -/
def outsAt0 (c : Dev nD) (t : Fin (cfgM V).N) : Vec F S128x4096 .bf16 :=
  out0_7 c (grid0.coords t) (ms0_0 V t) (hs0_0 V t) (ms0_1 V t) (hs0_1 V t) (ms0_2 V t) (hs0_2 V t) (ms0_3 V t) (hs0_3 V t) (ms0_4 V t) (hs0_4 V t) (ms0_5 V t) (hs0_5 V t) (ms0_6 V t) (hs0_6 V t) (ms0_7 V t) (hs0_7 V t) (tbl0 V 0) (iblk0 V c 0 t) (iblk0 V c 1 t) (iblk0 V c 2 t) (iblk0 V c 3 t) (iblk0 V c 4 t) (iblk0 V c 5 t) (iblk0 V c 6 t)

/-- The proof data of the stage on core c: the arrays as the stage finds them; after the body each input's buffer at its
    block and the output's at outsAt0; the invariant the scoped rest, the generator register and the mask table held whole;
    nothing owed; full shares. -/
def dat0 (c : Dev nD) : Dat τ (Elt F) Unit ℕ (UR sig nD τ) ℕ (cfgM V) c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outsAt0 V c t
  Φ _ := iprop(Pipeline.ΦA spec0 c ∗ Pipeline.prefHeld (Ix := Unit) (Name := ℕ) (U := UR sig nD τ) (Lvl := ℕ) pre0 c (fun _ => fullShare) (tbl0 V))
  q _ := fullShare
  owed _ := 0

theorem A_eq0 (c : Dev nD) (w : Fin (cfgM V).W) : (dat0 V c).A w = V c (Pipeline.arrRef spec0 w) := by
  dsimp only [dat0]
theorem after0_0 (c : Dev nD) (t : Fin (cfgM V).N) : (dat0 V c).after 0 t = iblk0 V c 0 t := by dsimp only [dat0]; try rfl
theorem after0_1 (c : Dev nD) (t : Fin (cfgM V).N) : (dat0 V c).after 1 t = iblk0 V c 1 t := by dsimp only [dat0]; try rfl
theorem after0_2 (c : Dev nD) (t : Fin (cfgM V).N) : (dat0 V c).after 2 t = iblk0 V c 2 t := by dsimp only [dat0]; try rfl
theorem after0_3 (c : Dev nD) (t : Fin (cfgM V).N) : (dat0 V c).after 3 t = iblk0 V c 3 t := by dsimp only [dat0]; try rfl
theorem after0_4 (c : Dev nD) (t : Fin (cfgM V).N) : (dat0 V c).after 4 t = iblk0 V c 4 t := by dsimp only [dat0]; try rfl
theorem after0_5 (c : Dev nD) (t : Fin (cfgM V).N) : (dat0 V c).after 5 t = iblk0 V c 5 t := by dsimp only [dat0]; try rfl
theorem after0_6 (c : Dev nD) (t : Fin (cfgM V).N) : (dat0 V c).after 6 t = iblk0 V c 6 t := by dsimp only [dat0]; try rfl
theorem after0_7 (c : Dev nD) (t : Fin (cfgM V).N) : (dat0 V c).after 7 t = outsAt0 V c t := by dsimp only [dat0]; try rfl
theorem before0_0 (c : Dev nD) (t : Fin (cfgM V).N) (d) : (dat0 V c).before 0 t d = iblk0 V c 0 t :=
  before0_0_of V (dat0 V c) (A_eq0 V c 0) (after0_0 V c) t d
theorem before0_1 (c : Dev nD) (t : Fin (cfgM V).N) (d) : (dat0 V c).before 1 t d = iblk0 V c 1 t :=
  before0_1_of V (dat0 V c) (A_eq0 V c 1) (after0_1 V c) t d
theorem before0_2 (c : Dev nD) (t : Fin (cfgM V).N) (d) : (dat0 V c).before 2 t d = iblk0 V c 2 t :=
  before0_2_of V (dat0 V c) (A_eq0 V c 2) (after0_2 V c) t d
theorem before0_3 (c : Dev nD) (t : Fin (cfgM V).N) (d) : (dat0 V c).before 3 t d = iblk0 V c 3 t :=
  before0_3_of V (dat0 V c) (A_eq0 V c 3) (after0_3 V c) t d
theorem before0_4 (c : Dev nD) (t : Fin (cfgM V).N) (d) : (dat0 V c).before 4 t d = iblk0 V c 4 t :=
  before0_4_of V (dat0 V c) (A_eq0 V c 4) (after0_4 V c) t d
theorem before0_5 (c : Dev nD) (t : Fin (cfgM V).N) (d) : (dat0 V c).before 5 t d = iblk0 V c 5 t :=
  before0_5_of V (dat0 V c) (A_eq0 V c 5) (after0_5 V c) t d
theorem before0_6 (c : Dev nD) (t : Fin (cfgM V).N) (d) : (dat0 V c).before 6 t d = iblk0 V c 6 t :=
  before0_6_of V (dat0 V c) (A_eq0 V c 6) (after0_6 V c) t d

/-- What the body is called with at point t, the windows one by one, -/
def bodyPre0 (c : Dev nD) (t : Fin (cfgM V).N) : sProp 𝕄 :=
  iprop((dat0 V c).Φ t.castSucc ∗ (dat0 V c).owesAt () t.castSucc
    ∗ (∃ d, owns (c : Thread nD τ) (ms0_0 V t) fullShare ((dat0 V c).before 0 t d))
    ∗ (∃ d, owns (c : Thread nD τ) (ms0_1 V t) fullShare ((dat0 V c).before 1 t d))
    ∗ (∃ d, owns (c : Thread nD τ) (ms0_2 V t) fullShare ((dat0 V c).before 2 t d))
    ∗ (∃ d, owns (c : Thread nD τ) (ms0_3 V t) fullShare ((dat0 V c).before 3 t d))
    ∗ (∃ d, owns (c : Thread nD τ) (ms0_4 V t) fullShare ((dat0 V c).before 4 t d))
    ∗ (∃ d, owns (c : Thread nD τ) (ms0_5 V t) fullShare ((dat0 V c).before 5 t d))
    ∗ (∃ d, owns (c : Thread nD τ) (ms0_6 V t) fullShare ((dat0 V c).before 6 t d))
    ∗ (∃ d, owns (c : Thread nD τ) (ms0_7 V t) fullShare ((dat0 V c).before 7 t d)))

/-- and what it returns. -/
def bodyPost0 (c : Dev nD) (t : Fin (cfgM V).N) : sProp 𝕄 :=
  iprop((dat0 V c).Φ t.succ ∗ (dat0 V c).owesAt () t.succ
    ∗ owns (c : Thread nD τ) (ms0_0 V t) fullShare ((dat0 V c).after 0 t)
    ∗ owns (c : Thread nD τ) (ms0_1 V t) fullShare ((dat0 V c).after 1 t)
    ∗ owns (c : Thread nD τ) (ms0_2 V t) fullShare ((dat0 V c).after 2 t)
    ∗ owns (c : Thread nD τ) (ms0_3 V t) fullShare ((dat0 V c).after 3 t)
    ∗ owns (c : Thread nD τ) (ms0_4 V t) fullShare ((dat0 V c).after 4 t)
    ∗ owns (c : Thread nD τ) (ms0_5 V t) fullShare ((dat0 V c).after 5 t)
    ∗ owns (c : Thread nD τ) (ms0_6 V t) fullShare ((dat0 V c).after 6 t)
    ∗ owns (c : Thread nD τ) (ms0_7 V t) fullShare ((dat0 V c).after 7 t))

set_option maxHeartbeats 1600000 in
/-- The body at any point: the inputs' memrefs hold their blocks and the invariant lends the table, so the run applies;
    the rest of the invariant passes through unread. -/
theorem sound_body0 (c : Dev nD) (t : Fin (cfgM V).N) :
    bodyPre0 V c t ⊢ wp frame (wpE (defs₀ (F := F)) Variants.none c none) Set.univ (bodyAt0 V t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  rw [show (dat0 V c).Φ t.castSucc = iprop(Pipeline.ΦA spec0 c ∗ Pipeline.prefHeld (Ix := Unit) (Name := ℕ) (U := UR sig nD τ) (Lvl := ℕ) pre0 c (fun _ => fullShare) (tbl0 V)) from rfl, prefHeld0_eq]
  unfold outsAt0
  unfold out0_7
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0 c (grid0.coords t) _ _ _ _ _ _ _ _ _ _ _ _ _ _ _ _ (tbl0 V 0) (iblk0 V c 0 t) (iblk0 V c 1 t) (iblk0 V c 2 t) (iblk0 V c 3 t) (iblk0 V c 4 t) (iblk0 V c 5 t) (iblk0 V c 6 t)).2 Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨HT, H0, H1, H2, H3, H4, H5, H6, ⟨%e7, H7⟩⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_7 c _ _ _ _ _ _ _ _ _ _ _ _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Frm

end
-- ==== Proof.MatmulConds.lean ====
/-
  The matrix-product stage on its 8 x 2 x 8 grid (point t = (i, j, k), k fastest): the two conditions its body branches on,
  in closed form over the grid — "k = 0" (the accumulator block is cleared first) and "k = 7" (the bias row is added last) —
  and the staging memrefs the body is called with at a point.
-/
import proofs.«148910_j25589415149865_1_alg».proof.Proof.Gen.KernelIdeal.Launch
import proofs.«148910_j25589415149865_1_alg».proof.Proof.Gen.KernelIdeal.Skeleton
import proofs.«148910_j25589415149865_1_alg».proof.Proof.Gen.KernelIdeal.Points
import proofs.«148910_j25589415149865_1_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the contraction block index is 0. -/
abbrev cond1_0 (i : grid1.Coords) : Prop := (Scalar.cmpi .ne (Scalar.extui (Scalar.cmpi .eq (BitVec.ofNat 32 (i 2).val) 0#32)) 0#32) = 1#1
/-- The second branch's condition: the contraction block index is 7, the last. -/
abbrev cond1_1 (i : grid1.Coords) : Prop := (Scalar.cmpi .ne (Scalar.extui (Scalar.cmpi .eq (BitVec.ofNat 32 (i 2).val) 7#32)) 0#32) = 1#1

/-- The first holds exactly at the points whose position is 0 modulo 8. -/
theorem hcond1_0 : ∀ t : Fin cfg1.N, cond1_0 (grid1.coords t) ↔ t.val % 8 = 0 :=
  (by decide +kernel : ∀ t : Fin grid1.N, cond1_0 (grid1.coords t) ↔ t.val % 8 = 0)
/-- The second exactly at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-- One staging buffer of the output window, through which its contents are stated. -/
abbrev VO1_3 : View sig .tc .vmem S1024x2048 .f32 := (Memref.whole cc1_stg3_0 : Memref sig .tc .vmem S1024x2048 .f32).view
/-- Each window's current staging memref at point t, as the pipeline passes it, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)

end Cert.KernelIdeal.Frm

end
-- ==== Proof.MatmulRunFirst.lean ====
/-
  The matrix-product body at a point with k = 0: the accumulator block is cleared, then the block product X_blk · W_blkᵀ is added; the bias branch is not taken.
-/
import proofs.«148910_j25589415149865_1_alg».proof.Proof.MatmulConds

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case k = 0. The stores the body makes into the output block, as pieces (last first), with the proof that on whole
    staging memrefs — the three inputs at their contents — the body runs to the continuation holding the inputs as
    they were and the output block with those pieces written. -/
noncomputable def kernelRun1_A (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : cond1_0 i) (hc1 : ¬cond1_1 i)
    (x0 : Vec F S1024x512 .f32) (x1 : Vec F S2048x512 .bf16) (x2 : Vec F S2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Frm

end
-- ==== Proof.MatmulRunMiddle.lean ====
/-
  The matrix-product body at a point with 0 < k < 7: the block product X_blk · W_blkᵀ is added to the running accumulator block; neither branch is taken.
-/
import proofs.«148910_j25589415149865_1_alg».proof.Proof.MatmulConds

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case 0 < k < 7. The stores the body makes into the output block, as pieces (last first), with the proof that on whole
    staging memrefs — the three inputs at their contents — the body runs to the continuation holding the inputs as
    they were and the output block with those pieces written. -/
noncomputable def kernelRun1_B (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : ¬cond1_0 i) (hc1 : ¬cond1_1 i)
    (x0 : Vec F S1024x512 .f32) (x1 : Vec F S2048x512 .bf16) (x2 : Vec F S2048 .f32) (xo3 : Vec F S1024x2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Frm

end
-- ==== Proof.MatmulRunLast.lean ====
/-
  The matrix-product body at a point with k = 7: the block product is added to the running accumulator block, then the bias row, broadcast down the rows.
-/
import proofs.«148910_j25589415149865_1_alg».proof.Proof.MatmulConds

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case k = 7. The stores the body makes into the output block, as pieces (last first), with the proof that on whole
    staging memrefs — the three inputs at their contents — the body runs to the continuation holding the inputs as
    they were and the output block with those pieces written. -/
noncomputable def kernelRun1_C (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : ¬cond1_0 i) (hc1 : cond1_1 i)
    (x0 : Vec F S1024x512 .f32) (x1 : Vec F S2048x512 .bf16) (x2 : Vec F S2048 .f32) (xo3 : Vec F S1024x2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Frm

end
-- ==== Proof.MatmulStage.lean ====
/-
  The matrix-product stage as a pipeline, at any contents V of the buffers when it is entered: each window's block at a point,
  what the accumulator block holds after every point (cleared and filled at k = 0, added to for 0 < k < 7, added to and
  biased at k = 7 — each from what the point before left), the proof data and the body's obligation at every point.
-/
import proofs.«148910_j25589415149865_1_alg».proof.Proof.MatmulRunFirst
import proofs.«148910_j25589415149865_1_alg».proof.Proof.MatmulRunMiddle
import proofs.«148910_j25589415149865_1_alg».proof.Proof.MatmulRunLast

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data whose
    array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data whose
    array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- At k = 0 the two stores (the zero block, then zero plus the block product) cover the accumulator block. -/
theorem cover1_A_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : cond1_0 i) (hc1 : ¬cond1_1 i) (x0 : Vec F S1024x512 .f32) (x1 : Vec F S2048x512 .bf16) (x2 : Vec F S2048 .f32) (y : S1024x2048.Idx) :
    ∃ pc ∈ (kernelRun1_A c i arg3 harg3 arg4 harg4 arg5 harg5 arg6 harg6 hc0 hc1 x0 x1 x2).1, y ∈ pc.1.set :=
  View.cover_of_tiledL (kernelRun1_A c i arg3 harg3 arg4 harg4 arg5 harg5 arg6 harg6 hc0 hc1 x0 x1 x2).1 S1024x2048.size (by sl_kernel_rfl) y
/-- What the point leaves in the accumulator block at k = 0. -/
def out1_A_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : cond1_0 i) (hc1 : ¬cond1_1 i) (x0 : Vec F S1024x512 .f32) (x1 : Vec F S2048x512 .bf16) (x2 : Vec F S2048 .f32) : Vec F S1024x2048 .f32 :=
  VO1_3.read (Elt F) (VO1_3.writes (Elt F) VO1_3.junk (kernelRun1_A c i arg3 harg3 arg4 harg4 arg5 harg5 arg6 harg6 hc0 hc1 x0 x1 x2).1)

/-- For 0 < k < 7 the one store covers the accumulator block. -/
theorem cover1_B_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : ¬cond1_0 i) (hc1 : ¬cond1_1 i) (x0 : Vec F S1024x512 .f32) (x1 : Vec F S2048x512 .bf16) (x2 : Vec F S2048 .f32) (xo3 : Vec F S1024x2048 .f32) (y : S1024x2048.Idx) :
    ∃ pc ∈ (kernelRun1_B c i arg3 harg3 arg4 harg4 arg5 harg5 arg6 harg6 hc0 hc1 x0 x1 x2 xo3).1, y ∈ pc.1.set :=
  View.cover_of_tiledL (kernelRun1_B c i arg3 harg3 arg4 harg4 arg5 harg5 arg6 harg6 hc0 hc1 x0 x1 x2 xo3).1 S1024x2048.size (by sl_kernel_rfl) y
/-- What the point leaves in the accumulator block for 0 < k < 7, over what the point before left. -/
def out1_B_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : ¬cond1_0 i) (hc1 : ¬cond1_1 i) (x0 : Vec F S1024x512 .f32) (x1 : Vec F S2048x512 .bf16) (x2 : Vec F S2048 .f32) (xo3 : Vec F S1024x2048 .f32) : Vec F S1024x2048 .f32 :=
  VO1_3.read (Elt F) (VO1_3.writes (Elt F) VO1_3.junk (kernelRun1_B c i arg3 harg3 arg4 harg4 arg5 harg5 arg6 harg6 hc0 hc1 x0 x1 x2 xo3).1)

/-- At k = 7 the two stores cover the accumulator block. -/
theorem cover1_C_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : ¬cond1_0 i) (hc1 : cond1_1 i) (x0 : Vec F S1024x512 .f32) (x1 : Vec F S2048x512 .bf16) (x2 : Vec F S2048 .f32) (xo3 : Vec F S1024x2048 .f32) (y : S1024x2048.Idx) :
    ∃ pc ∈ (kernelRun1_C c i arg3 harg3 arg4 harg4 arg5 harg5 arg6 harg6 hc0 hc1 x0 x1 x2 xo3).1, y ∈ pc.1.set :=
  View.cover_of_tiledL (kernelRun1_C c i arg3 harg3 arg4 harg4 arg5 harg5 arg6 harg6 hc0 hc1 x0 x1 x2 xo3).1 S1024x2048.size (by sl_kernel_rfl) y
/-- What the point leaves in the accumulator block at k = 7, over what the point before left. -/
def out1_C_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : ¬cond1_0 i) (hc1 : cond1_1 i) (x0 : Vec F S1024x512 .f32) (x1 : Vec F S2048x512 .bf16) (x2 : Vec F S2048 .f32) (xo3 : Vec F S1024x2048 .f32) : Vec F S1024x2048 .f32 :=
  VO1_3.read (Elt F) (VO1_3.writes (Elt F) VO1_3.junk (kernelRun1_C c i arg3 harg3 arg4 harg4 arg5 harg5 arg6 harg6 hc0 hc1 x0 x1 x2 xo3).1)

theorem not_c1_of_mod0 (t : Fin cfg1.N) (h0 : t.val % 8 = 0) : ¬cond1_1 (grid1.coords t) := fun h => by
  have := (hcond1_1 t).mp h; omega
theorem not_c0_of (t : Fin cfg1.N) (h0 : ¬t.val % 8 = 0) : ¬cond1_0 (grid1.coords t) := fun h => h0 ((hcond1_0 t).mp h)
theorem not_c1_of (t : Fin cfg1.N) (h1 : ¬t.val % 8 = 7) : ¬cond1_1 (grid1.coords t) := fun h => h1 ((hcond1_1 t).mp h)

/-- THE ACCUMULATION. What the accumulator block holds after the body at position n: the case the position selects, run at
    the point's memrefs and input blocks, over what this leaves at n - 1 when the case reads the block. -/
def outsAt1 (c : Dev nD) : (n : ℕ) → n < cfg1.N → Vec F S1024x2048 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩)
      ((hcond1_0 ⟨0, hn⟩).mpr (Nat.zero_mod _)) (not_c1_of_mod0 ⟨0, hn⟩ (Nat.zero_mod _)) (iblk1 V c 0 ⟨0, hn⟩) (iblk1 V c 1 ⟨0, hn⟩) (iblk1 V c 2 ⟨0, hn⟩)
  | n + 1, hn =>
    if h0 : (n + 1) % 8 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        ((hcond1_0 ⟨n + 1, hn⟩).mpr h0) (not_c1_of_mod0 ⟨n + 1, hn⟩ h0) (iblk1 V c 0 ⟨n + 1, hn⟩) (iblk1 V c 1 ⟨n + 1, hn⟩) (iblk1 V c 2 ⟨n + 1, hn⟩)
    else if h1 : (n + 1) % 8 = 7 then
      out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        (not_c0_of ⟨n + 1, hn⟩ h0) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn))
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        (not_c0_of ⟨n + 1, hn⟩ h0) (not_c1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn))

/-- At a point with k = 0: that case's contents. -/
theorem outsAt1_A (c : Dev nD) (t : Fin cfg1.N) (h0 : t.val % 8 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (not_c1_of_mod0 t h0) (iblk1 V c 0 t) (iblk1 V c 1 t) (iblk1 V c 2 t) := by
  obtain ⟨n, hn⟩ := t
  cases n with
  | zero => exact rfl
  | succ n => exact (dif_pos h0).trans rfl

/-- At a point with k = 7: that case's contents, over what the point before left. -/
theorem outsAt1_C (c : Dev nD) (t : Fin cfg1.N) (h0 : ¬t.val % 8 = 0) (h1 : t.val % 8 = 7) :
    outsAt1 V c t.val t.isLt = out1_C_3 c (grid1.coords t) (ms1_0 t) (hs1_0 t) (ms1_1 t) (hs1_1 t) (ms1_2 t) (hs1_2 t) (ms1_3 t) (hs1_3 t) (not_c0_of t h0) ((hcond1_1 t).mpr h1) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- At a point with 0 < k < 7: that case's contents, over what the point before left. -/
theorem outsAt1_B (c : Dev nD) (t : Fin cfg1.N) (h0 : ¬t.val % 8 = 0) (h1 : ¬t.val % 8 = 7) :
    outsAt1 V c t.val t.isLt = out1_B_3 c (grid1.coords t) (ms1_0 t) (hs1_0 t) (ms1_1 t) (hs1_1 t) (ms1_2 t) (hs1_2 t) (ms1_3 t) (hs1_3 t) (not_c0_of t h0) (not_c1_of t h1) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The proof data of the stage on core c: the arrays as the stage finds them; after the body at point t each input's
    buffer at its block and the accumulator's at outsAt1; the invariant the scoped rest and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point with k > 0 the accumulator's staging buffer holds what the body left at the point before: the block index
    has not moved and the buffer was not written back between (it is written back after k = 7 only). -/
theorem before1_3_kept (c : Dev nD) (t : Fin cfg1.N) (h0 : ¬t.val % 8 = 0) (d) :
    (dat1 V c).before 3 t d = outsAt1 V c (t.val - 1) (Nat.lt_of_le_of_lt (Nat.sub_le _ _) t.isLt) := by
  have hN : t.val < 128 := lt_of_lt_of_eq t.isLt (show cfg1.N = 128 from N_1)
  rw [Dat.before_out_kept _ 3 rfl t (by omega) (Bool.eq_false_iff.mpr fun h => by have := (flush1_3 _).mp h; dsimp only at this; omega)
    (fun _ => rfl) (fun _ _ => rfl)]
  dsimp only [dat1]

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
/-- The body at any point: the inputs' memrefs hold their blocks; the position says which case the point is in; for k > 0
    the accumulator holds what the point before left; so that case's run applies; the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 8 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (not_c1_of_mod0 t h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _)
  · by_cases h1 : t.val % 8 = 7
    · rw [outsAt1_C V c t h0 h1]
      simp only [before1_3_kept V c t h0]
      unfold out1_C_3
      iintro ⟨HΦ, Ho, ⟨%d0, H0⟩, ⟨%d1, H1⟩, ⟨%d2, H2⟩, ⟨%d3, H3⟩⟩
      iapply ((kernelRun1_C c (grid1.coords t) _ _ _ _ _ _ _ _ (not_c0_of t h0) ((hcond1_1 t).mpr h1) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _)
    · rw [outsAt1_B V c t h0 h1]
      simp only [before1_3_kept V c t h0]
      unfold out1_B_3
      iintro ⟨HΦ, Ho, ⟨%d0, H0⟩, ⟨%d1, H1⟩, ⟨%d2, H2⟩, ⟨%d3, H3⟩⟩
      iapply ((kernelRun1_B c (grid1.coords t) _ _ _ _ _ _ _ _ (not_c0_of t h0) (not_c1_of t h1) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 c _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Frm

end
-- ==== Proof.TwoStageRun.lean ====
/-
  The whole program as a run: eight layout/conversion operations on the host, then the weight-reconstruction stage, then the
  matrix-product stage. The buffers' contents are followed from the launch through the three items (W0 at launch, W1 after the
  host operations, W2 with the first stage's arrays at what its write-backs leave, W3 likewise after the second stage), each
  stage enters the pipeline library's region rule from "every unscoped buffer held at the boundary's contents", and every
  weakly fair execution ends with every unscoped buffer at W3.
-/
import proofs.«148910_j25589415149865_1_alg».proof.Proof.WeightStage
import proofs.«148910_j25589415149865_1_alg».proof.Proof.MatmulStage
import proofs.«148910_j25589415149865_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, and after the host operations. -/
abbrev W0 : Dev nD → Valuation τ sig (Elt F) := fun c b => m (c, b)
abbrev W1 : Dev nD → Valuation τ sig (Elt F) := fun c => StableHlo.after hostOps0 (W0 m c)
/-- The same read at the core's references: what the first stage's proof data take. -/
abbrev E1 : (c : Dev nD) → (b : Ref sig .tc) → Buf (Elt F) ((c : Thread nD τ).loc b) := fun c b => W1 m c b

/-- At the first stage's exit: its arrays at what the pipeline leaves, every other buffer as entered. -/
def W2 (c : Dev nD) : Valuation τ sig (Elt F) :=
  Pipeline.withArrays spec0 c (W1 m c) fun w => (dat0 (E1 m) c).arrAt w (cfgM (E1 m)).N
theorem W2_arr (c : Dev nD) (w : Fin (cfgM (E1 m)).W) :
    W2 m c (Proc.devRef .tc (Pipeline.arrRef spec0 w)) = (dat0 (E1 m) c).arrAt w (cfgM (E1 m)).N := by
  unfold W2; exact Pipeline.withArrays_arr spec0 winFacts0.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin (cfgM (E1 m)).W) : (dat0 (E1 m) c).arrAt w (cfgM (E1 m)).N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the second stage's exit. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 winFacts1.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- The tables' admissible contents: the first stage's mask table as its entry contents have it; the second has none. -/
abbrev adm : (p : Fin 2) → (pcfgs (F := F) p).Adm
  | ⟨0, _⟩ => adm0 (E1 m)
  | ⟨1, _⟩ => cfg1.toPCfg_adm
/-- Every pipeline's proof data, each at its stage's entry contents. -/
def pdats : (p : Fin 2) → (c : Dev nD) → Dat τ (Elt F) Unit ℕ (UR sig nD τ) ℕ (Pipeline.pin (pcfgs (F := F)) (adm m) p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
/-- THE FIRST STAGE over the thread state: entered from every unscoped buffer at W1, left at W2. Its arrays and its mask
    table are split out of the unscoped buffers; the table enters the invariant whole and comes back with the generator
    register; the arrays are put back at the exit contents. -/
def reg0 : Pipeline.RegionSeg (pcfgs (F := F)) (adm m) (pdats m) () defs₀ 𝒱₀ L lv 0 where
  win := winFacts0.to₀
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl0 (E1 m)))
  Z c := Pipeline.unscopedRestP (Ix := Unit) (Name := ℕ) (U := UR sig nD τ) (Lvl := ℕ) pre0 spec0 c (E1 m c)
  hentry c := by
    rw [Pipeline.ownSems0_none]
    have hsplit := Pipeline.arrays_of_unscopedBufs (p := 0) (pcfgs (F := F)) (adm m) (pdats m) winFacts0 arr_whole0 c
      ((pdats m 0 c).share_full fun _ => rfl) (E1 m c) fun _ => rfl
    have hs : (Pipeline.unscopedRest (Ix := Unit) (Name := ℕ) (U := UR sig nD τ) (Lvl := ℕ) (Pipeline.pin (pcfgs (F := F)) (adm m) 0).spec c (E1 m c) : sProp 𝕄)
        = iprop(Pipeline.prefHeld (Ix := Unit) (Name := ℕ) (U := UR sig nD τ) (Lvl := ℕ) pre0 c (fun _ => fullShare) (tbl0 (E1 m)) ∗ Pipeline.unscopedRestP (Ix := Unit) (Name := ℕ) (U := UR sig nD τ) (Lvl := ℕ) pre0 spec0 c (E1 m c)) := by
      rw [← show (fun k => E1 m c (pre0.ref k)) = tbl0 (E1 m) from funext (V_pre0 (E1 m) c)]
      exact Pipeline.unscopedRest_split preFacts0 c (E1 m c)
    rw [Pipeline.unscopedBufs_held, hs] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.ΦA spec0 c ∗ Pipeline.prefHeld (Ix := Unit) (Name := ℕ) (U := UR sig nD τ) (Lvl := ℕ) pre0 c (fun _ => fullShare) (tbl0 (E1 m))) from rfl]
    unfold Pipeline.ΦA
    iintro ⟨Hp, Ht, Hr⟩
    isplitr [Ht]
    · isplitl [Hr]; · iexact Hr
      iexact Hp
    iexact Ht
  hout c := by
    rw [Pipeline.ownSems0_none, show (pdats m 0 c).Φ (Fin.last _) = iprop(Pipeline.ΦA spec0 c ∗ Pipeline.prefHeld (Ix := Unit) (Name := ℕ) (U := UR sig nD τ) (Lvl := ℕ) pre0 c (fun _ => fullShare) (tbl0 (E1 m))) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m) (Ix := Unit) (Name := ℕ) (U := UR sig nD τ) (Lvl := ℕ)
      winFacts0 arr_whole0 c (pdats m) ((pdats m 0 c).share_full fun _ => rfl)
      (E1 m c) (E2 m c) ((pdats m 0 c).arrAt · (cfgM (E1 m)).N) (hF0 m c) (hrest0 m c)
    have hs : (Pipeline.unscopedRest (Ix := Unit) (Name := ℕ) (U := UR sig nD τ) (Lvl := ℕ) (Pipeline.pin (pcfgs (F := F)) (adm m) 0).spec c (E1 m c) : sProp 𝕄)
        = iprop(Pipeline.prefHeld (Ix := Unit) (Name := ℕ) (U := UR sig nD τ) (Lvl := ℕ) pre0 c (fun _ => fullShare) (tbl0 (E1 m)) ∗ Pipeline.unscopedRestP (Ix := Unit) (Name := ℕ) (U := UR sig nD τ) (Lvl := ℕ) pre0 spec0 c (E1 m c)) := by
      rw [← show (fun k => E1 m c (pre0.ref k)) = tbl0 (E1 m) from funext (V_pre0 (E1 m) c)]
      exact Pipeline.unscopedRest_split preFacts0 c (E1 m c)
    rw [Pipeline.unscopedBufs_held, hs] at hjoin
    iintro ⟨Ha, HO, ⟨HY, Ht⟩, Hrest⟩
    imodintro
    isplitl [Ha Hrest Ht]
    · iapply hjoin; isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

set_option backward.isDefEq.respectTransparency.types false in
/-- THE SECOND STAGE over the thread state: entered from every unscoped buffer at W2, left at W3. -/
def reg1 : Pipeline.RegionSeg (pcfgs (F := F)) (adm m) (pdats m) () defs₀ 𝒱₀ L lv 1 where
  win := winFacts1.to₀
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) (adm m) (pdats m) winFacts1 arr_whole1 c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := UR sig nD τ) (Lvl := ℕ)
      winFacts1 arr_whole1 c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three items in order. -/
abbrev segs : List (Pipeline.Seg (pcfgs (F := F)) (adm m) (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing faulting,
    and every final state has every unscoped buffer of every core at W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) (adm m) (pdats m) () (cellOf_inj (adm m)) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Frm

end
-- ==== Proof.FrameOf.lean ====
/-
  The argument arrays end as launched: no host operation writes one, and a stage either reads it through an input window
  (whose array the pipeline leaves as it found it) or does not touch it; so the contents at the end, followed back through
  the three items, are the launch contents.
-/
import proofs.«148910_j25589415149865_1_alg».proof.Proof.TwoStageRun

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (E2 m) c).arrAt_in 0 rfl _).trans (A_eq1 (E2 m) c 0))
    _ = W1 m c (Proc.devRef .tc main_arg0) := W2_of_ne m c main_arg0 (by decide)
    _ = W0 m c (Proc.devRef .tc main_arg0) := V1_of m c main_arg0 (by decide)
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := V1_of m c main_arg1 (by decide)
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := V1_of m c main_arg2 (by decide)
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := V1_of m c main_arg3 (by decide)
    _ = m ((c : Thread nD τ).loc main_arg3) := rfl

theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := V1_of m c main_arg4 (by decide)
    _ = m ((c : Thread nD τ).loc main_arg4) := rfl

theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := V1_of m c main_arg5 (by decide)
    _ = m ((c : Thread nD τ).loc main_arg5) := rfl

theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := (W2_arr m c 5).trans (((dat0 (E1 m) c).arrAt_in 5 rfl _).trans (A_eq0 (E1 m) c 5))
    _ = W0 m c (Proc.devRef .tc main_arg6) := V1_of m c main_arg6 (by decide)
    _ = m ((c : Thread nD τ).loc main_arg6) := rfl

theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := (W2_arr m c 6).trans (((dat0 (E1 m) c).arrAt_in 6 rfl _).trans (A_eq0 (E1 m) c 6))
    _ = W0 m c (Proc.devRef .tc main_arg7) := V1_of m c main_arg7 (by decide)
    _ = m ((c : Thread nD τ).loc main_arg7) := rfl

theorem W3_main_arg8 (c : Dev nD) : W3 m c (Proc.devRef .tc main_arg8) = m ((c : Thread nD τ).loc main_arg8) :=
  calc W3 m c (Proc.devRef .tc main_arg8)
    _ = W2 m c (Proc.devRef .tc main_arg8) := (W3_arr m c 2).trans (((dat1 (E2 m) c).arrAt_in 2 rfl _).trans (A_eq1 (E2 m) c 2))
    _ = W1 m c (Proc.devRef .tc main_arg8) := W2_of_ne m c main_arg8 (by decide)
    _ = W0 m c (Proc.devRef .tc main_arg8) := V1_of m c main_arg8 (by decide)
    _ = m ((c : Thread nD τ).loc main_arg8) := rfl

theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := V1_of m c main_arg9 (by decide)
    _ = m ((c : Thread nD τ).loc main_arg9) := rfl

/-- The frame: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c)⟩) (run_all m ρ)

/-- The same run, with the result array named: it ends at what the second stage's write-backs leave. -/
theorem run_result : θ_run defs (onTc (τ := τ) (main (F := F))) ⟨m, fun _ => 0, ρ⟩ (fun r => ∀ c : Dev nD,
      r.2.mem ((c.tc : Thread nD τ).loc main_v9) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v9 (by decide))).trans (W3_arr m c 3),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c)⟩) (run_all m ρ)

end Cert.KernelIdeal.Frm

end
-- ==== Proof.PayloadsAt.lean ====
/-
  The kernel's stored values, read at an index.

  Each lemma reads one stored value of the kernel at an index written in coordinates, over the extended reals: the
  zero the accumulator starts from, one step of the accumulation (the accumulator plus the contraction of a row of the
  left operand with a row of the right one), the final addition of the bias row, and the weight tile of one loop trip.
-/
import proofs.«148910_j25589415149865_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayAt

open Cert.KernelIdeal Cert.KernelIdeal.Gen Idealize.ShloMosaic Idealize.ShloMosaic.ValueIdx

/-! ## The matmul accumulator -/

/-- The accumulator's initial value is zero everywhere. -/
theorem zero_pay (a : Fin 1024) (b : Fin 2048) : k1_pay1 (F := Ideal) (ix2 a b) = 0 := by
  unfold k1_pay1
  exact Ideal.ofBits_zero_f32

section DotT

/-- The left operand's index of the row-by-row contraction: its row is the result's row. -/
theorem lhsT_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
/-- Its column is the contraction index. -/
theorem lhsT_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
/-- The right operand's index: its row is the result's column. -/
theorem rhsT_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
/-- Its column is the contraction index. -/
theorem rhsT_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The contraction of the rows of two matrices (the right operand is given transposed), into a zero accumulator,
    at (a, b): the sum over k of l(a,k) * r(b,k). -/
theorem matT_at (l : FVec Ideal S1024x512 .bf16) (r : FVec Ideal S2048x512 .bf16) (a : Fin 1024) (b : Fin 2048) :
    matmul (F := Ideal) dot_S1024x512_S2048x512_S1024x2048_1_1_0_0_n_n none l r (constant (F := Ideal) S1024x2048 .f32 0x00000000#32) (ix2 a b)
      = ∑ k : Fin 512, l (ix2 a k) * r (ix2 b k) := by
  simp only [matmul]
  rw [Ideal.matmul_constant_zero_apply, ← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 a b) ((contrEquiv1 dot_S1024x512_S2048x512_S1024x2048_1_1_0_0_n_n 512 rfl rfl).symm k) = ix2 a k :=
    funext fun c => Fin.ext (by
      match c with
      | ⟨0, _⟩ => exact lhsT_0 _ _
      | ⟨1, _⟩ => exact (lhsT_1 _ _).trans hk)
  have er : dot_S1024x512_S2048x512_S1024x2048_1_1_0_0_n_n.rhsIdx (ix2 a b) ((contrEquiv1 dot_S1024x512_S2048x512_S1024x2048_1_1_0_0_n_n 512 rfl rfl).symm k) = ix2 b k :=
    funext fun c => Fin.ext (by
      match c with
      | ⟨0, _⟩ => exact rhsT_0 _ _
      | ⟨1, _⟩ => exact (rhsT_1 _ _).trans hk)
  rw [el, er]

end DotT

/-- One accumulation step at (a, b): the accumulator plus the sum over k of X(a,k) * W(b,k). -/
theorem acc_pay (v3 : Vec Ideal S1024x512 .f32) (v5 : Vec Ideal S2048x512 .bf16) (v8 : Vec Ideal S1024x2048 .f32) (a : Fin 1024) (b : Fin 2048) :
    k1_pay2 (F := Ideal) v3 v5 v8 (ix2 a b) = v8 (ix2 a b) + ∑ k : Fin 512, v3 (ix2 a k) * v5 (ix2 b k) := by
  unfold k1_pay2
  rw [addf_apply, shapeCast_self, shapeCast_self, matT_at]
  rfl

/-- The final step at (a, b): the accumulator plus the bias at b. -/
theorem bias_pay (v15 : Vec Ideal S1024x2048 .f32) (v17 : Vec Ideal S2048 .f32) (a : Fin 1024) (b : Fin 2048) :
    k1_pay3 (F := Ideal) v15 v17 (ix2 a b) = v15 (ix2 a b) + v17 (ix1 b) := by
  unfold k1_pay3
  rw [addf_apply, shapeCast_self, broadcastTo_1b_ab_apply, shapeCast_a_1a_apply]

/-! ## Layout operations of the weight tile, read at coordinates -/

section Layout

variable {α : Type}

/-- A `[1, 1, a, b, c]` array cast to `[a, b, c]` reads, at `(i, j, k)`, the operand at `(0, 0, i, j, k)`. -/
theorem cast_11abc_abc {a b c : ℕ} (x : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ x h (ix3 i j k) = x (ix5 (0 : Fin 1) (0 : Fin 1) i j k) :=
  shapeCast_apply x h _ _ (by
    rw [Shape.rowMajor_val_five, Shape.rowMajor_val_three]
    show ((((0 * 1 + 0) * a + i.val) * b + j.val) * c + k.val) = (i.val * b + j.val) * c + k.val
    simp only [Nat.zero_mul, Nat.zero_add])

/-- A `[1, 1, 1, 1]` array cast to `[1, 1]` reads its one element. -/
theorem cast_1111_11 (x : (⟨4, ![1, 1, 1, 1]⟩ : Shape).Idx → α)
    (h : (⟨4, ![1, 1, 1, 1]⟩ : Shape).ShapeCasts ⟨2, ![1, 1]⟩) (u v : Fin 1) :
    shapeCast ⟨2, ![1, 1]⟩ x h (ix2 u v) = x (ix4 (0 : Fin 1) (0 : Fin 1) (0 : Fin 1) (0 : Fin 1)) :=
  shapeCast_apply x h _ _ (by
    have hu : u.val = 0 := by omega
    have hv : v.val = 0 := by omega
    rw [Shape.rowMajor_val_four, Shape.rowMajor_val_two]
    show (((0 * 1 + 0) * 1 + 0) * 1 + 0) = u.val * 1 + v.val
    rw [hu, hv])

/-- An `[a, b]` array cast to `[a, b, 1]` reads, at `(i, j, u)`, the operand at `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, 1]` array broadcast to `[a, m, n]` reads, at `(w, x, y)`, the operand at `(w, 0, 0)`. -/
theorem bc_a11_amn {a m n : ℕ} (v : (⟨3, ![a, 1, 1]⟩ : Shape).Idx → α)
    (h : (⟨3, ![a, 1, 1]⟩ : Shape).Broadcasts ⟨3, ![a, m, n]⟩) (w : Fin a) (x : Fin m) (y : Fin n) :
    broadcastTo ⟨3, ![a, m, n]⟩ v h (ix3 w x y) = v (ix3 w (0 : Fin 1) (0 : Fin 1)) := by
  refine broadcastTo_apply v h (ix3 w x y) (ix3 w (0 : Fin 1) (0 : Fin 1)) fun ax => ?_
  match ax with
  | ⟨0, _⟩ =>
    show w.val = if a = 1 then 0 else w.val
    split
    · have := w.isLt; omega
    · rfl
  | ⟨1, _⟩ => rfl
  | ⟨2, _⟩ => rfl

/-- An `[a, b, 1]` array broadcast to `[a, b, n]` reads, at `(w, x, y)`, the operand at `(w, x, 0)`. -/
theorem bc_ab1_abn {a b n : ℕ} (v : (⟨3, ![a, b, 1]⟩ : Shape).Idx → α)
    (h : (⟨3, ![a, b, 1]⟩ : Shape).Broadcasts ⟨3, ![a, b, n]⟩) (w : Fin a) (x : Fin b) (y : Fin n) :
    broadcastTo ⟨3, ![a, b, n]⟩ v h (ix3 w x y) = v (ix3 w x (0 : Fin 1)) := by
  refine broadcastTo_apply v h (ix3 w x y) (ix3 w x (0 : Fin 1)) fun ax => ?_
  match ax with
  | ⟨0, _⟩ =>
    show w.val = if a = 1 then 0 else w.val
    split
    · have := w.isLt; omega
    · rfl
  | ⟨1, _⟩ =>
    show x.val = if b = 1 then 0 else x.val
    split
    · have := x.isLt; omega
    · rfl
  | ⟨2, _⟩ => rfl

/-- An `[a, 1, b]` array broadcast to `[a, m, b]` reads, at `(w, x, y)`, the operand at `(w, 0, y)`. -/
theorem bc_a1b_amb {a m b : ℕ} (v : (⟨3, ![a, 1, b]⟩ : Shape).Idx → α)
    (h : (⟨3, ![a, 1, b]⟩ : Shape).Broadcasts ⟨3, ![a, m, b]⟩) (w : Fin a) (x : Fin m) (y : Fin b) :
    broadcastTo ⟨3, ![a, m, b]⟩ v h (ix3 w x y) = v (ix3 w (0 : Fin 1) y) := by
  refine broadcastTo_apply v h (ix3 w x y) (ix3 w (0 : Fin 1) y) fun ax => ?_
  match ax with
  | ⟨0, _⟩ =>
    show w.val = if a = 1 then 0 else w.val
    split
    · have := w.isLt; omega
    · rfl
  | ⟨1, _⟩ => rfl
  | ⟨2, _⟩ =>
    show y.val = if b = 1 then 0 else y.val
    split
    · have := y.isLt; omega
    · rfl

/-- A `[1, 1]` array broadcast to `[m, n]` reads its one element everywhere. -/
theorem bc_11_mn {m n : ℕ} (v : (⟨2, ![1, 1]⟩ : Shape).Idx → α)
    (h : (⟨2, ![1, 1]⟩ : Shape).Broadcasts ⟨2, ![m, n]⟩) (x : Fin m) (y : Fin n) :
    broadcastTo ⟨2, ![m, n]⟩ v h (ix2 x y) = v (ix2 (0 : Fin 1) (0 : Fin 1)) := by
  refine broadcastTo_apply v h (ix2 x y) (ix2 (0 : Fin 1) (0 : Fin 1)) fun ax => ?_
  match ax with
  | ⟨0, _⟩ => rfl
  | ⟨1, _⟩ => rfl

end Layout

/-! ## The three sums along one axis -/

section Sums

/-- The sum of a `[4, 128, 16]` array along its last axis, at `(w, r)`. -/
theorem sum_last_at (src : FVec Ideal S4x128x16 .f32) (h : S4x128x16.Reduces [2] S4x128) (hφ : FKind.Formats .f32)
    (hacc : (0x00000000#32 : BitVec 32) = 0x00000000#32) (w : Fin 4) (r : Fin 128) :
    multiReduction (F := Ideal) .add [2] S4x128 src 0x00000000#32 h hφ hacc (ix2 w r) = ∑ k : Fin 16, src (ix3 w r k) := by
  refine (Ideal.multiReduction_add_single src 0x00000000#32 h hφ hacc (ix2 w r)).trans ?_
  show ∑ k : Fin 16, src (h.lift (ix2 w r) k) = _
  refine Finset.sum_congr rfl fun k _ => congrArg src (funext fun c => Fin.ext ?_)
  match c with
  | ⟨0, _⟩ => rfl
  | ⟨1, _⟩ => rfl
  | ⟨2, _⟩ => rfl

/-- The sum of a `[4, 16, 128]` array along its middle axis, at `(w, q)`. -/
theorem sum_mid_at (src : FVec Ideal S4x16x128 .f32) (h : S4x16x128.Reduces [1] S4x128) (hφ : FKind.Formats .f32)
    (hacc : (0x00000000#32 : BitVec 32) = 0x00000000#32) (w : Fin 4) (q : Fin 128) :
    multiReduction (F := Ideal) .add [1] S4x128 src 0x00000000#32 h hφ hacc (ix2 w q) = ∑ k : Fin 16, src (ix3 w k q) := by
  refine (Ideal.multiReduction_add_single src 0x00000000#32 h hφ hacc (ix2 w q)).trans ?_
  show ∑ k : Fin 16, src (h.lift (ix2 w q) k) = _
  refine Finset.sum_congr rfl fun k _ => congrArg src (funext fun c => Fin.ext ?_)
  match c with
  | ⟨0, _⟩ => rfl
  | ⟨1, _⟩ => rfl
  | ⟨2, _⟩ => rfl

/-- The sum of a `[4, 128, 128]` array along its first axis, at `(r, q)`. -/
theorem sum_first_at (src : FVec Ideal S4x128x128 .f32) (h : S4x128x128.Reduces [0] S128x128) (hφ : FKind.Formats .f32)
    (hacc : (0x00000000#32 : BitVec 32) = 0x00000000#32) (r q : Fin 128) :
    multiReduction (F := Ideal) .add [0] S128x128 src 0x00000000#32 h hφ hacc (ix2 r q) = ∑ w : Fin 4, src (ix3 w r q) := by
  refine (Ideal.multiReduction_add_single src 0x00000000#32 h hφ hacc (ix2 r q)).trans ?_
  show ∑ w : Fin 4, src (h.lift (ix2 r q) w) = _
  refine Finset.sum_congr rfl fun w _ => congrArg src (funext fun c => Fin.ext ?_)
  match c with
  | ⟨0, _⟩ => rfl
  | ⟨1, _⟩ => rfl
  | ⟨2, _⟩ => rfl

end Sums

/-! ## The batched product of the factor matrices -/

section DotB

theorem lhsB_0 (i : S4x128x128.Idx) (q : dot_S4x128x16_S4x16x128_S4x128x128_2_1_1_2_0_0.contr.Idx) :
    (dot_S4x128x16_S4x16x128_S4x128x128_2_1_1_2_0_0.lhsIdx i q 0).val = (i 0).val := by
  unfold DotDims.lhsIdx
  rw [dif_pos (show (0 : Fin S4x128x16.rank) ∈ dot_S4x128x16_S4x16x128_S4x128x128_2_1_1_2_0_0.lhsBatch by decide)]
  rfl
theorem lhsB_1 (i : S4x128x128.Idx) (q : dot_S4x128x16_S4x16x128_S4x128x128_2_1_1_2_0_0.contr.Idx) :
    (dot_S4x128x16_S4x16x128_S4x128x128_2_1_1_2_0_0.lhsIdx i q 1).val = (i 1).val := by
  unfold DotDims.lhsIdx
  rw [dif_neg (show ¬(1 : Fin S4x128x16.rank) ∈ dot_S4x128x16_S4x16x128_S4x128x128_2_1_1_2_0_0.lhsBatch by decide), dif_pos (show (1 : Fin S4x128x16.rank) ∈ dot_S4x128x16_S4x16x128_S4x128x128_2_1_1_2_0_0.lhsNonContracting by decide)]
  rfl
theorem lhsB_2 (i : S4x128x128.Idx) (q : dot_S4x128x16_S4x16x128_S4x128x128_2_1_1_2_0_0.contr.Idx) :
    (dot_S4x128x16_S4x16x128_S4x128x128_2_1_1_2_0_0.lhsIdx i q 2).val = (q ⟨0, by decide⟩).val :=
  dot_S4x128x16_S4x16x128_S4x128x128_2_1_1_2_0_0.lhsIdx_val_of_single rfl i q
theorem rhsB_0 (i : S4x128x128.Idx) (q : dot_S4x128x16_S4x16x128_S4x128x128_2_1_1_2_0_0.contr.Idx) :
    (dot_S4x128x16_S4x16x128_S4x128x128_2_1_1_2_0_0.rhsIdx i q 0).val = (i 0).val := by
  unfold DotDims.rhsIdx
  rw [dif_pos (show (0 : Fin S4x16x128.rank) ∈ dot_S4x128x16_S4x16x128_S4x128x128_2_1_1_2_0_0.rhsBatch by decide)]
  rfl
theorem rhsB_1 (i : S4x128x128.Idx) (q : dot_S4x128x16_S4x16x128_S4x128x128_2_1_1_2_0_0.contr.Idx) :
    (dot_S4x128x16_S4x16x128_S4x128x128_2_1_1_2_0_0.rhsIdx i q 1).val = (q ⟨0, by decide⟩).val :=
  dot_S4x128x16_S4x16x128_S4x128x128_2_1_1_2_0_0.rhsIdx_val_of_single rfl i q
theorem rhsB_2 (i : S4x128x128.Idx) (q : dot_S4x128x16_S4x16x128_S4x128x128_2_1_1_2_0_0.contr.Idx) :
    (dot_S4x128x16_S4x16x128_S4x128x128_2_1_1_2_0_0.rhsIdx i q 2).val = (i 2).val := by
  unfold DotDims.rhsIdx
  rw [dif_neg (show ¬(2 : Fin S4x16x128.rank) ∈ dot_S4x128x16_S4x16x128_S4x128x128_2_1_1_2_0_0.rhsBatch by decide), dif_pos (show (2 : Fin S4x16x128.rank) ∈ dot_S4x128x16_S4x16x128_S4x128x128_2_1_1_2_0_0.rhsNonContracting by decide)]
  rfl

/-- The batched product into a zero accumulator, at (w, r, q): the sum over k of l(w,r,k) * r(w,k,q). -/
theorem matB_at (l : FVec Ideal S4x128x16 .bf16) (r' : FVec Ideal S4x16x128 .bf16) (w : Fin 4) (r q : Fin 128) :
    matmul (F := Ideal) dot_S4x128x16_S4x16x128_S4x128x128_2_1_1_2_0_0 none l r' (constant (F := Ideal) S4x128x128 .f32 0x00000000#32) (ix3 w r q)
      = ∑ k : Fin 16, l (ix3 w r k) * r' (ix3 w k q) := by
  simp only [matmul]
  rw [Ideal.matmul_constant_zero_apply, ← Equiv.sum_comp (contrEquiv1 dot_S4x128x16_S4x16x128_S4x128x128_2_1_1_2_0_0 16 rfl rfl).symm]
  refine Finset.sum_congr rfl fun k _ => ?_
  have hk := contrEquiv1_symm_val dot_S4x128x16_S4x16x128_S4x128x128_2_1_1_2_0_0 16 rfl rfl k
  have el : dot_S4x128x16_S4x16x128_S4x128x128_2_1_1_2_0_0.lhsIdx (ix3 w r q) ((contrEquiv1 dot_S4x128x16_S4x16x128_S4x128x128_2_1_1_2_0_0 16 rfl rfl).symm k) = ix3 w r k :=
    funext fun c => Fin.ext (by
      match c with
      | ⟨0, _⟩ => exact lhsB_0 _ _
      | ⟨1, _⟩ => exact lhsB_1 _ _
      | ⟨2, _⟩ => exact (lhsB_2 _ _).trans hk)
  have er : dot_S4x128x16_S4x16x128_S4x128x128_2_1_1_2_0_0.rhsIdx (ix3 w r q) ((contrEquiv1 dot_S4x128x16_S4x16x128_S4x128x128_2_1_1_2_0_0 16 rfl rfl).symm k) = ix3 w k q :=
    funext fun c => Fin.ext (by
      match c with
      | ⟨0, _⟩ => exact rhsB_0 _ _
      | ⟨1, _⟩ => exact (rhsB_1 _ _).trans hk
      | ⟨2, _⟩ => exact rhsB_2 _ _)
  rw [el, er]

end DotB

/-! ## The weight tile of one loop trip -/

section Tile

variable (v6 : Vec Ideal S1x1x4x128x16 .bf16) (v9 : Vec Ideal S1x1x4x16x128 .bf16)

/-- The y block without its two leading unit axes. -/
theorem pay2_at (w : Fin 4) (r : Fin 128) (k : Fin 16) :
    k0_pay2 (F := Ideal) v6 (ix3 w r k) = v6 (ix5 (0 : Fin 1) (0 : Fin 1) w r k) := by
  unfold k0_pay2
  exact cast_11abc_abc v6 _ w r k

/-- The z block without its two leading unit axes. -/
theorem pay3_at (w : Fin 4) (k : Fin 16) (q : Fin 128) :
    k0_pay3 (F := Ideal) v9 (ix3 w k q) = v9 (ix5 (0 : Fin 1) (0 : Fin 1) w k q) := by
  unfold k0_pay3
  exact cast_11abc_abc v9 _ w k q

/-- A scalar block without its two leading unit axes. -/
theorem pay4_at (v12 : Vec Ideal S1x1x4x1x1 .f32) (w : Fin 4) :
    k0_pay4 (F := Ideal) v12 (ix3 w (0 : Fin 1) (0 : Fin 1)) = v12 (ix5 (0 : Fin 1) (0 : Fin 1) w (0 : Fin 1) (0 : Fin 1)) := by
  unfold k0_pay4
  exact cast_11abc_abc v12 _ w 0 0

theorem pay5_at (v15 : Vec Ideal S1x1x4x1x1 .f32) (w : Fin 4) :
    k0_pay5 (F := Ideal) v15 (ix3 w (0 : Fin 1) (0 : Fin 1)) = v15 (ix5 (0 : Fin 1) (0 : Fin 1) w (0 : Fin 1) (0 : Fin 1)) := by
  unfold k0_pay5
  exact cast_11abc_abc v15 _ w 0 0

theorem pay6_at (v18 : Vec Ideal S1x1x4x1x1 .f32) (w : Fin 4) :
    k0_pay6 (F := Ideal) v18 (ix3 w (0 : Fin 1) (0 : Fin 1)) = v18 (ix5 (0 : Fin 1) (0 : Fin 1) w (0 : Fin 1) (0 : Fin 1)) := by
  unfold k0_pay6
  exact cast_11abc_abc v18 _ w 0 0

/-- The tile's additive constant. -/
theorem pay7_at (v21 : Vec Ideal S1x1x1x1 .f32) :
    k0_pay7 (F := Ideal) v21 (ix2 (0 : Fin 1) (0 : Fin 1)) = v21 (ix4 (0 : Fin 1) (0 : Fin 1) (0 : Fin 1) (0 : Fin 1)) := by
  unfold k0_pay7
  exact cast_1111_11 v21 _ 0 0

/-- The product y z of factor w at (r, q). -/
theorem pay8_at (w : Fin 4) (r q : Fin 128) :
    k0_pay8 (F := Ideal) v6 v9 (ix3 w r q)
      = ∑ k : Fin 16, v6 (ix5 (0 : Fin 1) (0 : Fin 1) w r k) * v9 (ix5 (0 : Fin 1) (0 : Fin 1) w k q) := by
  unfold k0_pay8
  refine (matB_at _ _ w r q).trans ?_
  refine Finset.sum_congr rfl fun k _ => ?_
  rw [pay2_at, pay3_at]

/-- The row sums of y of factor w at r. -/
theorem pay9_at (w : Fin 4) (r : Fin 128) :
    k0_pay9 (F := Ideal) v6 (ix3 w r (0 : Fin 1)) = ∑ k : Fin 16, v6 (ix5 (0 : Fin 1) (0 : Fin 1) w r k) := by
  unfold k0_pay9
  refine (cast_ab_ab1 _ _ w r 0).trans ?_
  refine (sum_last_at _ _ _ _ w r).trans ?_
  refine Finset.sum_congr rfl fun k _ => ?_
  exact pay2_at v6 w r k

/-- The z block as numbers. -/
theorem pay10_at (w : Fin 4) (k : Fin 16) (q : Fin 128) :
    k0_pay10 (F := Ideal) v9 (ix3 w k q) = v9 (ix5 (0 : Fin 1) (0 : Fin 1) w k q) := by
  unfold k0_pay10
  exact pay3_at v9 w k q

/-- The stored tile over any operands, at (r, q): the old contents where the guard word is zero, and otherwise the sum
    over the four factors of a * (y z) + b * (row sum of y) + c * (column sum of z), plus d. -/
theorem pay1_at (v13 v16 v19 : FVec Ideal S4x1x1 .f32) (v22 : FVec Ideal S1x1 .f32) (v25 : Elt Ideal .i32)
    (v26 : FVec Ideal S4x128x128 .f32) (v29 : FVec Ideal S4x128x1 .f32) (v30 : FVec Ideal S4x16x128 .f32)
    (v47 : Vec Ideal S128x128 .f32) (r q : Fin 128) :
    k0_pay1 (F := Ideal) v13 v16 v19 v22 v25 v26 v29 v30 v47 (ix2 r q)
      = if v25 = 0#32 then v47 (ix2 r q) else
          (∑ w : Fin 4, ((v13 (ix3 w (0 : Fin 1) (0 : Fin 1)) * v26 (ix3 w r q)
              + v16 (ix3 w (0 : Fin 1) (0 : Fin 1)) * v29 (ix3 w r (0 : Fin 1)))
              + v19 (ix3 w (0 : Fin 1) (0 : Fin 1)) * (∑ k : Fin 16, v30 (ix3 w k q))))
            + v22 (ix2 (0 : Fin 1) (0 : Fin 1)) := by
  unfold k0_pay1
  by_cases h0 : v25 = 0#32
  · subst h0
    rw [if_pos rfl]
    have hc : Scalar.cmpi .ne (0#32 : BitVec 32) 0#32 = 0#1 := by decide
    rw [truncf_apply, hc, select_zero]
  · rw [if_neg h0]
    have hc : Scalar.cmpi .ne v25 0#32 = 1#1 := by
      show BitVec.ofBool (v25 != 0#32) = 1#1
      rw [show (v25 != 0#32) = true from by simpa [bne_iff_ne] using h0]
      rfl
    rw [truncf_apply, hc, select_one, addf_apply, bc_11_mn, sum_first_at]
    refine congrArg (· + v22 (ix2 (0 : Fin 1) (0 : Fin 1))) (Finset.sum_congr rfl fun w _ => ?_)
    rw [addf_apply, addf_apply, mulf_apply, bc_a11_amn, bc_ab1_abn, mulf_apply, bc_a11_amn, bc_a1b_amb, mulf_apply,
      bc_a11_amn, cast_ab_a1b, sum_mid_at]

/-- The weight tile of one loop trip, at (r, q), from the blocks the trip reads. -/
theorem tile_pay (v6 : Vec Ideal S1x1x4x128x16 .bf16) (v9 : Vec Ideal S1x1x4x16x128 .bf16) (v12 v15 v18 : Vec Ideal S1x1x4x1x1 .f32) (v21 : Vec Ideal S1x1x1x1 .f32) (v25 : Elt Ideal .i32) (v47 : Vec Ideal S128x128 .f32) (r q : Fin 128) :
    k0_pay1 (F := Ideal) (k0_pay4 v12) (k0_pay5 v15) (k0_pay6 v18) (k0_pay7 v21) v25 (k0_pay8 v6 v9) (k0_pay9 v6) (k0_pay10 v9) v47 (ix2 r q)
      = if v25 = 0#32 then v47 (ix2 r q) else
          (∑ w : Fin 4, ((v12 (ix5 (0 : Fin 1) (0 : Fin 1) w (0 : Fin 1) (0 : Fin 1)) * (∑ k : Fin 16, v6 (ix5 (0 : Fin 1) (0 : Fin 1) w r k) * v9 (ix5 (0 : Fin 1) (0 : Fin 1) w k q))
              + v15 (ix5 (0 : Fin 1) (0 : Fin 1) w (0 : Fin 1) (0 : Fin 1)) * (∑ k : Fin 16, v6 (ix5 (0 : Fin 1) (0 : Fin 1) w r k)))
              + v18 (ix5 (0 : Fin 1) (0 : Fin 1) w (0 : Fin 1) (0 : Fin 1)) * (∑ k : Fin 16, v9 (ix5 (0 : Fin 1) (0 : Fin 1) w k q))))
            + v21 (ix4 (0 : Fin 1) (0 : Fin 1) (0 : Fin 1) (0 : Fin 1)) := by
  rw [pay1_at]
  simp only [pay4_at, pay5_at, pay6_at, pay7_at, pay8_at, pay9_at, pay10_at]

end Tile

end Cert.KernelIdeal.PayAt

end
-- ==== Proof.BlockSums.lean ====
/-
  A sum over 4096 consecutive indices, cut into 8 blocks of 512.
-/
import Mathlib.Data.EReal.Inv
import Mathlib.Algebra.BigOperators.Fin

open scoped BigOperators

namespace Cert.BlockSums

/-- A sum over `m * n` indices is the sum over `m` blocks of the sums over the `n` indices of each block. -/
theorem sum_blocks_gen {M : Type*} [AddCommMonoid M] (m n : ℕ) (f : Fin (m * n) → M) :
    ∑ k : Fin (m * n), f k = ∑ a : Fin m, ∑ b : Fin n, f (finProdFinEquiv (a, b)) := by
  rw [← Fintype.sum_prod_type', ← finProdFinEquiv.sum_comp]

/-- Index `k` of block `kb` (of 8 blocks of 512) is `512 * kb + kk`. -/
theorem sum_blocks (f : Fin 4096 → EReal) :
    ∑ k : Fin 4096, f k = ∑ kb : Fin 8, ∑ kk : Fin 512, f ⟨512 * kb.val + kk.val, by omega⟩ := by
  refine (sum_blocks_gen 8 512 f).trans ?_
  refine Finset.sum_congr rfl fun kb _ => Finset.sum_congr rfl fun kk _ => congrArg f (Fin.ext ?_)
  show kk.val + 512 * kb.val = 512 * kb.val + kk.val
  omega

end Cert.BlockSums
-- ==== Proof.MatmulValue.lean ====
/-
  What the matrix-product stage leaves in its result array, at any contents V of the buffers when it is entered.

  Each control case's stored pieces are read back as the kernel's stored values of the blocks; each window's block at
  a point is read as entries of its array; the accumulator block after point t = 16 i + 8 j + k holds, at (a, b), the sum
  over the contraction blocks 0..k of the products of row 1024 i + a of the left operand with row 2048 j + b of the right
  one, plus the bias at 2048 j + b once k = 7; the eight block sums are the one sum over the 4096 columns; and the
  write-backs at k = 7 tile the result array.
-/
import proofs.«148910_j25589415149865_1_alg».proof.Proof.MatmulStage
import proofs.«148910_j25589415149865_1_alg».proof.Proof.PayloadsAt
import proofs.«148910_j25589415149865_1_alg».proof.Proof.BlockSums
import Idealize.ShloMosaic.Lib.Pipeline.Value
import Idealize.ShloMosaic.Lib.ValueIdx
import Idealize.ShloMosaic.Lib.Tactic

set_option maxRecDepth 16384

noncomputable section

open scoped BigOperators

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The stored pieces of each control case, as the kernel's stored values of the blocks -/

theorem hz2 : (![0, 0] : Fin 2 → Nat) = fun _ => 0 := funext fun a => by fin_cases a <;> rfl
theorem hz1 : (![0] : Fin 1 → Nat) = fun _ => 0 := funext fun a => by fin_cases a <;> rfl

theorem out1_B_3_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : ¬cond1_0 i) (hc1 : ¬cond1_1 i) (x0 : Vec F S1024x512 .f32) (x1 : Vec F S2048x512 .bf16) (x2 : Vec F S2048 .f32) (xo3 : Vec F S1024x2048 .f32) :
    out1_B_3 c i arg3 harg3 arg4 harg4 arg5 harg5 arg6 harg6 hc0 hc1 x0 x1 x2 xo3 = k1_pay2 x0 x1 xo3 := by
  unfold out1_B_3
  rw [View.read_writes_eq_canon _ _ _ (cover1_B_3 c i arg3 harg3 arg4 harg4 arg5 harg5 arg6 harg6 hc0 hc1 x0 x1 x2 xo3)]
  unfold kernelRun1_B
  dsimp only
  rw [View.canon_unit_zero hz2]
  simp only [View.readAt_eq_ld, harg3.read_unread, harg4.read_unread, harg6.read_unread, View.ld_unit_zero (S := S1024x512) hz2, View.ld_unit_zero (S := S2048x512) hz2, View.ld_unit_zero (S := S1024x2048) hz2]

theorem out1_A_3_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : cond1_0 i) (hc1 : ¬cond1_1 i) (x0 : Vec F S1024x512 .f32) (x1 : Vec F S2048x512 .bf16) (x2 : Vec F S2048 .f32) :
    out1_A_3 c i arg3 harg3 arg4 harg4 arg5 harg5 arg6 harg6 hc0 hc1 x0 x1 x2 = k1_pay2 x0 x1 (k1_pay1 (F := F)) := by
  unfold out1_A_3
  rw [View.read_writes_eq_canon _ _ _ (cover1_A_3 c i arg3 harg3 arg4 harg4 arg5 harg5 arg6 harg6 hc0 hc1 x0 x1 x2)]
  unfold kernelRun1_A
  dsimp only
  sl_unfold_words
  rw [View.canon_cons_unit_zero (S := S1024x2048) hz2, View.readCov_unit_zero (S := S1024x2048) _ hz2]
  simp only [View.readAt_eq_ld, harg3.read_unread, harg4.read_unread, View.ld_unit_zero (S := S1024x512) hz2, View.ld_unit_zero (S := S2048x512) hz2]

theorem out1_C_3_eq (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (hc0 : ¬cond1_0 i) (hc1 : cond1_1 i) (x0 : Vec F S1024x512 .f32) (x1 : Vec F S2048x512 .bf16) (x2 : Vec F S2048 .f32) (xo3 : Vec F S1024x2048 .f32) :
    out1_C_3 c i arg3 harg3 arg4 harg4 arg5 harg5 arg6 harg6 hc0 hc1 x0 x1 x2 xo3 = k1_pay3 (k1_pay2 x0 x1 xo3) x2 := by
  unfold out1_C_3
  rw [View.read_writes_eq_canon _ _ _ (cover1_C_3 c i arg3 harg3 arg4 harg4 arg5 harg5 arg6 harg6 hc0 hc1 x0 x1 x2 xo3)]
  unfold kernelRun1_C
  dsimp only
  sl_unfold_words
  rw [View.canon_cons_unit_zero (S := S1024x2048) hz2, View.readCov_unit_zero (S := S1024x2048) _ hz2]
  simp only [View.readAt_eq_ld, harg3.read_unread, harg4.read_unread, harg5.read_unread, harg6.read_unread, View.ld_unit_zero (S := S1024x512) hz2, View.ld_unit_zero (S := S2048x512) hz2, View.ld_unit_zero (S := S1024x2048) hz2, View.ld_unit_zero (S := S2048) hz1]

/-! ## Each window's block at a point, as entries of its array -/

section
variable (V : (c : Dev nD) → (b : Ref sig .tc) → Buf (Elt F) ((c : Thread nD τ).loc b))

/-- The printed index maps, decided over the grid: point t = 16 i + 8 j + k reads row block i and contraction block k of
    the left operand, row block j and contraction block k of the right one, block j of the bias, and writes block (i, j). -/
theorem idx_facts1 : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 1) = t.val / 8 % 2
    ∧ win1_3.index t (0 : Fin 2) = t.val / 16 ∧ win1_3.index t (1 : Fin 2) = t.val / 8 % 2 :=
  (by decide +kernel : ∀ t : Fin grid1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 1) = t.val / 8 % 2
    ∧ win1_3.index t (0 : Fin 2) = t.val / 16 ∧ win1_3.index t (1 : Fin 2) = t.val / 8 % 2)

theorem tlt (t : Fin cfg1.N) : t.val < 128 := lt_of_lt_of_eq t.isLt (show cfg1.N = 128 from N_1)

/-- The left operand's block at point t, entry (a, k): row 1024 (t / 16) + a, column 512 (t % 8) + k of the array. -/
theorem iblk1_0_apply (c : Dev nD) (t : Fin cfg1.N) (a : Fin 1024) (k : Fin 512) :
    (iblk1 V c 0 t : Vec F S1024x512 .f32) (ix2 a k)
      = (V c main_arg0 : S8192x4096.Idx → Elt F .f32) (ix2 (⟨1024 * (t.val / 16) + a.val, by have := tlt t; omega⟩ : Fin 8192) (⟨512 * (t.val % 8) + k.val, by omega⟩ : Fin 4096)) := by
  obtain ⟨e0, e1, -⟩ := idx_facts1 t
  unfold iblk1
  rw [View.read_apply]
  show V c main_arg0 _ = V c main_arg0 _
  congr 1
  funext d
  apply Fin.ext
  match d with
  | ⟨0, _⟩ => show win1_0.index t (0 : Fin 2) * 1024 + 1 * a.val = 1024 * (t.val / 16) + a.val; rw [e0]; omega
  | ⟨1, _⟩ => show win1_0.index t (1 : Fin 2) * 512 + 1 * k.val = 512 * (t.val % 8) + k.val; rw [e1]; omega

/-- The right operand's block at point t, entry (b, k): row 2048 (t / 8 % 2) + b, column 512 (t % 8) + k of the array. -/
theorem iblk1_1_apply (c : Dev nD) (t : Fin cfg1.N) (b : Fin 2048) (k : Fin 512) :
    (iblk1 V c 1 t : Vec F S2048x512 .bf16) (ix2 b k)
      = (V c main_v8 : S4096x4096.Idx → Elt F .bf16) (ix2 (⟨2048 * (t.val / 8 % 2) + b.val, by omega⟩ : Fin 4096) (⟨512 * (t.val % 8) + k.val, by omega⟩ : Fin 4096)) := by
  obtain ⟨-, -, e0, e1, -⟩ := idx_facts1 t
  unfold iblk1
  rw [View.read_apply]
  show V c main_v8 _ = V c main_v8 _
  congr 1
  funext d
  apply Fin.ext
  match d with
  | ⟨0, _⟩ => show win1_1.index t (0 : Fin 2) * 2048 + 1 * b.val = 2048 * (t.val / 8 % 2) + b.val; rw [e0]; omega
  | ⟨1, _⟩ => show win1_1.index t (1 : Fin 2) * 512 + 1 * k.val = 512 * (t.val % 8) + k.val; rw [e1]; omega

/-- The bias block at point t, entry b: entry 2048 (t / 8 % 2) + b of the array. -/
theorem iblk1_2_apply (c : Dev nD) (t : Fin cfg1.N) (b : Fin 2048) :
    (iblk1 V c 2 t : Vec F S2048 .f32) (ix1 b)
      = (V c main_arg8 : S4096.Idx → Elt F .f32) (ix1 (⟨2048 * (t.val / 8 % 2) + b.val, by omega⟩ : Fin 4096)) := by
  obtain ⟨-, -, -, -, e0, -⟩ := idx_facts1 t
  unfold iblk1
  rw [View.read_apply]
  show V c main_arg8 _ = V c main_arg8 _
  congr 1
  funext d
  apply Fin.ext
  match d with
  | ⟨0, _⟩ => show win1_2.index t (0 : Fin 1) * 2048 + 1 * b.val = 2048 * (t.val / 8 % 2) + b.val; rw [e0]; omega

end

/-! ## What the accumulator block holds after every point, over the extended reals -/

section
variable (V : (c : Dev nD) → (b : Ref sig .tc) → Buf (Elt Ideal) ((c : Thread nD τ).loc b))

/-- Entry (r, k) of the left operand, entry (s, k) of the right one, entry s of the bias, over the extended reals. -/
abbrev lhsAt (c : Dev nD) (r : Fin 8192) (k : Fin 4096) : EReal := (V c main_arg0 : S8192x4096.Idx → EReal) (ix2 r k)
abbrev rhsAt (c : Dev nD) (s : Fin 4096) (k : Fin 4096) : EReal := (V c main_v8 : S4096x4096.Idx → EReal) (ix2 s k)
abbrev biasAt (c : Dev nD) (s : Fin 4096) : EReal := (V c main_arg8 : S4096.Idx → EReal) (ix1 s)

/-- Entry (a, k) of the left operand's block at point t, entry (b, k) of the right one's, entry b of the bias block. -/
abbrev lhsBlk (c : Dev nD) (t : Fin cfg1.N) (a : Fin 1024) (k : Fin 512) : EReal := (iblk1 V c 0 t : Vec Ideal S1024x512 .f32) (ix2 a k)
abbrev rhsBlk (c : Dev nD) (t : Fin cfg1.N) (b : Fin 2048) (k : Fin 512) : EReal := (iblk1 V c 1 t : Vec Ideal S2048x512 .bf16) (ix2 b k)
abbrev biasBlk (c : Dev nD) (t : Fin cfg1.N) (b : Fin 2048) : EReal := (iblk1 V c 2 t : Vec Ideal S2048 .f32) (ix1 b)

/-- The contraction of row r of the left operand with row s of the right one over the 512 columns of block kb. -/
def blockDot (c : Dev nD) (r : Fin 8192) (s : Fin 4096) (kb : Fin 8) : EReal :=
  ∑ kk : Fin 512, lhsAt V c r ⟨512 * kb.val + kk.val, by omega⟩ * rhsAt V c s ⟨512 * kb.val + kk.val, by omega⟩

/-- The sum of the terms 0..m of eight. -/
def part (f : Fin 8 → EReal) : ℕ → EReal
  | 0 => f 0
  | m + 1 => part f m + (if h : m + 1 < 8 then f ⟨m + 1, h⟩ else 0)

theorem part_succ (f : Fin 8 → EReal) (m : ℕ) (h : m + 1 < 8) : part f (m + 1) = part f m + f ⟨m + 1, h⟩ := by
  rw [part, dif_pos h]

/-- All eight terms. -/
theorem part_seven (f : Fin 8 → EReal) : part f 7 = ∑ kb : Fin 8, f kb := by
  rw [Fin.sum_univ_eight]
  rw [part_succ f 6 (by omega), part_succ f 5 (by omega), part_succ f 4 (by omega), part_succ f 3 (by omega), part_succ f 2 (by omega), part_succ f 1 (by omega), part_succ f 0 (by omega)]
  rfl

/-- The block product at point t, entry (a, b): the contraction over the point's column block. -/
theorem dot_at (c : Dev nD) (t : Fin cfg1.N) (a : Fin 1024) (b : Fin 2048) (r : Fin 8192) (s : Fin 4096)
    (hr : r.val = 1024 * (t.val / 16) + a.val) (hs : s.val = 2048 * (t.val / 8 % 2) + b.val) :
    ∑ k : Fin 512, lhsBlk V c t a k * rhsBlk V c t b k
      = blockDot V c r s ⟨t.val % 8, by omega⟩ := by
  obtain ⟨rv, hrv⟩ := r
  obtain ⟨sv, hsv⟩ := s
  dsimp only at hr hs
  subst hr hs
  unfold blockDot
  refine Finset.sum_congr rfl fun k _ => ?_
  exact congrArg₂ (fun x y : EReal => x * y) (iblk1_0_apply V c t a k) (iblk1_1_apply V c t b k)

/-- The bias block at point t, entry b: the bias at the point's column. -/
theorem bias_at (c : Dev nD) (t : Fin cfg1.N) (b : Fin 2048) (s : Fin 4096) (hs : s.val = 2048 * (t.val / 8 % 2) + b.val) :
    biasBlk V c t b = biasAt V c s := by
  obtain ⟨sv, hsv⟩ := s
  dsimp only at hs
  subst hs
  exact iblk1_2_apply V c t b

/-- At k = 0 the accumulator block holds the block product. -/
theorem outsAt1_A_at (c : Dev nD) (t : Fin cfg1.N) (h0 : t.val % 8 = 0) (a : Fin 1024) (b : Fin 2048) :
    outsAt1 V c t.val t.isLt (ix2 a b)
      = ∑ k : Fin 512, lhsBlk V c t a k * rhsBlk V c t b k := by
  refine (congrFun ((outsAt1_A V c t h0).trans (out1_A_3_eq (F := Ideal) c (grid1.coords t) (ms1_0 t) (hs1_0 t) (ms1_1 t) (hs1_1 t) (ms1_2 t) (hs1_2 t) (ms1_3 t) (hs1_3 t) ((hcond1_0 t).mpr h0) (not_c1_of_mod0 t h0) (iblk1 V c 0 t) (iblk1 V c 1 t) (iblk1 V c 2 t))) (ix2 a b)).trans ?_
  refine (PayAt.acc_pay (iblk1 V c 0 t) (iblk1 V c 1 t) (k1_pay1 (F := Ideal)) a b).trans ?_
  rw [PayAt.zero_pay, zero_add]

/-- For 0 < k < 7 it holds what the point before left plus the block product. -/
theorem outsAt1_B_at (c : Dev nD) (t : Fin cfg1.N) (h0 : ¬t.val % 8 = 0) (h1 : ¬t.val % 8 = 7) (a : Fin 1024) (b : Fin 2048) :
    outsAt1 V c t.val t.isLt (ix2 a b)
      = outsAt1 V c (t.val - 1) (Nat.lt_of_le_of_lt (Nat.sub_le _ _) t.isLt) (ix2 a b)
        + ∑ k : Fin 512, lhsBlk V c t a k * rhsBlk V c t b k := by
  refine (congrFun ((outsAt1_B V c t h0 h1).trans (out1_B_3_eq (F := Ideal) c (grid1.coords t) (ms1_0 t) (hs1_0 t) (ms1_1 t) (hs1_1 t) (ms1_2 t) (hs1_2 t) (ms1_3 t) (hs1_3 t) (not_c0_of t h0) (not_c1_of t h1) (iblk1 V c 0 t) (iblk1 V c 1 t) (iblk1 V c 2 t) (outsAt1 V c (t.val - 1) (Nat.lt_of_le_of_lt (Nat.sub_le _ _) t.isLt)))) (ix2 a b)).trans ?_
  exact PayAt.acc_pay (iblk1 V c 0 t) (iblk1 V c 1 t) (outsAt1 V c (t.val - 1) (Nat.lt_of_le_of_lt (Nat.sub_le _ _) t.isLt)) a b

/-- At k = 7 it holds that, plus the bias. -/
theorem outsAt1_C_at (c : Dev nD) (t : Fin cfg1.N) (h0 : ¬t.val % 8 = 0) (h1 : t.val % 8 = 7) (a : Fin 1024) (b : Fin 2048) :
    outsAt1 V c t.val t.isLt (ix2 a b)
      = outsAt1 V c (t.val - 1) (Nat.lt_of_le_of_lt (Nat.sub_le _ _) t.isLt) (ix2 a b)
        + (∑ k : Fin 512, lhsBlk V c t a k * rhsBlk V c t b k)
        + biasBlk V c t b := by
  refine (congrFun ((outsAt1_C V c t h0 h1).trans (out1_C_3_eq (F := Ideal) c (grid1.coords t) (ms1_0 t) (hs1_0 t) (ms1_1 t) (hs1_1 t) (ms1_2 t) (hs1_2 t) (ms1_3 t) (hs1_3 t) (not_c0_of t h0) ((hcond1_1 t).mpr h1) (iblk1 V c 0 t) (iblk1 V c 1 t) (iblk1 V c 2 t) (outsAt1 V c (t.val - 1) (Nat.lt_of_le_of_lt (Nat.sub_le _ _) t.isLt)))) (ix2 a b)).trans ?_
  refine (PayAt.bias_pay (k1_pay2 (F := Ideal) (iblk1 V c 0 t) (iblk1 V c 1 t) (outsAt1 V c (t.val - 1) (Nat.lt_of_le_of_lt (Nat.sub_le _ _) t.isLt))) (iblk1 V c 2 t) a b).trans ?_
  exact congrArg (fun x : EReal => x + biasBlk V c t b) (PayAt.acc_pay (iblk1 V c 0 t) (iblk1 V c 1 t) (outsAt1 V c (t.val - 1) (Nat.lt_of_le_of_lt (Nat.sub_le _ _) t.isLt)) a b)

theorem close_A (f : Fin 8 → EReal) (B : EReal) (m : ℕ) (hm : m < 8) (h0 : m = 0) :
    f ⟨m, hm⟩ = part f m + (if m = 7 then B else 0) := by
  subst h0
  rw [if_neg (by omega), add_zero]
  rfl

theorem close_B (f : Fin 8 → EReal) (B : EReal) (m m' : ℕ) (hm' : m' < 8) (e : m' = m + 1) (h7 : ¬m' = 7) :
    part f m + (if m = 7 then B else 0) + f ⟨m', hm'⟩ = part f m' + (if m' = 7 then B else 0) := by
  subst e
  rw [if_neg (by omega), if_neg h7, add_zero, add_zero, part_succ f m hm']

theorem close_C (f : Fin 8 → EReal) (B : EReal) (m m' : ℕ) (hm' : m' < 8) (e : m' = m + 1) (h7 : m' = 7) :
    part f m + (if m = 7 then B else 0) + f ⟨m', hm'⟩ + B = part f m' + (if m' = 7 then B else 0) := by
  subst e
  rw [if_neg (by omega), if_pos h7, add_zero, part_succ f m hm']

/-- THE INVARIANT. After point n = 16 i + 8 j + k the accumulator block holds, at (a, b), the contraction of row
    r = 1024 i + a of the left operand with row s = 2048 j + b of the right one over the column blocks 0..k, plus the bias
    at s once k = 7. -/
theorem outsAt1_eq (c : Dev nD) : ∀ (n : ℕ) (hn : n < cfg1.N) (a : Fin 1024) (b : Fin 2048) (r : Fin 8192) (s : Fin 4096),
    r.val = 1024 * (n / 16) + a.val → s.val = 2048 * (n / 8 % 2) + b.val →
    outsAt1 V c n hn (ix2 a b) = part (blockDot V c r s) (n % 8) + (if n % 8 = 7 then biasAt V c s else 0)
  | 0, hn, a, b, r, s, hr, hs => by
    refine (outsAt1_A_at V c ⟨0, hn⟩ (Nat.zero_mod _) a b).trans ?_
    rw [dot_at V c ⟨0, hn⟩ a b r s hr hs]
    exact close_A _ _ _ _ (Nat.zero_mod _)
  | n + 1, hn, a, b, r, s, hr, hs => by
    have hN : n + 1 < 128 := lt_of_lt_of_eq hn (show cfg1.N = 128 from N_1)
    by_cases h0 : (n + 1) % 8 = 0
    · refine (outsAt1_A_at V c ⟨n + 1, hn⟩ h0 a b).trans ?_
      rw [dot_at V c ⟨n + 1, hn⟩ a b r s hr hs]
      exact close_A _ _ _ _ h0
    · by_cases h1 : (n + 1) % 8 = 7
      · refine (outsAt1_C_at V c ⟨n + 1, hn⟩ h0 h1 a b).trans ?_
        rw [dot_at V c ⟨n + 1, hn⟩ a b r s hr hs, show biasBlk V c ⟨n + 1, hn⟩ b = biasAt V c s from bias_at V c ⟨n + 1, hn⟩ b s hs]
        show outsAt1 V c n _ (ix2 a b) + _ + _ = _
        rw [outsAt1_eq c n (Nat.lt_of_succ_lt hn) a b r s (by omega) (by omega)]
        exact close_C _ _ (n % 8) ((n + 1) % 8) _ (by omega) h1
      · refine (outsAt1_B_at V c ⟨n + 1, hn⟩ h0 h1 a b).trans ?_
        rw [dot_at V c ⟨n + 1, hn⟩ a b r s hr hs]
        show outsAt1 V c n _ (ix2 a b) + _ = _
        rw [outsAt1_eq c n (Nat.lt_of_succ_lt hn) a b r s (by omega) (by omega)]
        exact close_B _ _ (n % 8) ((n + 1) % 8) _ (by omega) h1

end

/-! ## The result array after the stage -/

section
variable (V : (c : Dev nD) → (b : Ref sig .tc) → Buf (Elt Ideal) ((c : Thread nD τ).loc b))

/-- THE RESULT: entry (p0, p1) is the contraction of row p0 of the left operand with row p1 of the right one over all
    4096 columns, plus the bias at p1. -/
abbrev result1 (c : Dev nD) : Buf (Elt Ideal) ((c : Thread nD τ).loc main_v9) :=
  fun p : S8192x4096.Idx => (∑ k : Fin 4096, lhsAt V c (p 0) k * rhsAt V c (p 1) k) + biasAt V c (p 1)

/-- What a point with k = 7 writes back is its block of the result. -/
theorem flushed1_eq (c : Dev nD) (t : Fin cfg1.N) (hf : (cfg1.win 3).flush t = true) :
    (dat1 V c).flushed 3 t = ((cfg1.win 3).blk t).view.read (Elt Ideal) (result1 V c) := by
  have h7 : t.val % 8 = 7 := (flush1_3 t).mp hf
  have hN := tlt t
  obtain ⟨-, -, -, -, -, e0, e1⟩ := idx_facts1 t
  show (cfg1.win 3).cut (grid1.coords t) ((dat1 V c).after 3 t) = _
  rw [after1_3]
  funext j
  obtain ⟨a, b, rfl⟩ : ∃ (a : Fin 1024) (b : Fin 2048), j = ix2 a b := ⟨j 0, j 1, eq_ix2 j⟩
  rw [View.read_apply]
  have hemb : ((cfg1.win 3).blk t).view.emb (ix2 a b) = ix2 (⟨1024 * (t.val / 16) + a.val, by omega⟩ : Fin 8192) (⟨2048 * (t.val / 8 % 2) + b.val, by omega⟩ : Fin 4096) := by
    funext d; apply Fin.ext
    match d with
    | ⟨0, _⟩ => show win1_3.index t (0 : Fin 2) * 1024 + 1 * a.val = 1024 * (t.val / 16) + a.val; rw [e0]; omega
    | ⟨1, _⟩ => show win1_3.index t (1 : Fin 2) * 2048 + 1 * b.val = 2048 * (t.val / 8 % 2) + b.val; rw [e1]; omega
  rw [hemb]
  show outsAt1 V c t.val t.isLt (ix2 a b) = _
  rw [outsAt1_eq V c t.val t.isLt a b ⟨1024 * (t.val / 16) + a.val, by omega⟩ ⟨2048 * (t.val / 8 % 2) + b.val, by omega⟩ rfl rfl, if_pos h7, h7, part_seven]
  show _ = (∑ k : Fin 4096, lhsAt V c ⟨1024 * (t.val / 16) + a.val, by omega⟩ k * rhsAt V c ⟨2048 * (t.val / 8 % 2) + b.val, by omega⟩ k) + biasAt V c ⟨2048 * (t.val / 8 % 2) + b.val, by omega⟩
  rw [BlockSums.sum_blocks]
  rfl

/-- The write-backs at k = 7 tile the result array: entry (p0, p1) is in the block of the point 16 (p0 / 1024) + 8 (p1 / 2048) + 7. -/
theorem final1 (c : Dev nD) : (dat1 V c).arrAt 3 cfg1.N = result1 V c :=
  (dat1 V c).arrAt_eq_of_cover 3 (result1 V c) (flushed1_eq V c) fun p => by
    have h0 : (p 0 : Nat) < 8192 := (p 0).isLt
    have h1 : (p 1 : Nat) < 4096 := (p 1).isLt
    obtain ⟨t, ht⟩ : ∃ t : Fin cfg1.N, t.val = 16 * ((p 0 : Nat) / 1024) + 8 * ((p 1 : Nat) / 2048) + 7 :=
      ⟨⟨16 * ((p 0 : Nat) / 1024) + 8 * ((p 1 : Nat) / 2048) + 7, by rw [show cfg1.N = 128 from N_1]; omega⟩, rfl⟩
    obtain ⟨-, -, -, -, -, e0, e1⟩ := idx_facts1 t
    refine ⟨t, (flush1_3 t).mpr (by omega), ?_⟩
    show p ∈ ((View.whole main_v9).slice (win1_3.rect t)).set
    rw [View.set_slice_whole, Rect.mem_set_unit]
    intro d
    match d with
    | ⟨0, _⟩ => show win1_3.index t (0 : Fin 2) * 1024 ≤ (p 0 : Nat) ∧ (p 0 : Nat) < win1_3.index t (0 : Fin 2) * 1024 + 1024
                rw [e0]; omega
    | ⟨1, _⟩ => show win1_3.index t (1 : Fin 2) * 2048 ≤ (p 1 : Nat) ∧ (p 1 : Nat) < win1_3.index t (1 : Fin 2) * 2048 + 2048
                rw [e1]; omega

end

end Cert.KernelIdeal.Frm

end
-- ==== Proof.WeightValue.lean ====
/-
  What the weight-reconstruction stage leaves in its output array, as one function of the arrays it reads.
  One loop trip k stores one 128 x 128 tile at columns 128 k .. 128 k + 127 of the output block: the blended tile computed from
  the k-th slices of the factor blocks, the k-th scalars, the mask word (row block, k) and the k-th column block of the given
  matrix. The 32 tiles tile the block, so the block is one function of the loaded blocks; the 32 row blocks tile the array.
-/
import proofs.«148910_j25589415149865_1_alg».proof.Proof.WeightStage
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem trips32 : k0_t1_loop.trips = 32 := by decide +kernel

section Pieces
variable (c : Dev nD) (i : grid0.Coords) (arg2 : Memref sig .tc .vmem S1x32x4x128x16 .bf16) (harg2 : arg2.IsWhole) (arg3 : Memref sig .tc .vmem S1x32x4x16x128 .bf16) (harg3 : arg3.IsWhole) (arg4 : Memref sig .tc .vmem S1x32x4x1x1 .f32) (harg4 : arg4.IsWhole) (arg5 : Memref sig .tc .vmem S1x32x4x1x1 .f32) (harg5 : arg5.IsWhole) (arg6 : Memref sig .tc .vmem S1x32x4x1x1 .f32) (harg6 : arg6.IsWhole) (arg7 : Memref sig .tc .vmem S1x32x1x1 .f32) (harg7 : arg7.IsWhole) (arg8 : Memref sig .tc .vmem S128x4096 .f32) (harg8 : arg8.IsWhole) (arg9 : Memref sig .tc .vmem S128x4096 .bf16) (harg9 : arg9.IsWhole) (arg0 : BitVec 32)
  (X_arg1 : BufTy.Contents (Elt F) (tbM).view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty)

/-- The tile trip k stores, from the slices it loads. -/
def tripPay (k : Fin k0_t1_loop.trips) : FVec F S128x128 .bf16 :=
  k0_pay1 (k0_pay4 (View.readAt (Elt F) arg4.view (Rect.unit (s := S1x32x4x1x1) (k0_off3 k) S1x1x4x1x1.size (k0_off3_inb k)).toLoadRect X_arg4)) (k0_pay5 (View.readAt (Elt F) arg5.view (Rect.unit (s := S1x32x4x1x1) (k0_off3 k) S1x1x4x1x1.size (k0_off3_inb k)).toLoadRect X_arg5)) (k0_pay6 (View.readAt (Elt F) arg6.view (Rect.unit (s := S1x32x4x1x1) (k0_off3 k) S1x1x4x1x1.size (k0_off3_inb k)).toLoadRect X_arg6)) (k0_pay7 (View.readAt (Elt F) arg7.view (Rect.unit (s := S1x32x1x1) (k0_off4 k) S1x1x1x1.size (k0_off4_inb k)).toLoadRect X_arg7))
    (View.readAt (Elt F) (tbM).view (Rect.unit (s := S32x32) (k0_off5 i k) S1x1.size (k0_off5_inb i k)).toLoadRect X_arg1 (Shape.Idx.first (numel1_S1x1.symm ▸ Nat.one_pos)))
    (k0_pay8 (View.readAt (Elt F) arg2.view (Rect.unit (s := S1x32x4x128x16) (k0_off1 k) S1x1x4x128x16.size (k0_off1_inb k)).toLoadRect X_arg2) (View.readAt (Elt F) arg3.view (Rect.unit (s := S1x32x4x16x128) (k0_off2 k) S1x1x4x16x128.size (k0_off2_inb k)).toLoadRect X_arg3)) (k0_pay9 (View.readAt (Elt F) arg2.view (Rect.unit (s := S1x32x4x128x16) (k0_off1 k) S1x1x4x128x16.size (k0_off1_inb k)).toLoadRect X_arg2)) (k0_pay10 (View.readAt (Elt F) arg3.view (Rect.unit (s := S1x32x4x16x128) (k0_off2 k) S1x1x4x16x128.size (k0_off2_inb k)).toLoadRect X_arg3))
    (View.readAt (Elt F) arg8.view (Rect.unit (s := S128x4096) (k0_off6 k) S128x128.size (k0_off6_inb k)).toLoadRect X_arg8)

/-- Trip k stores exactly that tile, at columns 128 k onward. -/
theorem tripL_eq (k : Fin k0_t1_loop.trips) :
    tripL_k0_t1 (F := F) Variants.none c none i tbM htbM arg2 harg2 arg3 harg3 arg4 harg4 arg5 harg5 arg6 harg6 arg7 harg7 arg8 harg8 arg9 harg9 arg0 X_arg1 X_arg2 X_arg3 X_arg4 X_arg5 X_arg6 X_arg7 X_arg8 k
      = [⟨Rect.unit (s := S128x4096) (k0_off6 k) S128x128.size (k0_off6_inb k), tripPay i arg2 arg3 arg4 arg5 arg6 arg7 arg8 X_arg1 X_arg2 X_arg3 X_arg4 X_arg5 X_arg6 X_arg7 X_arg8 k⟩] := by
  unfold tripL_k0_t1 trip_k0_t1
  rfl

/-- Every piece of the first n trips is some trip's tile. -/
theorem pb_pieces : ∀ (n : ℕ), ∀ p ∈ pb_k0_t1 (F := F) Variants.none c none i tbM htbM arg2 harg2 arg3 harg3 arg4 harg4 arg5 harg5 arg6 harg6 arg7 harg7 arg8 harg8 arg9 harg9 arg0 X_arg1 X_arg2 X_arg3 X_arg4 X_arg5 X_arg6 X_arg7 X_arg8 n,
    ∃ k : Fin k0_t1_loop.trips, p = ⟨Rect.unit (s := S128x4096) (k0_off6 k) S128x128.size (k0_off6_inb k), tripPay i arg2 arg3 arg4 arg5 arg6 arg7 arg8 X_arg1 X_arg2 X_arg3 X_arg4 X_arg5 X_arg6 X_arg7 X_arg8 k⟩
  | 0, p, hp => by rw [pb_k0_t1.eq_1] at hp; exact absurd hp List.not_mem_nil
  | n + 1, p, hp => by
    rw [pb_k0_t1.eq_2] at hp; unfold pb_k0_t1Step at hp
    split at hp
    · rename_i h
      rcases List.mem_append.mp hp with h1 | h2
      · rw [tripL_eq] at h1
        exact ⟨⟨n, h⟩, List.mem_singleton.mp h1⟩
      · exact pb_pieces n p h2
    · exact pb_pieces n p hp
end Pieces

section Block
variable (c : Dev nD) (i : grid0.Coords) (arg2 : Memref sig .tc .vmem S1x32x4x128x16 .bf16) (harg2 : arg2.IsWhole) (arg3 : Memref sig .tc .vmem S1x32x4x16x128 .bf16) (harg3 : arg3.IsWhole) (arg4 : Memref sig .tc .vmem S1x32x4x1x1 .f32) (harg4 : arg4.IsWhole) (arg5 : Memref sig .tc .vmem S1x32x4x1x1 .f32) (harg5 : arg5.IsWhole) (arg6 : Memref sig .tc .vmem S1x32x4x1x1 .f32) (harg6 : arg6.IsWhole) (arg7 : Memref sig .tc .vmem S1x32x1x1 .f32) (harg7 : arg7.IsWhole) (arg8 : Memref sig .tc .vmem S128x4096 .f32) (harg8 : arg8.IsWhole) (arg9 : Memref sig .tc .vmem S128x4096 .bf16) (harg9 : arg9.IsWhole)

/-- The output block as one function of the loaded blocks: column q of the block is column q % 128 of the tile of trip q / 128. -/
def blockFun (X_arg1 : BufTy.Contents (Elt F) (tbM).view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (y : S128x4096.Idx) : Elt F .bf16 :=
  tripPay i arg2 arg3 arg4 arg5 arg6 arg7 arg8 X_arg1 X_arg2 X_arg3 X_arg4 X_arg5 X_arg6 X_arg7 X_arg8 ⟨(y 1).val / 128, by rw [trips32]; have h : (y 1).val < 4096 := (y 1).isLt; omega⟩
    (ix2 (⟨(y 0).val, (y 0).isLt⟩ : Fin 128) (⟨(y 1).val % 128, Nat.mod_lt _ (by norm_num)⟩ : Fin 128))

theorem tripPay_congr (X_arg1 : BufTy.Contents (Elt F) (tbM).view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k' k : Fin k0_t1_loop.trips) (z x : S128x128.Idx) (hk : k' = k) (hz : z = x) :
    tripPay i arg2 arg3 arg4 arg5 arg6 arg7 arg8 X_arg1 X_arg2 X_arg3 X_arg4 X_arg5 X_arg6 X_arg7 X_arg8 k' z = tripPay i arg2 arg3 arg4 arg5 arg6 arg7 arg8 X_arg1 X_arg2 X_arg3 X_arg4 X_arg5 X_arg6 X_arg7 X_arg8 k x := by subst hk hz; rfl

/-- What the body leaves in the output block is that function, of the blocks it was handed. -/
theorem out0_7_apply (xt : Vec F S32x32 .i32) (x0 : Vec F S1x32x4x128x16 .bf16) (x1 : Vec F S1x32x4x16x128 .bf16) (x2 x3 x4 : Vec F S1x32x4x1x1 .f32) (x5 : Vec F S1x32x1x1 .f32) (x6 : Vec F S128x4096 .f32) (y : S128x4096.Idx) :
    out0_7 (F := F) c i arg2 harg2 arg3 harg3 arg4 harg4 arg5 harg5 arg6 harg6 arg7 harg7 arg8 harg8 arg9 harg9 xt x0 x1 x2 x3 x4 x5 x6 y = blockFun i arg2 arg3 arg4 arg5 arg6 arg7 arg8 (htbM.unread xt) (harg2.unread x0) (harg3.unread x1) (harg4.unread x2) (harg5.unread x3) (harg6.unread x4) (harg7.unread x5) (harg8.unread x6) y := by
  unfold out0_7
  rw [View.read_writes_eq_canon _ _ _ (cover0_7 c i arg2 harg2 arg3 harg3 arg4 harg4 arg5 harg5 arg6 harg6 arg7 harg7 arg8 harg8 arg9 harg9 xt x0 x1 x2 x3 x4 x5 x6)]
  have hL : (kernelRun0 (F := F) c i arg2 harg2 arg3 harg3 arg4 harg4 arg5 harg5 arg6 harg6 arg7 harg7 arg8 harg8 arg9 harg9 xt x0 x1 x2 x3 x4 x5 x6).1 = pb_k0_t1 Variants.none c none i tbM htbM arg2 harg2 arg3 harg3 arg4 harg4 arg5 harg5 arg6 harg6 arg7 harg7 arg8 harg8
      arg9 harg9 (BitVec.ofNat 32 (i 0).val) (htbM.unread xt) (harg2.unread x0) (harg3.unread x1) (harg4.unread x2) (harg5.unread x3) (harg6.unread x4) (harg7.unread x5) (harg8.unread x6) (Scf.trips (0#32) (Scalar.addi 0#32 32#32) 1#32) := by
    unfold kernelRun0; rfl
  refine View.canon_apply_of_pieces (blockFun i arg2 arg3 arg4 arg5 arg6 arg7 arg8 (htbM.unread xt) (harg2.unread x0) (harg3.unread x1) (harg4.unread x2) (harg5.unread x3) (harg6.unread x4) (harg7.unread x5) (harg8.unread x6)) _ ?_ y (cover0_7 c i arg2 harg2 arg3 harg3 arg4 harg4 arg5 harg5 arg6 harg6 arg7 harg7 arg8 harg8 arg9 harg9 xt x0 x1 x2 x3 x4 x5 x6 y)
  intro p hp x
  rw [hL] at hp
  obtain ⟨k, rfl⟩ := pb_pieces c i arg2 harg2 arg3 harg3 arg4 harg4 arg5 harg5 arg6 harg6 arg7 harg7 arg8 harg8 arg9 harg9 _ _ _ _ _ _ _ _ _ _ p hp
  have hk : k.val < 32 := lt_of_lt_of_eq k.isLt trips32
  have hx0 : (x 0).val < 128 := (x 0).isLt
  have hx1 : (x 1).val < 128 := (x 1).isLt
  have h60 : k0_off6 k 0 = 0 := congrFun (k0_off6_eq k) 0
  have h61 : k0_off6 k 1 = 128 * k.val := congrFun (k0_off6_eq k) 1
  have he0 : ((Rect.unit (s := S128x4096) (k0_off6 k) S128x128.size (k0_off6_inb k)).emb x 0).val = (x 0).val := by
    show k0_off6 k 0 + 1 * (x 0).val = _
    omega
  have he1 : ((Rect.unit (s := S128x4096) (k0_off6 k) S128x128.size (k0_off6_inb k)).emb x 1).val = 128 * k.val + (x 1).val := by
    show k0_off6 k 1 + 1 * (x 1).val = _
    omega
  unfold blockFun
  refine (tripPay_congr i arg2 arg3 arg4 arg5 arg6 arg7 arg8 _ _ _ _ _ _ _ _ _ _ _ _ (Fin.ext ?_) (funext fun a => Fin.ext ?_)).symm
  · show ((Rect.unit (s := S128x4096) (k0_off6 k) S128x128.size (k0_off6_inb k)).emb x 1).val / 128 = k.val
    rw [he1]; omega
  · match a with
    | ⟨0, _⟩ => show ((Rect.unit (s := S128x4096) (k0_off6 k) S128x128.size (k0_off6_inb k)).emb x 0).val = (x 0).val; exact he0
    | ⟨1, _⟩ => show ((Rect.unit (s := S128x4096) (k0_off6 k) S128x128.size (k0_off6_inb k)).emb x 1).val % 128 = (x 1).val; rw [he1]; omega
end Block

section Tile
/-- The slices trip k loads: the k-th entry along the column-block axis of each factor block and scalar block, and the k-th
    column block of the given matrix's row block. -/
abbrev sl1 (k : Fin k0_t1_loop.trips) : Rect S1x32x4x128x16 := Rect.unit (s := S1x32x4x128x16) (k0_off1 k) S1x1x4x128x16.size (k0_off1_inb k)
abbrev sl2 (k : Fin k0_t1_loop.trips) : Rect S1x32x4x16x128 := Rect.unit (s := S1x32x4x16x128) (k0_off2 k) S1x1x4x16x128.size (k0_off2_inb k)
abbrev sl3 (k : Fin k0_t1_loop.trips) : Rect S1x32x4x1x1 := Rect.unit (s := S1x32x4x1x1) (k0_off3 k) S1x1x4x1x1.size (k0_off3_inb k)
abbrev sl4 (k : Fin k0_t1_loop.trips) : Rect S1x32x1x1 := Rect.unit (s := S1x32x1x1) (k0_off4 k) S1x1x1x1.size (k0_off4_inb k)
abbrev sl6 (k : Fin k0_t1_loop.trips) : Rect S128x4096 := Rect.unit (s := S128x4096) (k0_off6 k) S128x128.size (k0_off6_inb k)

variable (xt : Vec F S32x32 .i32) (x0 : Vec F S1x32x4x128x16 .bf16) (x1 : Vec F S1x32x4x16x128 .bf16) (x2 x3 x4 : Vec F S1x32x4x1x1 .f32) (x5 : Vec F S1x32x1x1 .f32) (x6 : Vec F S128x4096 .f32)

/-- The tile of trip k at row block i0, from the blocks' contents: the blend, by the mask word at (i0, k), of the
    reconstructed tile and the given matrix's tile. -/
def tilePay (i0 : Fin 32) (k : Fin k0_t1_loop.trips) : FVec F S128x128 .bf16 :=
  k0_pay1 (k0_pay4 (View.ld x2 (sl3 k))) (k0_pay5 (View.ld x3 (sl3 k))) (k0_pay6 (View.ld x4 (sl3 k))) (k0_pay7 (View.ld x5 (sl4 k)))
    (xt (ix2 i0 (⟨k.val, lt_of_lt_of_eq k.isLt trips32⟩ : Fin 32)))
    (k0_pay8 (View.ld x0 (sl1 k)) (View.ld x1 (sl2 k))) (k0_pay9 (View.ld x0 (sl1 k))) (k0_pay10 (View.ld x1 (sl2 k))) (View.ld x6 (sl6 k))

/-- The mask word the trip loads is the table's entry (row block, k). -/
theorem word_eq (i : grid0.Coords) (k : Fin k0_t1_loop.trips) :
    View.readAt (Elt F) (tbM).view (Rect.unit (s := S32x32) (k0_off5 i k) S1x1.size (k0_off5_inb i k)).toLoadRect (htbM.unread xt) (Shape.Idx.first (numel1_S1x1.symm ▸ Nat.one_pos))
      = xt (ix2 (⟨(i 0).val, (i 0).isLt⟩ : Fin 32) (⟨k.val, lt_of_lt_of_eq k.isLt trips32⟩ : Fin 32)) := by
  rw [View.readAt_eq_ld, Memref.IsWhole.read_unread]
  show xt _ = xt _
  refine congrArg xt (funext fun a => Fin.ext ?_)
  have h50 : k0_off5 i k 0 = (i 0).val := congrFun (k0_off5_eq i k) 0
  have h51 : k0_off5 i k 1 = k.val := congrFun (k0_off5_eq i k) 1
  match a with
  | ⟨0, _⟩ => show k0_off5 i k 0 + 1 * 0 = (i 0).val; omega
  | ⟨1, _⟩ => show k0_off5 i k 1 + 1 * 0 = k.val; omega

/-- The trip's tile, stated over memrefs holding the blocks, is the tile of the blocks' contents. -/
theorem tripPay_eq (i : grid0.Coords) (arg2 : Memref sig .tc .vmem S1x32x4x128x16 .bf16) (harg2 : arg2.IsWhole) (arg3 : Memref sig .tc .vmem S1x32x4x16x128 .bf16) (harg3 : arg3.IsWhole) (arg4 : Memref sig .tc .vmem S1x32x4x1x1 .f32) (harg4 : arg4.IsWhole) (arg5 : Memref sig .tc .vmem S1x32x4x1x1 .f32) (harg5 : arg5.IsWhole) (arg6 : Memref sig .tc .vmem S1x32x4x1x1 .f32) (harg6 : arg6.IsWhole) (arg7 : Memref sig .tc .vmem S1x32x1x1 .f32) (harg7 : arg7.IsWhole) (arg8 : Memref sig .tc .vmem S128x4096 .f32) (harg8 : arg8.IsWhole) (k : Fin k0_t1_loop.trips) :
    tripPay i arg2 arg3 arg4 arg5 arg6 arg7 arg8 (htbM.unread xt) (harg2.unread x0) (harg3.unread x1) (harg4.unread x2) (harg5.unread x3) (harg6.unread x4) (harg7.unread x5) (harg8.unread x6) k = tilePay xt x0 x1 x2 x3 x4 x5 x6 (⟨(i 0).val, (i 0).isLt⟩ : Fin 32) k := by
  unfold tripPay tilePay
  rw [word_eq]
  simp only [View.readAt_eq_ld, Memref.IsWhole.read_unread]

theorem tilePay_congr (i0' i0 : Fin 32) (k' k : Fin k0_t1_loop.trips) (z x : S128x128.Idx) (hi : i0' = i0) (hk : k' = k) (hz : z = x) :
    tilePay xt x0 x1 x2 x3 x4 x5 x6 i0' k' z = tilePay xt x0 x1 x2 x3 x4 x5 x6 i0 k x := by subst hi hk hz; rfl
end Tile

section Array
variable (V : (c : Dev nD) → (b : Ref sig .tc) → Buf (Elt F) ((c : Thread nD τ).loc b))

/-- The grid is one axis of 32 points: point t has coordinate t. -/
theorem coords0 : ∀ t : Fin grid0.N, (grid0.coords t 0).val = t.val := by decide +kernel
/-- The output's block index at point t is (t, 0): row block t. The inputs' likewise lead with t. -/
theorem tr7 : ∀ t : Fin grid0.N, cc0_transform_7 (grid0.coords t) = ![t.val, 0] := by decide +kernel
theorem tr6 : ∀ t : Fin grid0.N, cc0_transform_6 (grid0.coords t) = ![t.val, 0] := by decide +kernel
theorem tr5 : ∀ t : Fin grid0.N, cc0_transform_5 (grid0.coords t) = ![t.val, 0, 0, 0] := by decide +kernel
theorem tr4 : ∀ t : Fin grid0.N, cc0_transform_4 (grid0.coords t) = ![t.val, 0, 0, 0, 0] := by decide +kernel
theorem tr3 : ∀ t : Fin grid0.N, cc0_transform_3 (grid0.coords t) = ![t.val, 0, 0, 0, 0] := by decide +kernel
theorem tr2 : ∀ t : Fin grid0.N, cc0_transform_2 (grid0.coords t) = ![t.val, 0, 0, 0, 0] := by decide +kernel
theorem tr1 : ∀ t : Fin grid0.N, cc0_transform_1 (grid0.coords t) = ![t.val, 0, 0, 0, 0] := by decide +kernel
theorem tr0 : ∀ t : Fin grid0.N, cc0_transform_0 (grid0.coords t) = ![t.val, 0, 0, 0, 0] := by decide +kernel
/-- Every point writes its output block back. -/
theorem flush0_7 (a : (pcfg0 (F := F)).Adm) : ∀ t : Fin (cfg0 a).N, ((cfg0 a).win 7).flush t = true :=
  (by decide +kernel : ∀ t : Fin grid0.N, Pipeline.Window.flushOf grid0 true cc0_transform_7 t = true)

/-- Block reads: window 0's block at point t is row block t of its array. -/
theorem iblk0_0_apply (c : Dev nD) (t : Fin (cfgM V).N) (k : Fin 32) (w : Fin 4) (r : Fin 128) (id : Fin 16) :
    (iblk0 V c 0 t : Vec F S1x32x4x128x16 .bf16) (ix5 (0 : Fin 1) k w r id)
      = (V c main_v1 : S32x32x4x128x16.Idx → Elt F .bf16) (ix5 (⟨t.val, t.isLt⟩ : Fin 32) k w r id) := by
  show V c main_v1 ((((cfgM V).win 0).blk t).view.emb (ix5 (0 : Fin 1) k w r id)) = _
  refine congrArg (V c main_v1) (funext fun a => Fin.ext ?_)
  have h := tr0 t
  have h0 : cc0_transform_0 (grid0.coords t) 0 = t.val := congrFun h 0
  have h1 : cc0_transform_0 (grid0.coords t) 1 = 0 := congrFun h 1
  have h2 : cc0_transform_0 (grid0.coords t) 2 = 0 := congrFun h 2
  have h3 : cc0_transform_0 (grid0.coords t) 3 = 0 := congrFun h 3
  have h4 : cc0_transform_0 (grid0.coords t) 4 = 0 := congrFun h 4
  match a with
  | ⟨0, _⟩ => show cc0_transform_0 (grid0.coords t) 0 * 1 + 1 * 0 = t.val; omega
  | ⟨1, _⟩ => show cc0_transform_0 (grid0.coords t) 1 * 32 + 1 * k.val = k.val; omega
  | ⟨2, _⟩ => show cc0_transform_0 (grid0.coords t) 2 * 4 + 1 * w.val = w.val; omega
  | ⟨3, _⟩ => show cc0_transform_0 (grid0.coords t) 3 * 128 + 1 * r.val = r.val; omega
  | ⟨4, _⟩ => show cc0_transform_0 (grid0.coords t) 4 * 16 + 1 * id.val = id.val; omega

theorem iblk0_1_apply (c : Dev nD) (t : Fin (cfgM V).N) (k : Fin 32) (w : Fin 4) (id : Fin 16) (q : Fin 128) :
    (iblk0 V c 1 t : Vec F S1x32x4x16x128 .bf16) (ix5 (0 : Fin 1) k w id q)
      = (V c main_v3 : S32x32x4x16x128.Idx → Elt F .bf16) (ix5 (⟨t.val, t.isLt⟩ : Fin 32) k w id q) := by
  show V c main_v3 ((((cfgM V).win 1).blk t).view.emb (ix5 (0 : Fin 1) k w id q)) = _
  refine congrArg (V c main_v3) (funext fun a => Fin.ext ?_)
  have h := tr1 t
  have h0 : cc0_transform_1 (grid0.coords t) 0 = t.val := congrFun h 0
  have h1 : cc0_transform_1 (grid0.coords t) 1 = 0 := congrFun h 1
  have h2 : cc0_transform_1 (grid0.coords t) 2 = 0 := congrFun h 2
  have h3 : cc0_transform_1 (grid0.coords t) 3 = 0 := congrFun h 3
  have h4 : cc0_transform_1 (grid0.coords t) 4 = 0 := congrFun h 4
  match a with
  | ⟨0, _⟩ => show cc0_transform_1 (grid0.coords t) 0 * 1 + 1 * 0 = t.val; omega
  | ⟨1, _⟩ => show cc0_transform_1 (grid0.coords t) 1 * 32 + 1 * k.val = k.val; omega
  | ⟨2, _⟩ => show cc0_transform_1 (grid0.coords t) 2 * 4 + 1 * w.val = w.val; omega
  | ⟨3, _⟩ => show cc0_transform_1 (grid0.coords t) 3 * 16 + 1 * id.val = id.val; omega
  | ⟨4, _⟩ => show cc0_transform_1 (grid0.coords t) 4 * 128 + 1 * q.val = q.val; omega

theorem iblk0_2_apply (c : Dev nD) (t : Fin (cfgM V).N) (k : Fin 32) (w : Fin 4) :
    (iblk0 V c 2 t : Vec F S1x32x4x1x1 .f32) (ix5 (0 : Fin 1) k w (0 : Fin 1) (0 : Fin 1))
      = (V c main_v4 : S32x32x4x1x1.Idx → Elt F .f32) (ix5 (⟨t.val, t.isLt⟩ : Fin 32) k w (0 : Fin 1) (0 : Fin 1)) := by
  show V c main_v4 ((((cfgM V).win 2).blk t).view.emb (ix5 (0 : Fin 1) k w (0 : Fin 1) (0 : Fin 1))) = _
  refine congrArg (V c main_v4) (funext fun a => Fin.ext ?_)
  have h := tr2 t
  have h0 : cc0_transform_2 (grid0.coords t) 0 = t.val := congrFun h 0
  have h1 : cc0_transform_2 (grid0.coords t) 1 = 0 := congrFun h 1
  have h2 : cc0_transform_2 (grid0.coords t) 2 = 0 := congrFun h 2
  have h3 : cc0_transform_2 (grid0.coords t) 3 = 0 := congrFun h 3
  have h4 : cc0_transform_2 (grid0.coords t) 4 = 0 := congrFun h 4
  match a with
  | ⟨0, _⟩ => show cc0_transform_2 (grid0.coords t) 0 * 1 + 1 * 0 = t.val; omega
  | ⟨1, _⟩ => show cc0_transform_2 (grid0.coords t) 1 * 32 + 1 * k.val = k.val; omega
  | ⟨2, _⟩ => show cc0_transform_2 (grid0.coords t) 2 * 4 + 1 * w.val = w.val; omega
  | ⟨3, _⟩ => show cc0_transform_2 (grid0.coords t) 3 * 1 + 1 * 0 = 0; omega
  | ⟨4, _⟩ => show cc0_transform_2 (grid0.coords t) 4 * 1 + 1 * 0 = 0; omega

theorem iblk0_3_apply (c : Dev nD) (t : Fin (cfgM V).N) (k : Fin 32) (w : Fin 4) :
    (iblk0 V c 3 t : Vec F S1x32x4x1x1 .f32) (ix5 (0 : Fin 1) k w (0 : Fin 1) (0 : Fin 1))
      = (V c main_v5 : S32x32x4x1x1.Idx → Elt F .f32) (ix5 (⟨t.val, t.isLt⟩ : Fin 32) k w (0 : Fin 1) (0 : Fin 1)) := by
  show V c main_v5 ((((cfgM V).win 3).blk t).view.emb (ix5 (0 : Fin 1) k w (0 : Fin 1) (0 : Fin 1))) = _
  refine congrArg (V c main_v5) (funext fun a => Fin.ext ?_)
  have h := tr3 t
  have h0 : cc0_transform_3 (grid0.coords t) 0 = t.val := congrFun h 0
  have h1 : cc0_transform_3 (grid0.coords t) 1 = 0 := congrFun h 1
  have h2 : cc0_transform_3 (grid0.coords t) 2 = 0 := congrFun h 2
  have h3 : cc0_transform_3 (grid0.coords t) 3 = 0 := congrFun h 3
  have h4 : cc0_transform_3 (grid0.coords t) 4 = 0 := congrFun h 4
  match a with
  | ⟨0, _⟩ => show cc0_transform_3 (grid0.coords t) 0 * 1 + 1 * 0 = t.val; omega
  | ⟨1, _⟩ => show cc0_transform_3 (grid0.coords t) 1 * 32 + 1 * k.val = k.val; omega
  | ⟨2, _⟩ => show cc0_transform_3 (grid0.coords t) 2 * 4 + 1 * w.val = w.val; omega
  | ⟨3, _⟩ => show cc0_transform_3 (grid0.coords t) 3 * 1 + 1 * 0 = 0; omega
  | ⟨4, _⟩ => show cc0_transform_3 (grid0.coords t) 4 * 1 + 1 * 0 = 0; omega

theorem iblk0_4_apply (c : Dev nD) (t : Fin (cfgM V).N) (k : Fin 32) (w : Fin 4) :
    (iblk0 V c 4 t : Vec F S1x32x4x1x1 .f32) (ix5 (0 : Fin 1) k w (0 : Fin 1) (0 : Fin 1))
      = (V c main_v6 : S32x32x4x1x1.Idx → Elt F .f32) (ix5 (⟨t.val, t.isLt⟩ : Fin 32) k w (0 : Fin 1) (0 : Fin 1)) := by
  show V c main_v6 ((((cfgM V).win 4).blk t).view.emb (ix5 (0 : Fin 1) k w (0 : Fin 1) (0 : Fin 1))) = _
  refine congrArg (V c main_v6) (funext fun a => Fin.ext ?_)
  have h := tr4 t
  have h0 : cc0_transform_4 (grid0.coords t) 0 = t.val := congrFun h 0
  have h1 : cc0_transform_4 (grid0.coords t) 1 = 0 := congrFun h 1
  have h2 : cc0_transform_4 (grid0.coords t) 2 = 0 := congrFun h 2
  have h3 : cc0_transform_4 (grid0.coords t) 3 = 0 := congrFun h 3
  have h4 : cc0_transform_4 (grid0.coords t) 4 = 0 := congrFun h 4
  match a with
  | ⟨0, _⟩ => show cc0_transform_4 (grid0.coords t) 0 * 1 + 1 * 0 = t.val; omega
  | ⟨1, _⟩ => show cc0_transform_4 (grid0.coords t) 1 * 32 + 1 * k.val = k.val; omega
  | ⟨2, _⟩ => show cc0_transform_4 (grid0.coords t) 2 * 4 + 1 * w.val = w.val; omega
  | ⟨3, _⟩ => show cc0_transform_4 (grid0.coords t) 3 * 1 + 1 * 0 = 0; omega
  | ⟨4, _⟩ => show cc0_transform_4 (grid0.coords t) 4 * 1 + 1 * 0 = 0; omega

theorem iblk0_5_apply (c : Dev nD) (t : Fin (cfgM V).N) (k : Fin 32) :
    (iblk0 V c 5 t : Vec F S1x32x1x1 .f32) (ix4 (0 : Fin 1) k (0 : Fin 1) (0 : Fin 1))
      = (V c main_arg6 : S32x32x1x1.Idx → Elt F .f32) (ix4 (⟨t.val, t.isLt⟩ : Fin 32) k (0 : Fin 1) (0 : Fin 1)) := by
  show V c main_arg6 ((((cfgM V).win 5).blk t).view.emb (ix4 (0 : Fin 1) k (0 : Fin 1) (0 : Fin 1))) = _
  refine congrArg (V c main_arg6) (funext fun a => Fin.ext ?_)
  have h := tr5 t
  have h0 : cc0_transform_5 (grid0.coords t) 0 = t.val := congrFun h 0
  have h1 : cc0_transform_5 (grid0.coords t) 1 = 0 := congrFun h 1
  have h2 : cc0_transform_5 (grid0.coords t) 2 = 0 := congrFun h 2
  have h3 : cc0_transform_5 (grid0.coords t) 3 = 0 := congrFun h 3
  match a with
  | ⟨0, _⟩ => show cc0_transform_5 (grid0.coords t) 0 * 1 + 1 * 0 = t.val; omega
  | ⟨1, _⟩ => show cc0_transform_5 (grid0.coords t) 1 * 32 + 1 * k.val = k.val; omega
  | ⟨2, _⟩ => show cc0_transform_5 (grid0.coords t) 2 * 1 + 1 * 0 = 0; omega
  | ⟨3, _⟩ => show cc0_transform_5 (grid0.coords t) 3 * 1 + 1 * 0 = 0; omega

theorem iblk0_6_apply (c : Dev nD) (t : Fin (cfgM V).N) (r : Fin 128) (q' : Fin 4096) :
    (iblk0 V c 6 t : Vec F S128x4096 .f32) (ix2 r q')
      = (V c main_arg7 : S4096x4096.Idx → Elt F .f32) (ix2 (⟨128 * t.val + r.val, by have := t.isLt; have h32 : (cfgM V).N = 32 := N_0; omega⟩ : Fin 4096) q') := by
  show V c main_arg7 ((((cfgM V).win 6).blk t).view.emb (ix2 r q')) = _
  refine congrArg (V c main_arg7) (funext fun a => Fin.ext ?_)
  have h := tr6 t
  have h0 : cc0_transform_6 (grid0.coords t) 0 = t.val := congrFun h 0
  have h1 : cc0_transform_6 (grid0.coords t) 1 = 0 := congrFun h 1
  match a with
  | ⟨0, _⟩ => show cc0_transform_6 (grid0.coords t) 0 * 128 + 1 * r.val = 128 * t.val + r.val; omega
  | ⟨1, _⟩ => show cc0_transform_6 (grid0.coords t) 1 * 4096 + 1 * q'.val = q'.val; omega

/-- The array the stage leaves, as one function of the arrays it reads (as it finds them): entry (j, k) is entry (j % 128, k % 128)
    of the tile of column block k / 128 at row block j / 128. -/
def Wgen (c : Dev nD) (p : S4096x4096.Idx) : Elt F .bf16 :=
  tilePay (tbl0 V 0) (iblk0 V c 0 ⟨(p 0).val / 128, by have h : (p 0).val < 4096 := (p 0).isLt; have h32 : (cfgM V).N = 32 := N_0; omega⟩)
    (iblk0 V c 1 ⟨(p 0).val / 128, by have h : (p 0).val < 4096 := (p 0).isLt; have h32 : (cfgM V).N = 32 := N_0; omega⟩)
    (iblk0 V c 2 ⟨(p 0).val / 128, by have h : (p 0).val < 4096 := (p 0).isLt; have h32 : (cfgM V).N = 32 := N_0; omega⟩)
    (iblk0 V c 3 ⟨(p 0).val / 128, by have h : (p 0).val < 4096 := (p 0).isLt; have h32 : (cfgM V).N = 32 := N_0; omega⟩)
    (iblk0 V c 4 ⟨(p 0).val / 128, by have h : (p 0).val < 4096 := (p 0).isLt; have h32 : (cfgM V).N = 32 := N_0; omega⟩)
    (iblk0 V c 5 ⟨(p 0).val / 128, by have h : (p 0).val < 4096 := (p 0).isLt; have h32 : (cfgM V).N = 32 := N_0; omega⟩)
    (iblk0 V c 6 ⟨(p 0).val / 128, by have h : (p 0).val < 4096 := (p 0).isLt; have h32 : (cfgM V).N = 32 := N_0; omega⟩)
    (⟨(p 0).val / 128, by have h : (p 0).val < 4096 := (p 0).isLt; omega⟩ : Fin 32)
    ⟨(p 1).val / 128, by rw [trips32]; have h : (p 1).val < 4096 := (p 1).isLt; omega⟩
    (ix2 (⟨(p 0).val % 128, Nat.mod_lt _ (by norm_num)⟩ : Fin 128) (⟨(p 1).val % 128, Nat.mod_lt _ (by norm_num)⟩ : Fin 128))

/-- The same with the point named: for p in row block t. -/
theorem Wgen_at (c : Dev nD) (t : Fin (cfgM V).N) (p : S4096x4096.Idx) (ht : (p 0).val / 128 = t.val) :
    Wgen V c p = tilePay (tbl0 V 0) (iblk0 V c 0 t) (iblk0 V c 1 t) (iblk0 V c 2 t) (iblk0 V c 3 t) (iblk0 V c 4 t) (iblk0 V c 5 t) (iblk0 V c 6 t)
      (⟨t.val, lt_of_lt_of_eq t.isLt N_0⟩ : Fin 32) ⟨(p 1).val / 128, by rw [trips32]; have h : (p 1).val < 4096 := (p 1).isLt; omega⟩
      (ix2 (⟨(p 0).val % 128, Nat.mod_lt _ (by norm_num)⟩ : Fin 128) (⟨(p 1).val % 128, Nat.mod_lt _ (by norm_num)⟩ : Fin 128)) := by
  unfold Wgen
  obtain ⟨tv, htv⟩ := t
  subst ht
  rfl

/-- For p = (128 t + j0, j1), the function at p is what point t leaves at (j0, j1) of its output block. -/
theorem Wgen_blk (c : Dev nD) (t : Fin (cfgM V).N) (j : S128x4096.Idx) (p : S4096x4096.Idx)
    (h0 : (p 0).val = 128 * t.val + (j 0).val) (h1 : (p 1).val = (j 1).val) :
    Wgen V c p = outsAt0 V c t j := by
  have hj0 : (j 0).val < 128 := (j 0).isLt
  have hj1 : (j 1).val < 4096 := (j 1).isLt
  rw [Wgen_at V c t p (by omega)]
  unfold outsAt0
  refine ((out0_7_apply c (grid0.coords t) _ _ _ _ _ _ _ _ _ _ _ _ _ _ _ _ _ _ _ _ _ _ _ _ j).trans ?_).symm
  unfold blockFun
  refine (congrFun (tripPay_eq (F := F) _ _ _ _ _ _ _ _ _ _ _ _ _ _ _ _ _ _ _ _ _ _ _ _) _).trans ?_
  refine tilePay_congr (F := F) _ _ _ _ _ _ _ _ _ _ _ _ _ _ (Fin.ext (coords0 t)) (Fin.ext ?_) (funext fun a => Fin.ext ?_)
  · show (j 1).val / 128 = (p 1).val / 128
    rw [h1]
  · match a with
    | ⟨0, _⟩ => show (j 0).val = (p 0).val % 128; omega
    | ⟨1, _⟩ => show (j 1).val % 128 = (p 1).val % 128; rw [h1]

/-- WHAT POINT t WRITES BACK is block t of that function. -/
theorem flushed0_7 (c : Dev nD) (t : Fin (cfgM V).N) :
    (dat0 V c).flushed 7 t = (((cfgM V).win 7).blk t).view.read (Elt F) (Wgen V c) := by
  show ((cfgM V).win 7).cut ((cfgM V).grid.coords t) ((dat0 V c).after 7 t) = _
  rw [after0_7]
  refine funext fun (j : S128x4096.Idx) => ?_
  have h := tr7 t
  have h0 : cc0_transform_7 (grid0.coords t) 0 = t.val := congrFun h 0
  have h1 : cc0_transform_7 (grid0.coords t) 1 = 0 := congrFun h 1
  exact (Wgen_blk V c t j _ (by show cc0_transform_7 (grid0.coords t) 0 * 128 + 1 * (j 0).val = 128 * t.val + (j 0).val; omega)
    (by show cc0_transform_7 (grid0.coords t) 1 * 4096 + 1 * (j 1).val = (j 1).val; omega)).symm

/-- An index of the array whose row is in row block t is in point t's output block. -/
theorem mem_blk7 (t : Fin (cfgM V).N) (p : S4096x4096.Idx) (ht : (p 0).val / 128 = t.val) :
    p ∈ (((cfgM V).win 7).blk t).view.set := by
  have hp0 : (p 0).val < 4096 := (p 0).isLt
  have hp1 : (p 1).val < 4096 := (p 1).isLt
  have h := tr7 t
  have h0 : cc0_transform_7 (grid0.coords t) 0 = t.val := congrFun h 0
  have h1 : cc0_transform_7 (grid0.coords t) 1 = 0 := congrFun h 1
  have he : @Eq S4096x4096.Idx ((((cfgM V).win 7).blk t).view.emb (ix2 (⟨(p 0).val % 128, Nat.mod_lt _ (by norm_num)⟩ : Fin 128) (⟨(p 1).val, hp1⟩ : Fin 4096))) p :=
    funext fun a => Fin.ext (by
      match a with
      | ⟨0, _⟩ => show cc0_transform_7 (grid0.coords t) 0 * 128 + 1 * ((p 0).val % 128) = (p 0).val; omega
      | ⟨1, _⟩ => show cc0_transform_7 (grid0.coords t) 1 * 4096 + 1 * (p 1).val = (p 1).val; omega)
  have hm := View.emb_mem_set (((cfgM V).win 7).blk t).view (ix2 (⟨(p 0).val % 128, Nat.mod_lt _ (by norm_num)⟩ : Fin 128) (⟨(p 1).val, hp1⟩ : Fin 4096))
  exact he ▸ hm

/-- THE ARRAY after the stage: that function, everywhere (the 32 row blocks tile the array). -/
theorem final0 (c : Dev nD) : (dat0 V c).arrAt 7 (cfgM V).N = Wgen V c := by
  refine (dat0 V c).arrAt_eq_of_cover 7 (Wgen V c) (fun t _ => flushed0_7 V c t) fun (p : S4096x4096.Idx) => ?_
  have hp0 : (p 0).val < 4096 := (p 0).isLt
  have h32 : (cfgM V).N = 32 := N_0
  obtain ⟨tp, htp⟩ : ∃ tp : Fin (cfgM V).N, (p 0).val / 128 = tp.val := ⟨⟨(p 0).val / 128, by omega⟩, rfl⟩
  exact ⟨tp, flush0_7 (adm0 V) tp, mem_blk7 V tp p htp⟩
end Array

end Cert.KernelIdeal.Frm

end
-- ==== Proof.WeightAt.lean ====
/-
  The weight stage's output array, read at an index.

  One loop trip K of row block R stores the 128 x 128 tile (R, K): where the mask word of (R, K) is zero, the given
  matrix's entries; elsewhere the sum over the four factors of a * (y z) + b * (row sum of y) + c * (column sum of z), plus d,
  all read from the K-th slices of row block R's blocks. Read through the blocks' positions in their arrays, entry (j, k)
  of the output array is that expression at tile (j / 128, k / 128) and position (j % 128, k % 128).
-/
import proofs.«148910_j25589415149865_1_alg».proof.Proof.WeightValue
import proofs.«148910_j25589415149865_1_alg».proof.Proof.PayloadsAt

set_option maxRecDepth 16384

noncomputable section

open scoped BigOperators

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The slices of trip K, as index maps -/

section Slices
variable (k : Fin k0_t1_loop.trips) (K : Fin 32) (hK : K.val = k.val)
include hK

/-- The y slice of trip K: entry K along the column-block axis. -/
theorem sl1_idx (w : Fin 4) (r : Fin 128) (id : Fin 16) :
    (sl1 k).idx (ix5 (0 : Fin 1) (0 : Fin 1) w r id) = ix5 (0 : Fin 1) K w r id := by
  have h0 : k0_off1 k 0 = 0 := congrFun (k0_off1_eq k) 0
  have h1 : k0_off1 k 1 = k.val := congrFun (k0_off1_eq k) 1
  have h2 : k0_off1 k 2 = 0 := congrFun (k0_off1_eq k) 2
  have h3 : k0_off1 k 3 = 0 := congrFun (k0_off1_eq k) 3
  have h4 : k0_off1 k 4 = 0 := congrFun (k0_off1_eq k) 4
  funext a
  refine Fin.ext ?_
  match a with
  | ⟨0, _⟩ => show k0_off1 k 0 + 1 * 0 = 0; omega
  | ⟨1, _⟩ => show k0_off1 k 1 + 1 * 0 = K.val; omega
  | ⟨2, _⟩ => show k0_off1 k 2 + 1 * w.val = w.val; omega
  | ⟨3, _⟩ => show k0_off1 k 3 + 1 * r.val = r.val; omega
  | ⟨4, _⟩ => show k0_off1 k 4 + 1 * id.val = id.val; omega

/-- The z slice of trip K. -/
theorem sl2_idx (w : Fin 4) (id : Fin 16) (q : Fin 128) :
    (sl2 k).idx (ix5 (0 : Fin 1) (0 : Fin 1) w id q) = ix5 (0 : Fin 1) K w id q := by
  have h0 : k0_off2 k 0 = 0 := congrFun (k0_off2_eq k) 0
  have h1 : k0_off2 k 1 = k.val := congrFun (k0_off2_eq k) 1
  have h2 : k0_off2 k 2 = 0 := congrFun (k0_off2_eq k) 2
  have h3 : k0_off2 k 3 = 0 := congrFun (k0_off2_eq k) 3
  have h4 : k0_off2 k 4 = 0 := congrFun (k0_off2_eq k) 4
  funext a
  refine Fin.ext ?_
  match a with
  | ⟨0, _⟩ => show k0_off2 k 0 + 1 * 0 = 0; omega
  | ⟨1, _⟩ => show k0_off2 k 1 + 1 * 0 = K.val; omega
  | ⟨2, _⟩ => show k0_off2 k 2 + 1 * w.val = w.val; omega
  | ⟨3, _⟩ => show k0_off2 k 3 + 1 * id.val = id.val; omega
  | ⟨4, _⟩ => show k0_off2 k 4 + 1 * q.val = q.val; omega

/-- The scalar slices of trip K. -/
theorem sl3_idx (w : Fin 4) :
    (sl3 k).idx (ix5 (0 : Fin 1) (0 : Fin 1) w (0 : Fin 1) (0 : Fin 1)) = ix5 (0 : Fin 1) K w (0 : Fin 1) (0 : Fin 1) := by
  have h0 : k0_off3 k 0 = 0 := congrFun (k0_off3_eq k) 0
  have h1 : k0_off3 k 1 = k.val := congrFun (k0_off3_eq k) 1
  have h2 : k0_off3 k 2 = 0 := congrFun (k0_off3_eq k) 2
  have h3 : k0_off3 k 3 = 0 := congrFun (k0_off3_eq k) 3
  have h4 : k0_off3 k 4 = 0 := congrFun (k0_off3_eq k) 4
  funext a
  refine Fin.ext ?_
  match a with
  | ⟨0, _⟩ => show k0_off3 k 0 + 1 * 0 = 0; omega
  | ⟨1, _⟩ => show k0_off3 k 1 + 1 * 0 = K.val; omega
  | ⟨2, _⟩ => show k0_off3 k 2 + 1 * w.val = w.val; omega
  | ⟨3, _⟩ => show k0_off3 k 3 + 1 * 0 = 0; omega
  | ⟨4, _⟩ => show k0_off3 k 4 + 1 * 0 = 0; omega

/-- The additive constant's slice of trip K. -/
theorem sl4_idx :
    (sl4 k).idx (ix4 (0 : Fin 1) (0 : Fin 1) (0 : Fin 1) (0 : Fin 1)) = ix4 (0 : Fin 1) K (0 : Fin 1) (0 : Fin 1) := by
  have h0 : k0_off4 k 0 = 0 := congrFun (k0_off4_eq k) 0
  have h1 : k0_off4 k 1 = k.val := congrFun (k0_off4_eq k) 1
  have h2 : k0_off4 k 2 = 0 := congrFun (k0_off4_eq k) 2
  have h3 : k0_off4 k 3 = 0 := congrFun (k0_off4_eq k) 3
  funext a
  refine Fin.ext ?_
  match a with
  | ⟨0, _⟩ => show k0_off4 k 0 + 1 * 0 = 0; omega
  | ⟨1, _⟩ => show k0_off4 k 1 + 1 * 0 = K.val; omega
  | ⟨2, _⟩ => show k0_off4 k 2 + 1 * 0 = 0; omega
  | ⟨3, _⟩ => show k0_off4 k 3 + 1 * 0 = 0; omega

/-- The given matrix's slice of trip K: columns 128 K onward. -/
theorem sl6_idx (r q : Fin 128) :
    (sl6 k).idx (ix2 r q) = ix2 r (⟨128 * K.val + q.val, by omega⟩ : Fin 4096) := by
  have h0 : k0_off6 k 0 = 0 := congrFun (k0_off6_eq k) 0
  have h1 : k0_off6 k 1 = 128 * k.val := congrFun (k0_off6_eq k) 1
  funext a
  refine Fin.ext ?_
  match a with
  | ⟨0, _⟩ => show k0_off6 k 0 + 1 * r.val = r.val; omega
  | ⟨1, _⟩ => show k0_off6 k 1 + 1 * q.val = 128 * K.val + q.val; omega

end Slices

/-! ## One trip's tile -/

theorem tilePay_apply (xt : Vec Ideal S32x32 .i32) (x0 : Vec Ideal S1x32x4x128x16 .bf16) (x1 : Vec Ideal S1x32x4x16x128 .bf16) (x2 x3 x4 : Vec Ideal S1x32x4x1x1 .f32) (x5 : Vec Ideal S1x32x1x1 .f32) (x6 : Vec Ideal S128x4096 .f32) (i0 : Fin 32) (k : Fin k0_t1_loop.trips) (K : Fin 32) (hK : K.val = k.val) (r q : Fin 128) :
    tilePay (F := Ideal) xt x0 x1 x2 x3 x4 x5 x6 i0 k (ix2 r q)
      = if xt (ix2 i0 K) = 0#32 then x6 (ix2 r (⟨128 * K.val + q.val, by omega⟩ : Fin 4096))
        else (∑ w : Fin 4, ((x2 (ix5 (0 : Fin 1) K w (0 : Fin 1) (0 : Fin 1)) * (∑ id : Fin 16, x0 (ix5 (0 : Fin 1) K w r id) * x1 (ix5 (0 : Fin 1) K w id q))
              + x3 (ix5 (0 : Fin 1) K w (0 : Fin 1) (0 : Fin 1)) * (∑ id : Fin 16, x0 (ix5 (0 : Fin 1) K w r id)))
              + x4 (ix5 (0 : Fin 1) K w (0 : Fin 1) (0 : Fin 1)) * (∑ id : Fin 16, x1 (ix5 (0 : Fin 1) K w id q))))
            + x5 (ix4 (0 : Fin 1) K (0 : Fin 1) (0 : Fin 1)) := by
  unfold tilePay
  refine (PayAt.tile_pay (View.ld x0 (sl1 k)) (View.ld x1 (sl2 k)) (View.ld x2 (sl3 k)) (View.ld x3 (sl3 k)) (View.ld x4 (sl3 k)) (View.ld x5 (sl4 k)) _ (View.ld x6 (sl6 k)) r q).trans ?_
  have hKk : (⟨k.val, lt_of_lt_of_eq k.isLt trips32⟩ : Fin 32) = K := Fin.ext hK.symm
  have hx0 : ∀ (w : Fin 4) (r : Fin 128) (id : Fin 16), View.ld x0 (sl1 k) (ix5 (0 : Fin 1) (0 : Fin 1) w r id) = x0 (ix5 (0 : Fin 1) K w r id) :=
    fun w r id => congrArg x0 (sl1_idx k K hK w r id)
  have hx1 : ∀ (w : Fin 4) (id : Fin 16) (q : Fin 128), View.ld x1 (sl2 k) (ix5 (0 : Fin 1) (0 : Fin 1) w id q) = x1 (ix5 (0 : Fin 1) K w id q) :=
    fun w id q => congrArg x1 (sl2_idx k K hK w id q)
  have hx2 : ∀ (w : Fin 4), View.ld x2 (sl3 k) (ix5 (0 : Fin 1) (0 : Fin 1) w (0 : Fin 1) (0 : Fin 1)) = x2 (ix5 (0 : Fin 1) K w (0 : Fin 1) (0 : Fin 1)) :=
    fun w => congrArg x2 (sl3_idx k K hK w)
  have hx3 : ∀ (w : Fin 4), View.ld x3 (sl3 k) (ix5 (0 : Fin 1) (0 : Fin 1) w (0 : Fin 1) (0 : Fin 1)) = x3 (ix5 (0 : Fin 1) K w (0 : Fin 1) (0 : Fin 1)) :=
    fun w => congrArg x3 (sl3_idx k K hK w)
  have hx4 : ∀ (w : Fin 4), View.ld x4 (sl3 k) (ix5 (0 : Fin 1) (0 : Fin 1) w (0 : Fin 1) (0 : Fin 1)) = x4 (ix5 (0 : Fin 1) K w (0 : Fin 1) (0 : Fin 1)) :=
    fun w => congrArg x4 (sl3_idx k K hK w)
  have hx5 : View.ld x5 (sl4 k) (ix4 (0 : Fin 1) (0 : Fin 1) (0 : Fin 1) (0 : Fin 1)) = x5 (ix4 (0 : Fin 1) K (0 : Fin 1) (0 : Fin 1)) :=
    congrArg x5 (sl4_idx k K hK)
  have hx6 : View.ld x6 (sl6 k) (ix2 r q) = x6 (ix2 r (⟨128 * K.val + q.val, by omega⟩ : Fin 4096)) :=
    congrArg x6 (sl6_idx k K hK r q)
  rw [hKk, hx5, hx6]
  simp only [hx0, hx1, hx2, hx3, hx4]

/-! ## The whole array -/

/-- The stage's result at (j, k) as an expression in the arrays it reads (the mask words `msk`, the given matrix `fw`, the
    scalars `A B C` and `D`, the factor arrays `Y Z`): with R = j / 128, Q = k / 128, r = j % 128, q = k % 128, the given
    matrix's entry where the mask word of tile (R, Q) is zero, and otherwise the sum over the four factors of
    A * (Y Z) + B * (row sum of Y) + C * (column sum of Z), plus D. -/
def weightAt (msk : S32x32.Idx → BitVec 32) (fw : S4096x4096.Idx → EReal) (A B C : S32x32x4x1x1.Idx → EReal)
    (Y : S32x32x4x128x16.Idx → EReal) (Z : S32x32x4x16x128.Idx → EReal) (D : S32x32x1x1.Idx → EReal) (j k : Fin 4096) : EReal :=
  if msk (ix2 (⟨j.val / 128, by omega⟩ : Fin 32) (⟨k.val / 128, by omega⟩ : Fin 32)) = 0#32 then fw (ix2 j k)
  else (∑ w : Fin 4, ((A (ix5 (⟨j.val / 128, by omega⟩ : Fin 32) (⟨k.val / 128, by omega⟩ : Fin 32) w (0 : Fin 1) (0 : Fin 1)) * (∑ id : Fin 16, Y (ix5 (⟨j.val / 128, by omega⟩ : Fin 32) (⟨k.val / 128, by omega⟩ : Fin 32) w (⟨j.val % 128, by omega⟩ : Fin 128) id) * Z (ix5 (⟨j.val / 128, by omega⟩ : Fin 32) (⟨k.val / 128, by omega⟩ : Fin 32) w id (⟨k.val % 128, by omega⟩ : Fin 128)))
        + B (ix5 (⟨j.val / 128, by omega⟩ : Fin 32) (⟨k.val / 128, by omega⟩ : Fin 32) w (0 : Fin 1) (0 : Fin 1)) * (∑ id : Fin 16, Y (ix5 (⟨j.val / 128, by omega⟩ : Fin 32) (⟨k.val / 128, by omega⟩ : Fin 32) w (⟨j.val % 128, by omega⟩ : Fin 128) id)))
        + C (ix5 (⟨j.val / 128, by omega⟩ : Fin 32) (⟨k.val / 128, by omega⟩ : Fin 32) w (0 : Fin 1) (0 : Fin 1)) * (∑ id : Fin 16, Z (ix5 (⟨j.val / 128, by omega⟩ : Fin 32) (⟨k.val / 128, by omega⟩ : Fin 32) w id (⟨k.val % 128, by omega⟩ : Fin 128)))))
      + D (ix4 (⟨j.val / 128, by omega⟩ : Fin 32) (⟨k.val / 128, by omega⟩ : Fin 32) (0 : Fin 1) (0 : Fin 1))

/-- The output array at (j, k) is that expression in the mask table and the arrays as the stage finds them. -/
theorem Wgen_apply (V : (c : Dev nD) → (b : Ref sig .tc) → Buf (Elt Ideal) ((c : Thread nD τ).loc b)) (c : Dev nD) (j k : Fin 4096) :
    Wgen (F := Ideal) V c (ix2 j k)
      = weightAt (tbl0 V 0) (V c main_arg7) (V c main_v4) (V c main_v5) (V c main_v6) (V c main_v1) (V c main_v3) (V c main_arg6) j k := by
  have h32 : (cfgM V).N = 32 := N_0
  have hj := j.isLt
  have hk := k.isLt
  obtain ⟨t, ht⟩ : ∃ t : Fin (cfgM V).N, t.val = j.val / 128 := ⟨⟨j.val / 128, by omega⟩, rfl⟩
  refine (Wgen_at V c t (ix2 j k) ht.symm).trans ?_
  refine (tilePay_apply (tbl0 V 0) (iblk0 V c 0 t) (iblk0 V c 1 t) (iblk0 V c 2 t) (iblk0 V c 3 t) (iblk0 V c 4 t) (iblk0 V c 5 t) (iblk0 V c 6 t)
    (⟨t.val, lt_of_lt_of_eq t.isLt N_0⟩ : Fin 32) ⟨k.val / 128, by rw [trips32]; omega⟩ (⟨k.val / 128, by omega⟩ : Fin 32) rfl
    (⟨j.val % 128, by omega⟩ : Fin 128) (⟨k.val % 128, by omega⟩ : Fin 128)).trans ?_
  have hR : (⟨t.val, lt_of_lt_of_eq t.isLt N_0⟩ : Fin 32) = (⟨j.val / 128, by omega⟩ : Fin 32) := Fin.ext ht
  have hjk : (ix2 (⟨128 * t.val + (⟨j.val % 128, by omega⟩ : Fin 128).val, by have := t.isLt; omega⟩ : Fin 4096)
      (⟨128 * (⟨k.val / 128, by omega⟩ : Fin 32).val + (⟨k.val % 128, by omega⟩ : Fin 128).val, by omega⟩ : Fin 4096) : S4096x4096.Idx) = ix2 j k :=
    funext fun a => Fin.ext (by
      match a with
      | ⟨0, _⟩ => show 128 * t.val + j.val % 128 = j.val; omega
      | ⟨1, _⟩ => show 128 * (k.val / 128) + k.val % 128 = k.val; omega)
  unfold weightAt
  simp only [iblk0_0_apply, iblk0_1_apply, iblk0_2_apply, iblk0_3_apply, iblk0_4_apply, iblk0_5_apply, iblk0_6_apply]
  rw [hjk, hR]

end Cert.KernelIdeal.Frm

end
-- ==== Proof.HostPrefix.lean ====
/-
  The buffers' contents when the first stage is entered, read at an index.

  Before the first stage the host transposes the factor tensors and their scalars from [4, 32, 32, ..] to [32, 32, 4, ..],
  converts the two bit tensors to numbers, and widens the mask bits to 32-bit words. So at entry the converted y at
  (R, Q, w, r, k) is the bit y[w, R, Q, r, k] read as a number, likewise z and the scalars a, b, c; the widened mask
  word of tile (R, Q) is zero exactly when the mask bit is not set; and the buffers no host operation writes are as
  launched.
-/
import proofs.«148910_j25589415149865_1_alg».proof.Proof.TwoStageRun
import Idealize.ShloMosaic.Lib.Pipeline.Value
import Idealize.ShloMosaic.Lib.ValueIdx
import Idealize.ShloMosaic.Lib.StableHlo.Run
import Idealize.ShloMosaic.PureOps.Ideal

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- A rank-5 array with its first axis moved behind the next two reads, at `(i1, i2, i0, i3, i4)`, the operand at
    `(i0, i1, i2, i3, i4)`. -/
theorem transpose_12034_apply {α : Type} {a b c d e : ℕ} (x : (⟨5, ![a, b, c, d, e]⟩ : Shape).Idx → α)
    (h : (⟨5, ![a, b, c, d, e]⟩ : Shape).Transposes [1, 2, 0, 3, 4] ⟨5, ![b, c, a, d, e]⟩)
    (i1 : Fin b) (i2 : Fin c) (i0 : Fin a) (i3 : Fin d) (i4 : Fin e) :
    transpose ⟨5, ![b, c, a, d, e]⟩ [1, 2, 0, 3, 4] x h (ix5 i1 i2 i0 i3 i4) = x (ix5 i0 i1 i2 i3 i4) :=
  transpose_apply _ x h _ _ fun t => match t with
    | ⟨0, _⟩ => rfl | ⟨1, _⟩ => rfl | ⟨2, _⟩ => rfl | ⟨3, _⟩ => rfl | ⟨4, _⟩ => rfl

variable (m : (ℓ : Loc nD τ sig) → Buf (Elt Ideal) ℓ) (c : Dev nD) (R Q : Fin 32) (w : Fin 4) (r q : Fin 128) (k : Fin 16)

/-- The converted y at entry. -/
theorem entry_v1 : E1 m c main_v1 (ix5 R Q w r k) = (((m ((c : Thread nD τ).loc main_arg1) (ix5 w R Q r k)).toNat : ℝ) : EReal) := by
  have e : @Eq (S32x32x4x128x16.Idx → EReal) (E1 m c main_v1) (uitofp (F := Ideal) .bf16 (transpose S32x32x4x128x16 [1, 2, 0, 3, 4] (m ((c : Thread nD τ).loc main_arg1)) transposes_S4x32x32x128x16_S32x32x4x128x16_1_2_0_3_4)) := by
    show StableHlo.after hostOps0 _ (Proc.devRef .tc main_v1) = _
    dsimp only [hostOps0]
    after_results
  refine (congrFun e (ix5 R Q w r k)).trans ?_
  show (((transpose S32x32x4x128x16 [1, 2, 0, 3, 4] (m ((c : Thread nD τ).loc main_arg1)) transposes_S4x32x32x128x16_S32x32x4x128x16_1_2_0_3_4 (ix5 R Q w r k)).toNat : ℝ) : EReal) = _
  rw [transpose_12034_apply]

/-- The converted z at entry. -/
theorem entry_v3 : E1 m c main_v3 (ix5 R Q w k q) = (((m ((c : Thread nD τ).loc main_arg2) (ix5 w R Q k q)).toNat : ℝ) : EReal) := by
  have e : @Eq (S32x32x4x16x128.Idx → EReal) (E1 m c main_v3) (uitofp (F := Ideal) .bf16 (transpose S32x32x4x16x128 [1, 2, 0, 3, 4] (m ((c : Thread nD τ).loc main_arg2)) transposes_S4x32x32x16x128_S32x32x4x16x128_1_2_0_3_4)) := by
    show StableHlo.after hostOps0 _ (Proc.devRef .tc main_v3) = _
    dsimp only [hostOps0]
    after_results
  refine (congrFun e (ix5 R Q w k q)).trans ?_
  show (((transpose S32x32x4x16x128 [1, 2, 0, 3, 4] (m ((c : Thread nD τ).loc main_arg2)) transposes_S4x32x32x16x128_S32x32x4x16x128_1_2_0_3_4 (ix5 R Q w k q)).toNat : ℝ) : EReal) = _
  rw [transpose_12034_apply]

/-- The scalars a at entry. -/
theorem entry_v4 : E1 m c main_v4 (ix5 R Q w (0 : Fin 1) (0 : Fin 1)) = m ((c : Thread nD τ).loc main_arg3) (ix5 w R Q (0 : Fin 1) (0 : Fin 1)) := by
  have e : @Eq (S32x32x4x1x1.Idx → EReal) (E1 m c main_v4) (transpose S32x32x4x1x1 [1, 2, 0, 3, 4] (m ((c : Thread nD τ).loc main_arg3)) transposes_S4x32x32x1x1_S32x32x4x1x1_1_2_0_3_4) := by
    show StableHlo.after hostOps0 _ (Proc.devRef .tc main_v4) = _
    dsimp only [hostOps0]
    after_results
  refine (congrFun e (ix5 R Q w (0 : Fin 1) (0 : Fin 1))).trans ?_
  exact transpose_12034_apply _ _ R Q w 0 0

/-- The scalars b at entry. -/
theorem entry_v5 : E1 m c main_v5 (ix5 R Q w (0 : Fin 1) (0 : Fin 1)) = m ((c : Thread nD τ).loc main_arg4) (ix5 w R Q (0 : Fin 1) (0 : Fin 1)) := by
  have e : @Eq (S32x32x4x1x1.Idx → EReal) (E1 m c main_v5) (transpose S32x32x4x1x1 [1, 2, 0, 3, 4] (m ((c : Thread nD τ).loc main_arg4)) transposes_S4x32x32x1x1_S32x32x4x1x1_1_2_0_3_4) := by
    show StableHlo.after hostOps0 _ (Proc.devRef .tc main_v5) = _
    dsimp only [hostOps0]
    after_results
  refine (congrFun e (ix5 R Q w (0 : Fin 1) (0 : Fin 1))).trans ?_
  exact transpose_12034_apply _ _ R Q w 0 0

/-- The scalars c at entry. -/
theorem entry_v6 : E1 m c main_v6 (ix5 R Q w (0 : Fin 1) (0 : Fin 1)) = m ((c : Thread nD τ).loc main_arg5) (ix5 w R Q (0 : Fin 1) (0 : Fin 1)) := by
  have e : @Eq (S32x32x4x1x1.Idx → EReal) (E1 m c main_v6) (transpose S32x32x4x1x1 [1, 2, 0, 3, 4] (m ((c : Thread nD τ).loc main_arg5)) transposes_S4x32x32x1x1_S32x32x4x1x1_1_2_0_3_4) := by
    show StableHlo.after hostOps0 _ (Proc.devRef .tc main_v6) = _
    dsimp only [hostOps0]
    after_results
  refine (congrFun e (ix5 R Q w (0 : Fin 1) (0 : Fin 1))).trans ?_
  exact transpose_12034_apply _ _ R Q w 0 0

/-- A one-bit word widened to 32 bits is zero exactly when the bit is not set. -/
theorem setWidth_bit_eq_zero (b : BitVec 1) : b.setWidth 32 = 0#32 ↔ b ≠ 1#1 := by
  rcases BitVec.eq_zero_or_eq_one b with h | h
  · subst h; decide
  · subst h; decide

/-- The widened mask word of tile (R, Q) at entry is zero exactly when the mask bit is not set. -/
theorem entry_v7_zero : E1 m c main_v7 (ix2 R Q) = 0#32 ↔ m ((c : Thread nD τ).loc main_arg9) (ix2 R Q) ≠ 1#1 := by
  have e : @Eq (S32x32.Idx → BitVec 32) (E1 m c main_v7) (extui 32 (m ((c : Thread nD τ).loc main_arg9)) natLt_1_32) := by
    show StableHlo.after hostOps0 _ (Proc.devRef .tc main_v7) = _
    dsimp only [hostOps0]
    after_results
  rw [show E1 m c main_v7 (ix2 R Q) = (m ((c : Thread nD τ).loc main_arg9) (ix2 R Q)).setWidth 32 from congrFun e (ix2 R Q)]
  exact setWidth_bit_eq_zero _

/-- The given matrix is as launched. -/
theorem entry_arg6 : E1 m c main_arg6 = m ((c : Thread nD τ).loc main_arg6) :=
  V1_of m c main_arg6 (by decide)

/-- The weight matrix's buffer is as launched. -/
theorem entry_arg7 : E1 m c main_arg7 = m ((c : Thread nD τ).loc main_arg7) :=
  V1_of m c main_arg7 (by decide)

end Cert.KernelIdeal.Frm

end
-- ==== Proof.Spec.lean ====
/-
  The function both programs compute, at the exact instance (a float an extended real, a bit a word of width one).

  Out of bit tensors y[w,R,Q,r,k] and z[w,R,Q,k,q] (w < 4, R, Q < 32, r, q < 128, k < 16) and scalars
  a, b, c[w,R,Q], d[R,Q], a 128 x 128 tile is
      tile[R,Q](r,q) = (sum over w of ((a * sum_k y*z + b * sum_k y) + c * sum_k z)) + d,
  the weight matrix is, tile by tile, that tile where the mask bit of (R,Q) is set and the given matrix fw elsewhere,
      weight(j,k) = if mask[j/128, k/128] then tile[j/128, k/128](j%128, k%128) else fw(j,k),
  and the result is the affine map
      out(i,j) = (sum over k < 4096 of X(i,k) * weight(j,k)) + bias(j).
-/
import Idealize.ShloMosaic.PureOps.Ideal
import Idealize.ShloMosaic.Lib.ValueIdx

noncomputable section

open scoped BigOperators

namespace Cert.MaskedFactorLinear

open Idealize.ShloMosaic Idealize.ShloMosaic.ValueIdx

/-- A bit read as a number: 0 or 1. -/
def bitR (b : BitVec 1) : EReal := ((b.toNat : ℝ) : EReal)

section
variable (Y : (⟨5, ![4, 32, 32, 128, 16]⟩ : Shape).Idx → BitVec 1) (Z : (⟨5, ![4, 32, 32, 16, 128]⟩ : Shape).Idx → BitVec 1)
  (a b c : (⟨5, ![4, 32, 32, 1, 1]⟩ : Shape).Idx → EReal) (d : (⟨4, ![32, 32, 1, 1]⟩ : Shape).Idx → EReal)
  (fw : (⟨2, ![4096, 4096]⟩ : Shape).Idx → EReal) (mask : (⟨2, ![32, 32]⟩ : Shape).Idx → BitVec 1)

/-- One factor term: a * (y z) + b * (row sums of y) + c * (column sums of z), at (r, q) of tile (R, Q), factor w. -/
def term (w : Fin 4) (R Q : Fin 32) (r q : Fin 128) : EReal :=
  (a (ix5 w R Q (0 : Fin 1) (0 : Fin 1)) * (∑ k : Fin 16, bitR (Y (ix5 w R Q r k)) * bitR (Z (ix5 w R Q k q)))
    + b (ix5 w R Q (0 : Fin 1) (0 : Fin 1)) * (∑ k : Fin 16, bitR (Y (ix5 w R Q r k))))
    + c (ix5 w R Q (0 : Fin 1) (0 : Fin 1)) * (∑ k : Fin 16, bitR (Z (ix5 w R Q k q)))

/-- The reconstructed tile (R, Q) at (r, q). -/
def tile (R Q : Fin 32) (r q : Fin 128) : EReal :=
  (∑ w : Fin 4, term Y Z a b c w R Q r q) + d (ix4 R Q (0 : Fin 1) (0 : Fin 1))

/-- The blended weight matrix at row j, column k. -/
def weight (j k : Fin 4096) : EReal :=
  if mask (ix2 (⟨j.val / 128, by omega⟩ : Fin 32) (⟨k.val / 128, by omega⟩ : Fin 32)) = 1#1 then
    tile Y Z a b c d ⟨j.val / 128, by omega⟩ ⟨k.val / 128, by omega⟩ ⟨j.val % 128, by omega⟩ ⟨k.val % 128, by omega⟩
  else fw (ix2 j k)

variable (X : (⟨2, ![8192, 4096]⟩ : Shape).Idx → EReal) (bias : (⟨1, ![4096]⟩ : Shape).Idx → EReal)

/-- The result at (i, j). -/
def outAt (i : Fin 8192) (j : Fin 4096) : EReal :=
  (∑ k : Fin 4096, X (ix2 i k) * weight Y Z a b c d fw mask j k) + bias (ix1 j)

/-- The result array. -/
def G : (⟨2, ![8192, 4096]⟩ : Shape).Idx → EReal := fun p => outAt Y Z a b c d fw mask X bias (p 0) (p 1)

end

end Cert.MaskedFactorLinear

end
-- ==== Proof.KernelIsSpec.lean ====
/-
  The kernel computes the specification.

  The weight stage's output array, read at an index, is the specification's blended weight matrix of the launch
  contents: the host's conversions make the factor tensors' entries the bits read as numbers and the mask word of a
  tile zero exactly when its bit is not set. The matrix-product stage then reads that array as its right operand, the
  launched X as its left one and the launched bias, so its result array is the specification's result; and the
  two-stage run ends with the result array there and every argument array as launched.
-/
import proofs.«148910_j25589415149865_1_alg».proof.Proof.FrameOf
import proofs.«148910_j25589415149865_1_alg».proof.Proof.MatmulValue
import proofs.«148910_j25589415149865_1_alg».proof.Proof.WeightValue
import proofs.«148910_j25589415149865_1_alg».proof.Proof.WeightAt
import proofs.«148910_j25589415149865_1_alg».proof.Proof.HostPrefix
import proofs.«148910_j25589415149865_1_alg».proof.Proof.Spec

set_option maxRecDepth 16384

noncomputable section

open scoped BigOperators

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section
variable (m : (ℓ : Loc nD τ sig) → Buf (Elt Ideal) ℓ)

/-- The weight stage's output array is the specification's blended weight matrix of the launch contents: the widened mask
    word of a tile is zero exactly when its mask bit is not set, and at entry the converted factor tensors are the bits read
    as numbers, the transposed scalars the scalars, the other two arrays as launched. -/
theorem kernel_weight (c : Dev nD) (j k : Fin 4096) :
    Wgen (F := Ideal) (E1 m) c (ix2 j k)
      = Cert.MaskedFactorLinear.weight (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg9)) j k := by
  obtain rfl : c = 0 := Subsingleton.elim _ _
  rw [Wgen_apply]
  unfold weightAt Cert.MaskedFactorLinear.weight
  have hz := entry_v7_zero m 0 (⟨j.val / 128, by omega⟩ : Fin 32) (⟨k.val / 128, by omega⟩ : Fin 32)
  by_cases hm : m (((0 : Dev nD).tc : Thread nD τ).loc main_arg9) (ix2 (⟨j.val / 128, by omega⟩ : Fin 32) (⟨k.val / 128, by omega⟩ : Fin 32)) = 1#1
  · rw [if_pos hm]
    refine Eq.trans (if_neg fun h => hz.mp h hm) ?_
    unfold Cert.MaskedFactorLinear.tile Cert.MaskedFactorLinear.term Cert.MaskedFactorLinear.bitR
    refine congrArg₂ (fun x y : EReal => x + y) (Finset.sum_congr rfl fun w _ => ?_) (congrFun (entry_arg6 m 0) _)
    refine congrArg₂ (fun x y : EReal => x + y) (congrArg₂ (fun x y : EReal => x + y) (congrArg₂ (fun x y : EReal => x * y) (entry_v4 m 0 _ _ w) (Finset.sum_congr rfl fun id _ => congrArg₂ (fun x y : EReal => x * y) (entry_v1 m 0 _ _ w _ id) (entry_v3 m 0 _ _ w _ id)))
      (congrArg₂ (fun x y : EReal => x * y) (entry_v5 m 0 _ _ w) (Finset.sum_congr rfl fun id _ => entry_v1 m 0 _ _ w _ id)))
      (congrArg₂ (fun x y : EReal => x * y) (entry_v6 m 0 _ _ w) (Finset.sum_congr rfl fun id _ => entry_v3 m 0 _ _ w _ id))
  · rw [if_neg hm]
    refine Eq.trans (if_pos (hz.mpr hm)) ?_
    exact congrFun (entry_arg7 m 0) _

/-- THE KERNEL'S VALUE: the result array after the second stage is the specification's result of the launch contents. -/
theorem kernel_result (c : Dev nD) :
    (dat1 (F := Ideal) (E2 m) c).arrAt 3 cfg1.N
      = Cert.MaskedFactorLinear.G (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg9)) (m ((c.tc : Thread nD τ).loc main_arg0)) (m ((c.tc : Thread nD τ).loc main_arg8)) := by
  have hX : E2 m c main_arg0 = m ((c.tc : Thread nD τ).loc main_arg0) := (W2_of_ne m c main_arg0 (by decide)).trans (V1_of m c main_arg0 (by decide))
  have hB : E2 m c main_arg8 = m ((c.tc : Thread nD τ).loc main_arg8) := (W2_of_ne m c main_arg8 (by decide)).trans (V1_of m c main_arg8 (by decide))
  have hW : E2 m c main_v8 = Wgen (F := Ideal) (E1 m) c := (W2_arr m c 7).trans (final0 (E1 m) c)
  rw [final1]
  funext p
  show (∑ k : Fin 4096, lhsAt (E2 m) c (p 0) k * rhsAt (E2 m) c (p 1) k) + biasAt (E2 m) c (p 1) = _
  unfold Cert.MaskedFactorLinear.G Cert.MaskedFactorLinear.outAt
  exact congrArg₂ (fun x y : EReal => x + y)
    (Finset.sum_congr rfl fun k _ => congrArg₂ (fun x y : EReal => x * y) (congrFun hX (ix2 (p 0) k)) ((congrFun hW (ix2 (p 1) k)).trans (kernel_weight m c (p 1) k)))
    (congrFun hB (ix1 (p 1)))

/-- The run, read: every weakly fair execution of the kernel terminates with the result array at the specification's
    result of the launch contents and every argument array as launched. -/
theorem kernel_run (ρ : Dev nD → PrngReg) : θ_run (defs (F := Ideal)) (onTc (τ := τ) (main (F := Ideal))) ⟨m, fun _ => 0, ρ⟩ (fun r => ∀ c : Dev nD,
      r.2.mem ((c.tc : Thread nD τ).loc main_v9)
        = Cert.MaskedFactorLinear.G (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg9)) (m ((c.tc : Thread nD τ).loc main_arg0)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (kernel_result m c), (h c).2⟩) (run_result m ρ)

end

end Cert.KernelIdeal.Frm

end
-- ==== Proof.RefIsSpec.lean ====
/-
  The reference program computes the specified function.

  Reading the reference's result at an index (i, j) and following its operations back to the arguments gives:
  the final addition of the bias row; the contraction over k of X(i,k) with the transposed, blended weight matrix;
  the selection, by the mask bit of tile (j/128, k/128), between the reconstructed tile entry and the given matrix;
  and the tile entry as the sum over the four factors of a * (y z) + b * (row sum of y) + c * (column sum of z), plus d.
  The reshapes between [32,128,32,128] (and [4096,32,128], [32,128,32]) and [4096,4096] are row-major, so a row j is
  the pair (j / 128, j % 128). Each lemma below reads one group of operations at an index written in coordinates.
-/
import proofs.«148910_j25589415149865_1_alg».proof.Proof.Gen.ReferenceIdeal.Read
import proofs.«148910_j25589415149865_1_alg».proof.Proof.Spec

noncomputable section

open scoped BigOperators

namespace Cert.ReferenceIdeal.RefValue

open Cert.ReferenceIdeal Cert.ReferenceIdeal.Read Cert.MaskedFactorLinear
open Idealize.ShloMosaic Idealize.ShloMosaic.ValueIdx

/-! ## The mask, read at (k, j) -/

/-- The mask's broadcast-and-reshape chain reads the bit of tile (k / 128, j / 128). -/
theorem mask_idx (k j : Fin 4096) :
    idx_main_v22 (idx_main_v23 (idx_main_v24 (idx_main_v25 (ix2 k j))))
      = ix2 (⟨k.val / 128, by omega⟩ : Fin 32) (⟨j.val / 128, by omega⟩ : Fin 32) := by
  have hk := k.isLt
  have hj := j.isLt
  funext d
  match d with
  | ⟨0, _⟩ =>
    refine Fin.ext ?_
    show ((k.val * 4096 + j.val) / 4096 * 32 + (k.val * 4096 + j.val) / 128 % 32) / 4096 = k.val / 128
    omega
  | ⟨1, _⟩ =>
    refine Fin.ext ?_
    show ((k.val * 4096 + j.val) / 4096 * 32 + (k.val * 4096 + j.val) / 128 % 32) % 32 = j.val / 128
    omega

theorem mask_at (x9 : (⟨S32x32, .i1⟩ : BufTy).Contents (Elt Ideal)) (k j : Fin 4096) :
    val_main_v25 (F := Ideal) x9 (ix2 k j)
      = x9 (ix2 (⟨k.val / 128, by omega⟩ : Fin 32) (⟨j.val / 128, by omega⟩ : Fin 32)) := by
  rw [val_main_v25_apply, val_main_v24_apply, val_main_v23_apply, val_main_v22_apply, mask_idx]

/-! ## The tile array, read at (k, j) of the reshaped matrix -/

/-- The transpose-and-reshape of the tile array reads tile (k / 128, j / 128) at (k % 128, j % 128). -/
theorem tile_idx (k j : Fin 4096) :
    idx_main_v20 (idx_main_v21 (ix2 k j))
      = ix4 (⟨k.val / 128, by omega⟩ : Fin 32) (⟨j.val / 128, by omega⟩ : Fin 32)
          (⟨k.val % 128, by omega⟩ : Fin 128) (⟨j.val % 128, by omega⟩ : Fin 128) := by
  have hk := k.isLt
  have hj := j.isLt
  funext d
  match d with
  | ⟨0, _⟩ =>
    refine Fin.ext ?_
    show (k.val * 4096 + j.val) / 524288 = k.val / 128
    omega
  | ⟨1, _⟩ =>
    refine Fin.ext ?_
    show (k.val * 4096 + j.val) / 128 % 32 = j.val / 128
    omega
  | ⟨2, _⟩ =>
    refine Fin.ext ?_
    show (k.val * 4096 + j.val) / 4096 % 128 = k.val % 128
    omega
  | ⟨3, _⟩ =>
    refine Fin.ext ?_
    show (k.val * 4096 + j.val) % 128 = j.val % 128
    omega

/-! ## The tile's arithmetic -/

section Tile

variable (x1 : (⟨S4x32x32x128x16, .i1⟩ : BufTy).Contents (Elt Ideal)) (x2 : (⟨S4x32x32x16x128, .i1⟩ : BufTy).Contents (Elt Ideal))
  (x3 x4 x5 : (⟨S4x32x32x1x1, .f32⟩ : BufTy).Contents (Elt Ideal)) (x6 : (⟨S32x32x1x1, .f32⟩ : BufTy).Contents (Elt Ideal))

/-- A converted bit of y is the bit read as a number. -/
theorem y_at (i : S4x32x32x128x16.Idx) : val_main_v0 (F := Ideal) x1 i = bitR (x1 i) := rfl

/-- A converted bit of z is the bit read as a number. -/
theorem z_at (i : S4x32x32x16x128.Idx) : val_main_v1 (F := Ideal) x2 i = bitR (x2 i) := rfl

/-- The batched product y z at (w, R, Q, r, q). -/
theorem yz_at (w : Fin 4) (R Q : Fin 32) (r q : Fin 128) :
    val_main_v2 (F := Ideal) x1 x2 (ix5 w R Q r q)
      = ∑ k : Fin 16, bitR (x1 (ix5 w R Q r k)) * bitR (x2 (ix5 w R Q k q)) := by
  rw [val_main_v2_apply]
  refine Finset.sum_congr rfl fun k _ => ?_
  rw [y_at, z_at]
  have e1 : lidx_main_v2 (ix5 w R Q r q) k = ix5 w R Q r k :=
    funext fun a => by match a with | ⟨0, _⟩ => rfl | ⟨1, _⟩ => rfl | ⟨2, _⟩ => rfl | ⟨3, _⟩ => rfl | ⟨4, _⟩ => rfl
  have e2 : ridx_main_v2 (ix5 w R Q r q) k = ix5 w R Q k q :=
    funext fun a => by match a with | ⟨0, _⟩ => rfl | ⟨1, _⟩ => rfl | ⟨2, _⟩ => rfl | ⟨3, _⟩ => rfl | ⟨4, _⟩ => rfl
  rw [e1, e2]

/-- The row sums of y at (w, R, Q, r). -/
theorem ysum_at (w : Fin 4) (R Q : Fin 32) (r : Fin 128) :
    val_main_v3 (F := Ideal) x1 (ix4 w R Q r) = ∑ k : Fin 16, bitR (x1 (ix5 w R Q r k)) := by
  rw [val_main_v3_apply, val_main_cst_apply, Ideal.ofBits_def, Ideal.ofBits_zero_f32, zero_add]
  refine Finset.sum_congr rfl fun k _ => ?_
  rw [y_at]
  have e1 : idx_main_v3 (ix4 w R Q r) k = ix5 w R Q r k :=
    funext fun a => by match a with | ⟨0, _⟩ => rfl | ⟨1, _⟩ => rfl | ⟨2, _⟩ => rfl | ⟨3, _⟩ => rfl | ⟨4, _⟩ => rfl
  rw [e1]

/-- The column sums of z at (w, R, Q, q). -/
theorem zsum_at (w : Fin 4) (R Q : Fin 32) (q : Fin 128) :
    val_main_v5 (F := Ideal) x2 (ix4 w R Q q) = ∑ k : Fin 16, bitR (x2 (ix5 w R Q k q)) := by
  rw [val_main_v5_apply, val_main_cst_0_apply, Ideal.ofBits_def, Ideal.ofBits_zero_f32, zero_add]
  refine Finset.sum_congr rfl fun k _ => ?_
  rw [z_at]
  have e1 : idx_main_v5 (ix4 w R Q q) k = ix5 w R Q k q :=
    funext fun a => by match a with | ⟨0, _⟩ => rfl | ⟨1, _⟩ => rfl | ⟨2, _⟩ => rfl | ⟨3, _⟩ => rfl | ⟨4, _⟩ => rfl
  rw [e1]

/-- One factor's term a * (y z) + b * (row sums of y) + c * (column sums of z), at (w, R, Q, r, q). -/
theorem term_at (w : Fin 4) (R Q : Fin 32) (r q : Fin 128) :
    val_main_v16 (F := Ideal) x1 x2 x3 x4 x5 (ix5 w R Q r q) = term x1 x2 x3 x4 x5 w R Q r q := by
  have e7 : idx_main_v7 (ix5 w R Q r q) = ix5 w R Q (0 : Fin 1) (0 : Fin 1) :=
    funext fun a => by match a with | ⟨0, _⟩ => rfl | ⟨1, _⟩ => rfl | ⟨2, _⟩ => rfl | ⟨3, _⟩ => rfl | ⟨4, _⟩ => rfl
  have e9 : idx_main_v9 (idx_main_v11 (ix5 w R Q r q)) = ix5 w R Q (0 : Fin 1) (0 : Fin 1) :=
    funext fun a => by match a with | ⟨0, _⟩ => rfl | ⟨1, _⟩ => rfl | ⟨2, _⟩ => rfl | ⟨3, _⟩ => rfl | ⟨4, _⟩ => rfl
  have e4 : idx_main_v4 (idx_main_v11 (ix5 w R Q r q)) = ix4 w R Q r :=
    funext fun a => by match a with | ⟨0, _⟩ => rfl | ⟨1, _⟩ => rfl | ⟨2, _⟩ => rfl | ⟨3, _⟩ => rfl
  have e13 : idx_main_v13 (idx_main_v15 (ix5 w R Q r q)) = ix5 w R Q (0 : Fin 1) (0 : Fin 1) :=
    funext fun a => by match a with | ⟨0, _⟩ => rfl | ⟨1, _⟩ => rfl | ⟨2, _⟩ => rfl | ⟨3, _⟩ => rfl | ⟨4, _⟩ => rfl
  have e6 : idx_main_v6 (idx_main_v15 (ix5 w R Q r q)) = ix4 w R Q q :=
    funext fun a => by match a with | ⟨0, _⟩ => rfl | ⟨1, _⟩ => rfl | ⟨2, _⟩ => rfl | ⟨3, _⟩ => rfl
  rw [val_main_v16_apply, val_main_v12_apply, val_main_v8_apply, val_main_v7_apply, val_main_v11_apply,
    val_main_v10_apply, val_main_v9_apply, val_main_v4_apply, val_main_v15_apply, val_main_v14_apply,
    val_main_v13_apply, val_main_v6_apply, e7, e9, e4, e13, e6, yz_at, ysum_at, zsum_at]
  rfl

/-- The reconstructed tile (R, Q) at (r, q): the sum of the four factor terms, plus d. -/
theorem tile_at (R Q : Fin 32) (r q : Fin 128) :
    val_main_v19 (F := Ideal) x1 x2 x3 x4 x5 x6 (ix4 R Q r q) = tile x1 x2 x3 x4 x5 x6 R Q r q := by
  have e18 : idx_main_v18 (ix4 R Q r q) = ix4 R Q (0 : Fin 1) (0 : Fin 1) :=
    funext fun a => by match a with | ⟨0, _⟩ => rfl | ⟨1, _⟩ => rfl | ⟨2, _⟩ => rfl | ⟨3, _⟩ => rfl
  have e17 : ∀ w : Fin 4, idx_main_v17 (ix4 R Q r q) w = ix5 w R Q r q := fun w =>
    funext fun a => by match a with | ⟨0, _⟩ => rfl | ⟨1, _⟩ => rfl | ⟨2, _⟩ => rfl | ⟨3, _⟩ => rfl | ⟨4, _⟩ => rfl
  rw [val_main_v19_apply, val_main_v17_apply, val_main_cst_1_apply, Ideal.ofBits_def, Ideal.ofBits_zero_f32, zero_add,
    val_main_v18_apply, e18]
  unfold tile
  refine congrArg (· + x6 (ix4 R Q (0 : Fin 1) (0 : Fin 1))) (Finset.sum_congr rfl fun w _ => ?_)
  rw [e17, term_at]

end Tile

/-! ## The blended weight matrix and the affine map -/

section Out

variable (x0 : (⟨S8192x4096, .f32⟩ : BufTy).Contents (Elt Ideal))
  (x1 : (⟨S4x32x32x128x16, .i1⟩ : BufTy).Contents (Elt Ideal)) (x2 : (⟨S4x32x32x16x128, .i1⟩ : BufTy).Contents (Elt Ideal))
  (x3 x4 x5 : (⟨S4x32x32x1x1, .f32⟩ : BufTy).Contents (Elt Ideal)) (x6 : (⟨S32x32x1x1, .f32⟩ : BufTy).Contents (Elt Ideal))
  (x7 : (⟨S4096x4096, .f32⟩ : BufTy).Contents (Elt Ideal)) (x8 : (⟨S4096, .f32⟩ : BufTy).Contents (Elt Ideal))
  (x9 : (⟨S32x32, .i1⟩ : BufTy).Contents (Elt Ideal))

/-- The selected matrix at (j, k): the tile entry where the tile's mask bit is set, the given matrix elsewhere. -/
theorem weight_at (j k : Fin 4096) :
    val_main_v26 (F := Ideal) x1 x2 x3 x4 x5 x6 x7 x9 (ix2 j k) = weight x1 x2 x3 x4 x5 x6 x7 x9 j k := by
  rw [val_main_v26_apply, mask_at, val_main_v21_apply, val_main_v20_apply, tile_idx, tile_at]
  unfold weight
  by_cases h : x9 (ix2 (⟨j.val / 128, by omega⟩ : Fin 32) (⟨k.val / 128, by omega⟩ : Fin 32)) = 1#1
  · rw [if_pos h, h, select_one]
  · rw [if_neg h, eq_zero_of_ne_one h, select_zero]

end Out

/-- The reference's result is the specified array. -/
theorem ref_is_G (x0 : (⟨S8192x4096, .f32⟩ : BufTy).Contents (Elt Ideal)) (x1 : (⟨S4x32x32x128x16, .i1⟩ : BufTy).Contents (Elt Ideal)) (x2 : (⟨S4x32x32x16x128, .i1⟩ : BufTy).Contents (Elt Ideal)) (x3 x4 x5 : (⟨S4x32x32x1x1, .f32⟩ : BufTy).Contents (Elt Ideal)) (x6 : (⟨S32x32x1x1, .f32⟩ : BufTy).Contents (Elt Ideal)) (x7 : (⟨S4096x4096, .f32⟩ : BufTy).Contents (Elt Ideal)) (x8 : (⟨S4096, .f32⟩ : BufTy).Contents (Elt Ideal)) (x9 : (⟨S32x32, .i1⟩ : BufTy).Contents (Elt Ideal)) :
    Cert.ReferenceIdeal.Read.val_main_v31 (F := Ideal) x0 x1 x2 x3 x4 x5 x6 x7 x8 x9 = Cert.MaskedFactorLinear.G x1 x2 x3 x4 x5 x6 x7 x9 x0 x8 := by
  funext p
  obtain ⟨i, j, rfl⟩ : ∃ (i : Fin 8192) (j : Fin 4096), p = ix2 i j := ⟨p 0, p 1, eq_ix2 p⟩
  have e30 : idx_main_v29 (idx_main_v30 (ix2 i j)) = ix1 j :=
    funext fun a => by match a with | ⟨0, _⟩ => rfl
  have el : ∀ k : Fin 4096, lidx_main_v28 (ix2 i j) k = ix2 i k := fun k =>
    funext fun a => by match a with | ⟨0, _⟩ => rfl | ⟨1, _⟩ => rfl
  have er : ∀ k : Fin 4096, idx_main_v27 (ridx_main_v28 (ix2 i j) k) = ix2 j k := fun k =>
    funext fun a => by match a with | ⟨0, _⟩ => rfl | ⟨1, _⟩ => rfl
  rw [val_main_v31_apply, val_main_v28_apply, val_main_v30_apply, val_main_v29_apply, e30]
  show _ = outAt x1 x2 x3 x4 x5 x6 x7 x9 x0 x8 i j
  unfold outAt
  refine congrArg (· + x8 (ix1 j)) (Finset.sum_congr rfl fun k _ => ?_)
  rw [val_main_v27_apply, er, weight_at, el]

end Cert.ReferenceIdeal.RefValue

end
-- ==== Proof.lean ====
/-
  The certificate's claim, assembled.

  The kernel program reconstructs a 4096 x 4096 weight matrix tile by tile — where the mask bit of a 128 x 128 tile is set, the
  tile is (sum over four factors of a * (y z) + b * (row sums of y) + c * (column sums of z)) + d for bit matrices y, z; elsewhere
  it is the given matrix's tile — and then computes X W^T + bias, accumulating the product over eight blocks of the contraction
  axis. The reference computes the same weight matrix with one batched product and the same affine map with one product. Over the
  extended reals the two results are the same expression up to the grouping of one finite sum into eight consecutive blocks, which
  needs only that addition is associative and commutative: no finiteness of the inputs is used.

  Both kernel programs (the printed one and its reading at the exact instance) run to the end with their argument arrays unchanged:
  each of the two stages is entered from "every buffer of the core held at known contents", runs its grid through the pipeline
  library's region rule, and gives the buffers back with its output array at what its write-backs leave. The reference's run and its
  operations read at an index are the generated modules'; that its last stage is the specification, and that the kernel's result
  array is the specification, are proved in the modules imported here.
-/
import proofs.«148910_j25589415149865_1_alg».proof.Defs
import proofs.«148910_j25589415149865_1_alg».proof.Proof.Gen.Kernel
import proofs.«148910_j25589415149865_1_alg».proof.Proof.Gen.KernelIdeal
import proofs.«148910_j25589415149865_1_alg».proof.Proof.Gen.ReferenceIdeal
import proofs.«148910_j25589415149865_1_alg».proof.Proof.Gen.Pre_finite_inputs
import proofs.«148910_j25589415149865_1_alg».proof.Proof.FrameOfW
import proofs.«148910_j25589415149865_1_alg».proof.Proof.FrameOf
import proofs.«148910_j25589415149865_1_alg».proof.Proof.KernelIsSpec
import proofs.«148910_j25589415149865_1_alg».proof.Proof.RefIsSpec
import Idealize.ShloMosaic.Adequacy
import Idealize.ShloMosaic.Init

noncomputable section

namespace Cert.Proof

open Idealize.ShloMosaic Idealize.ShloMosaic.TcCoe Idealize.SL.Sem

/-- The printed kernel program runs to the end and leaves its arguments unchanged. -/
theorem frame_k : Cert.frame_Kernel := fun m ρ _ => Cert.Kernel.Frm.frame m ρ
/-- So does its reading at the exact instance. -/
theorem frame_ki : Cert.frame_KernelIdeal := fun m ρ _ => Cert.KernelIdeal.Frm.frame m ρ
/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specification's array of the arguments. -/
theorem algebraic : Cert.algebraic_KernelIdeal_ReferenceIdeal := by
  intro m ρ m' ρ' _ hagree
  refine ⟨_, Cert.KernelIdeal.Frm.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [e0, e1, e2, e3, e4, e5, e6, e7, e8, e9]
  exact (Cert.ReferenceIdeal.Read.val_main_v31_eq (F := Ideal) _ _ _ _ _ _ _ _ _ _).trans (Cert.ReferenceIdeal.RefValue.ref_is_G _ _ _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
